-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S20000x3x128 : Shape := ⟨3, ![20000, 3, 128]⟩
abbrev S20000x64 : Shape := ⟨2, ![20000, 64]⟩
abbrev S2x400000 : Shape := ⟨2, ![2, 400000]⟩
abbrev S400000x64 : Shape := ⟨2, ![400000, 64]⟩
abbrev S384x64 : Shape := ⟨2, ![384, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1x128 : Shape := ⟨3, ![1, 1, 128]⟩
abbrev S_ : Shape := ⟨0, ![]⟩

class Facts : Prop where
  bcast_S_S20000x3x128 : S_.BroadcastsInDim S20000x3x128 (![] : Fin 0 → Fin S20000x3x128.rank)
  reducesTo_S20000x3x128_S_d0_1_2 : S20000x3x128.ReducesTo [0, 1, 2] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S400000x64 : S_.BroadcastsInDim S400000x64 (![] : Fin 0 → Fin S400000x64.rank)
  reducesTo_S400000x64_S_d0_1 : S400000x64.ReducesTo [0, 1] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S1x1x128 : S_.BroadcastsInDim S1x1x128 (![] : Fin 0 → Fin S1x1x128.rank)
  reducesTo_S1x1x128_S_d0_1_2 : S1x1x128.ReducesTo [0, 1, 2] S_

variable [Facts]

def fn_part4 {F : FTy → Type} [FloatOps F] (main_arg16 : FVec F S1x1x128 .f32) (main_v63 : IVec S_ 1) (main_v67 : IVec S_ 1) : IVec S_ 1 :=
  let main_v68 : IVec S_ 1 := andi main_v63 main_v67
  let main_v69 : FVec F S1x1x128 .f32 := Host.absf main_arg16
  let main_cst_26 : FVec F S_ .f32 := constant S_ .f32 0x7F800000#32
  let main_v70 : FVec F S1x1x128 .f32 := broadcastInDim S1x1x128 ![] bcast_S_S1x1x128 main_cst_26
  let main_v71 : IVec S1x1x128 1 := cmpf .olt main_v69 main_v70
  let main_c_27 : IVec S_ 1 := constantI S_ 1 1#1
  let main_v72 : IVec S_ 1 := (fun x v => Host.reduce IntOp.andi x v reducesTo_S1x1x128_S_d0_1_2 h_S_) main_v71 main_c_27
  let main_v73 : IVec S_ 1 := andi main_v68 main_v72
  main_v73

def fn_part3 {F : FTy → Type} [FloatOps F] (main_arg13 : FVec F S128 .f32) (main_arg14 : FVec F S64 .f32) (main_arg15 : FVec F S64 .f32) (main_arg16 : FVec F S1x1x128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_v63 main_v67

def fn_part2 {F : FTy → Type} [FloatOps F] (main_arg9 : FVec F S64 .f32) (main_arg10 : FVec F S64x64 .f32) (main_arg11 : FVec F S64 .f32) (main_arg12 : FVec F S64x128 .f32) (main_arg13 : FVec F S128 .f32) (main_arg14 : FVec F S64 .f32) (main_arg15 : FVec F S64 .f32) (main_arg16 : FVec F S1x1x128 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_arg14 main_arg15 main_arg16 main_v48 main_v49 main_v50

def fn_part1 {F : FTy → Type} [FloatOps F] (main_arg6 : FVec F S384x64 .f32) (main_arg7 : FVec F S64 .f32) (main_arg8 : FVec F S64x64 .f32) (main_arg9 : FVec F S64 .f32) (main_arg10 : FVec F S64x64 .f32) (main_arg11 : FVec F S64 .f32) (main_arg12 : FVec F S64x128 .f32) (main_arg13 : FVec F S128 .f32) (main_arg14 : FVec F S64 .f32) (main_arg15 : FVec F S64 .f32) (main_arg16 : FVec F S1x1x128 .f32) (main_v13 : IVec S_ 1) (main_v16 : IVec S400000x64 1) : IVec S_ 1 :=
  let main_c_5 : IVec S_ 1 := constantI S_ 1 1#1
  let main_v17 : IVec S_ 1 := (fun x v => Host.reduce IntOp.andi x v reducesTo_S400000x64_S_d0_1 h_S_) main_v16 main_c_5
  let main_v18 : IVec S_ 1 := andi main_v13 main_v17
  let main_v19 : FVec F S384x64 .f32 := Host.absf main_arg6
  let main_cst_6 : FVec F S_ .f32 := constant S_ .f32 0x7F800000#32
  let main_v20 : FVec F S384x64 .f32 := broadcastInDim S384x64 ![] bcast_S_S384x64 main_cst_6
  let main_v21 : IVec S384x64 1 := cmpf .olt main_v19 main_v20
  let main_c_7 : IVec S_ 1 := constantI S_ 1 1#1
  let main_v22 : IVec S_ 1 := (fun x v => Host.reduce IntOp.andi x v reducesTo_S384x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : IVec S20000 32) (main_arg1 : FVec F S20000x3x128 .f32) (main_arg2 : FVec F S20000x64 .f32) (main_arg3 : IVec S2x400000 32) (main_arg4 : FVec F S400000x64 .f32) (main_arg5 : FVec F S400000x64 .f32) (main_arg6 : FVec F S384x64 .f32) (main_arg7 : FVec F S64 .f32) (main_arg8 : FVec F S64x64 .f32) (main_arg9 : FVec F S64 .f32) (main_arg10 : FVec F S64x64 .f32) (main_arg11 : FVec F S64 .f32) (main_arg12 : FVec F S64x128 .f32) (main_arg13 : FVec F S128 .f32) (main_arg14 : FVec F S64 .f32) (main_arg15 : FVec F S64 .f32) (main_arg16 : FVec F S1x1x128 .f32) : IVec S_ 1 :=
  let main_v0 : FVec F S20000x3x128 .f32 := Host.absf main_arg1
  let main_cst : FVec F S_ .f32 := constant S_ .f32 0x7F800000#32
  let main_v1 : FVec F S20000x3x128 .f32 := broadcastInDim S20000x3x128 ![] bcast_S_S20000x3x128 main_cst
  let main_v2 : IVec S20000x3x128 1 := cmpf .olt main_v0 main_v1
  let main_c : IVec S_ 1 := constantI S_ 1 1#1
  let main_v3 : IVec S_ 1 := (fun x v => Host.reduce IntOp.andi x v reducesTo_S20000x3x128_S_d0_1_2 h_S_) main_v2 main_c
  let main_v4 : FVec F S20000x64 .f32 := Host.absf main_arg2
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S400000x64 .f32 := Host.absf main_arg4
  let main_cst_2 : FVec F S_ .f32 := constant S_ .f32 0x7F800000#32
  let main_v10 : FVec F S400000x64 .f32 := broadcastInDim S400000x64 ![] bcast_S_S400000x64 main_cst_2
  let main_v11 : IVec S400000x64 1 := cmpf .olt main_v9 main_v10
  let main_c_3 : IVec S_ 1 := constantI S_ 1 1#1
  let main_v12 : IVec S_ 1 := (fun x v => Host.reduce IntOp.andi x v reducesTo_S400000x64_S_d0_1 h_S_) main_v11 main_c_3
  let main_v13 : IVec S_ 1 := andi main_v8 main_v12
  let main_v14 : FVec F S400000x64 .f32 := Host.absf main_arg5
  let main_cst_4 : FVec F S_ .f32 := constant S_ .f32 0x7F800000#32
  let main_v15 : FVec F S400000x64 .f32 := broadcastInDim S400000x64 ![] bcast_S_S400000x64 main_cst_4
  let main_v16 : IVec S400000x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S20000 : Shape := ⟨1, ![20000]⟩
abbrev S20000x3x128 : Shape := ⟨3, ![20000, 3, 128]⟩
abbrev S20000x64 : Shape := ⟨2, ![20000, 64]⟩
abbrev S2x400000 : Shape := ⟨2, ![2, 400000]⟩
abbrev S400000x64 : Shape := ⟨2, ![400000, 64]⟩
abbrev S384x64 : Shape := ⟨2, ![384, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1x128 : Shape := ⟨3, ![1, 1, 128]⟩
abbrev S_ : Shape := ⟨0, ![]⟩
abbrev S20000x1 : Shape := ⟨2, ![20000, 1]⟩
abbrev S20000x1x1 : Shape := ⟨3, ![20000, 1, 1]⟩
abbrev S20000x128 : Shape := ⟨2, ![20000, 128]⟩
abbrev S20000x1x128 : Shape := ⟨3, ![20000, 1, 128]⟩
abbrev S1x64 : Shape := ⟨2, ![1, 64]⟩
abbrev S1x400000 : Shape := ⟨2, ![1, 400000]⟩
abbrev S400000 : Shape := ⟨1, ![400000]⟩
abbrev S400000x1 : Shape := ⟨2, ![400000, 1]⟩
abbrev S400000x3x128 : Shape := ⟨3, ![400000, 3, 128]⟩
abbrev S128x64 : Shape := ⟨2, ![128, 64]⟩
abbrev S1x128 : Shape := ⟨2, ![1, 128]⟩
abbrev S2000x64 : Shape := ⟨2, ![2000, 64]⟩
abbrev S2000x3x128 : Shape := ⟨3, ![2000, 3, 128]⟩
abbrev S2000x1x128 : Shape := ⟨3, ![2000, 1, 128]⟩
abbrev S2000x128 : Shape := ⟨2, ![2000, 128]⟩

abbrev nBuf : Space → Nat
  | .hbm => 173
  | .vmem => 24
  | .smem => 0
  | _ => 0

abbrev hbmTy0_0 (i : Nat) : BufTy := match i % 128 with
  | 0 => ⟨S20000, .i32⟩
  | 1 => ⟨S20000x3x128, .f32⟩
  | 2 => ⟨S20000x64, .f32⟩
  | 3 => ⟨S2x400000, .i32⟩
  | 4 => ⟨S400000x64, .f32⟩
  | 5 => ⟨S400000x64, .f32⟩
  | 6 => ⟨S384x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x128, .f32⟩
  | 13 => ⟨S128, .f32⟩
  | 14 => ⟨S64, .f32⟩
  | 15 => ⟨S64, .f32⟩
  | 16 => ⟨S1x1x128, .f32⟩
  | 17 => ⟨S_, .f32⟩
  | 18 => ⟨S20000x3x128, .f32⟩
  | 19 => ⟨S20000x1, .i32⟩
  | 20 => ⟨S20000x3x128, .f32⟩
  | 21 => ⟨S_, .f32⟩
  | 22 => ⟨S20000, .f32⟩
  | 23 => ⟨S_, .f32⟩
  | 24 => ⟨S20000, .f32⟩
  | 25 => ⟨S20000x1, .i32⟩
  | 26 => ⟨S20000, .f32⟩
  | 27 => ⟨S_, .f32⟩
  | 28 => ⟨S20000, .f32⟩
  | 29 => ⟨S20000, .f32⟩
  | 30 => ⟨S20000x1x1, .f32⟩
  | 31 => ⟨S20000x3x128, .f32⟩
  | 32 => ⟨S20000x3x128, .f32⟩
  | 33 => ⟨S_, .i32⟩
  | 34 => ⟨S20000, .i32⟩
  | 35 => ⟨S20000, .i1⟩
  | 36 => ⟨S_, .i32⟩
  | 37 => ⟨S20000, .i32⟩
  | 38 => ⟨S20000, .i32⟩
  | 39 => ⟨S20000, .i32⟩
  | 40 => ⟨S20000x1, .i32⟩
  | 41 => ⟨S20000x3x128, .f32⟩
  | 42 => ⟨S20000x3x128, .f32⟩
  | 43 => ⟨S20000x3x128, .f32⟩
  | 44 => ⟨S_, .f32⟩
  | 45 => ⟨S20000x128, .f32⟩
  | 46 => ⟨S20000x1x128, .f32⟩
  | 47 => ⟨S20000x1x128, .f32⟩
  | 48 => ⟨S_, .f32⟩
  | 49 => ⟨S20000x1x128, .f32⟩
  | 50 => ⟨S20000x1, .i32⟩
  | 51 => ⟨S20000x1x128, .f32⟩
  | 52 => ⟨S_, .f32⟩
  | 53 => ⟨S20000, .f32⟩
  | 54 => ⟨S_, .f32⟩
  | 55 => ⟨S20000, .f32⟩
  | 56 => ⟨S20000x1, .i32⟩
  | 57 => ⟨S20000, .f32⟩
  | 58 => ⟨S_, .f32⟩
  | 59 => ⟨S20000, .f32⟩
  | 60 => ⟨S20000, .f32⟩
  | 61 => ⟨S20000x1x1, .f32⟩
  | 62 => ⟨S20000x1x128, .f32⟩
  | 63 => ⟨S20000x1x128, .f32⟩
  | 64 => ⟨S20000x3x128, .f32⟩
  | 65 => ⟨S20000x3x128, .f32⟩
  | 66 => ⟨S_, .i32⟩
  | 67 => ⟨S20000, .i32⟩
  | 68 => ⟨S20000, .i1⟩
  | 69 => ⟨S_, .i32⟩
  | 70 => ⟨S20000, .i32⟩
  | 71 => ⟨S20000, .i32⟩
  | 72 => ⟨S20000, .i32⟩
  | 73 => ⟨S20000x1, .i32⟩
  | 74 => ⟨S20000x1x128, .f32⟩
  | 75 => ⟨S_, .f32⟩
  | 76 => ⟨S20000x1x128, .f32⟩
  | 77 => ⟨S20000x1x128, .f32⟩
  | 78 => ⟨S20000x3x128, .f32⟩
  | 79 => ⟨S20000x3x128, .f32⟩
  | 80 => ⟨S_, .f32⟩
  | 81 => ⟨S20000, .f32⟩
  | 82 => ⟨S20000x1, .f32⟩
  | 83 => ⟨S_, .f32⟩
  | 84 => ⟨S20000x1, .f32⟩
  | 85 => ⟨S20000x1, .f32⟩
  | 86 => ⟨S20000x64, .f32⟩
  | 87 => ⟨S20000x64, .f32⟩
  | 88 => ⟨S20000x64, .f32⟩
  | 89 => ⟨S_, .f32⟩
  | 90 => ⟨S20000, .f32⟩
  | 91 => ⟨S20000x1, .f32⟩
  | 92 => ⟨S_, .f32⟩
  | 93 => ⟨S20000x1, .f32⟩
  | 94 => ⟨S20000x1, .f32⟩
  | 95 => ⟨S20000x64, .f32⟩
  | 96 => ⟨S20000x64, .f32⟩
  | 97 => ⟨S1x64, .f32⟩
  | 98 => ⟨S20000x64, .f32⟩
  | 99 => ⟨S20000x64, .f32⟩
  | 100 => ⟨S_, .f32⟩
  | 101 => ⟨S20000x1, .f32⟩
  | 102 => ⟨S20000x1, .f32⟩
  | 103 => ⟨S20000x1, .f32⟩
  | 104 => ⟨S20000x64, .f32⟩
  | 105 => ⟨S20000x64, .f32⟩
  | 106 => ⟨S1x64, .f32⟩
  | 107 => ⟨S20000x64, .f32⟩
  | 108 => ⟨S20000x64, .f32⟩
  | 109 => ⟨S1x400000, .i32⟩
  | 110 => ⟨S400000, .i32⟩
  | 111 => ⟨S1x400000, .i32⟩
  | 112 => ⟨S400000, .i32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x3x128, .f32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S20000, .i32⟩

abbrev hbmTy0_1 (i : Nat) : BufTy := match i % 128 with
  | 0 => ⟨S400000, .i32⟩
  | 1 => ⟨S400000x1, .i32⟩
  | 2 => ⟨S400000x3x128, .f32⟩
  | 3 => ⟨S400000x3x128, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x64, .f32⟩
  | 13 => ⟨S400000x64, .bf16⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x64, .f32⟩
  | 23 => ⟨S400000x64, .bf16⟩
  | 24 => ⟨S400000x64, .bf16⟩
  | 25 => ⟨S400000x64, .bf16⟩
  | 26 => ⟨S384x64, .bf16⟩
  | 27 => ⟨S64x64, .bf16⟩
  | 28 => ⟨S64x64, .bf16⟩
  | 29 => ⟨S64x64, .bf16⟩
  | 30 => ⟨S128x64, .bf16⟩
  | 31 => ⟨S64x64, .bf16⟩
  | 32 => ⟨S1x64, .f32⟩
  | 33 => ⟨S64x64, .bf16⟩
  | 34 => ⟨S1x64, .f32⟩
  | 35 => ⟨S64x64, .bf16⟩
  | 36 => ⟨S1x64, .f32⟩
  | 37 => ⟨S64x128, .bf16⟩
  | 38 => ⟨S1x128, .f32⟩
  | 39 => ⟨S400000x3x128, .f32⟩
  | 40 => ⟨S_, .f32⟩
  | 41 => ⟨S20000x3x128, .f32⟩
  | 42 => ⟨S400000x1, .i32⟩
  | 43 => ⟨S20000x3x128, .f32⟩
  | 44 => ⟨S20000x3x128, .f32⟩
  | _ => ⟨S20000, .i32⟩

abbrev hbmTy (i : Nat) : BufTy := match i / 128 with
  | 0 => hbmTy0_0 i
  | 1 => hbmTy0_1 i
  | _ => ⟨S20000, .i32⟩

abbrev bufTy : (tb : Table) → Fin (tcTables nBuf tb) → BufTy
  | .hbm, ⟨i, _⟩ => hbmTy i
  | .local _ .vmem, ⟨0, _⟩ => ⟨S2000x64, .bf16⟩
  | .local _ .vmem, ⟨1, _⟩ => ⟨S2000x64, .bf16⟩
  | .local _ .vmem, ⟨2, _⟩ => ⟨S2000x64, .bf16⟩
  | .local _ .vmem, ⟨3, _⟩ => ⟨S2000x64, .bf16⟩
  | .local _ .vmem, ⟨4, _⟩ => ⟨S2000x64, .bf16⟩
  | .local _ .vmem, ⟨5, _⟩ => ⟨S2000x64, .bf16⟩
  | .local _ .vmem, ⟨6, _⟩ => ⟨S2000x64, .bf16⟩
  | .local _ .vmem, ⟨7, _⟩ => ⟨S2000x64, .bf16⟩
  | .local _ .vmem, ⟨8, _⟩ => ⟨S2000x3x128, .f32⟩
  | .local _ .vmem, ⟨9, _⟩ => ⟨S2000x3x128, .f32⟩
  | .local _ .vmem, ⟨10, _⟩ => ⟨S64x64, .bf16⟩
  | .local _ .vmem, ⟨11, _⟩ => ⟨S64x64, .bf16⟩
  | .local _ .vmem, ⟨12, _⟩ => ⟨S64x64, .bf16⟩
  | .local _ .vmem, ⟨13, _⟩ => ⟨S128x64, .bf16⟩
  | .local _ .vmem, ⟨14, _⟩ => ⟨S64x64, .bf16⟩
  | .local _ .vmem, ⟨15, _⟩ => ⟨S1x64, .f32⟩
  | .local _ .vmem, ⟨16, _⟩ => ⟨S64x64, .bf16⟩
  | .local _ .vmem, ⟨17, _⟩ => ⟨S1x64, .f32⟩
  | .local _ .vmem, ⟨18, _⟩ => ⟨S64x64, .bf16⟩
  | .local _ .vmem, ⟨19, _⟩ => ⟨S1x64, .f32⟩
  | .local _ .vmem, ⟨20, _⟩ => ⟨S64x128, .bf16⟩
  | .local _ .vmem, ⟨21, _⟩ => ⟨S1x128, .f32⟩
  | .local _ .vmem, ⟨22, _⟩ => ⟨S2000x3x128, .f32⟩
  | .local _ .vmem, ⟨23, _⟩ => ⟨S2000x3x128, .f32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_c_10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_14 : Ref sig .tc := ⟨.hbm, 89, rfl⟩
abbrev main_v56 : Ref sig .tc := ⟨.hbm, 90, rfl⟩
abbrev main_v57 : Ref sig .tc := ⟨.hbm, 91, rfl⟩
abbrev main_cst_15 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_17 : Ref sig .tc := ⟨.hbm, 113, rfl⟩
abbrev main_v77 : Ref sig .tc := ⟨.hbm, 114, rfl⟩
abbrev main_v78 : Ref sig .tc := ⟨.hbm, 115, rfl⟩
abbrev main_c_18 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_19 : Ref sig .tc := ⟨.hbm, 122, rfl⟩
abbrev main_v84 : Ref sig .tc := ⟨.hbm, 123, rfl⟩
abbrev main_v85 : Ref sig .tc := ⟨.hbm, 124, rfl⟩
abbrev main_c_20 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_21 : Ref sig .tc := ⟨.hbm, 132, rfl⟩
abbrev main_v92 : Ref sig .tc := ⟨.hbm, 133, rfl⟩
abbrev main_v93 : Ref sig .tc := ⟨.hbm, 134, rfl⟩
abbrev main_c_22 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_23 : Ref sig .tc := ⟨.hbm, 142, rfl⟩
abbrev main_v100 : Ref sig .tc := ⟨.hbm, 143, rfl⟩
abbrev main_v101 : Ref sig .tc := ⟨.hbm, 144, rfl⟩
abbrev main_c_24 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_25 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2000x3x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S20000x3x128 : S_.BroadcastsInDim S20000x3x128 (![] : Fin 0 → Fin S20000x3x128.rank)
  bcast_S20000_S20000x1_0 : S20000.BroadcastsInDim S20000x1 (![0] : Fin 1 → Fin S20000x1.rank)
  bcast_S_S20000 : S_.BroadcastsInDim S20000 (![] : Fin 0 → Fin S20000.rank)
  shapeCasts_S20000_S20000x1x1 : S20000.ShapeCasts S20000x1x1
  bcast_S20000x1x1_S20000x3x128_0_1_2 : S20000x1x1.BroadcastsInDim S20000x3x128 (![0, 1, 2] : Fin 3 → Fin S20000x3x128.rank)
  reducesTo_S20000x3x128_S20000x128_d1 : S20000x3x128.ReducesTo [1] S20000x128
  h_S_ : 0 < S_.numel
  bcast_S20000x128_S20000x1x128_0_2 : S20000x128.BroadcastsInDim S20000x1x128 (![0, 2] : Fin 2 → Fin S20000x1x128.rank)
  bcast_S_S20000x1x128 : S_.BroadcastsInDim S20000x1x128 (![] : Fin 0 → Fin S20000x1x128.rank)
  bcast_S20000x1x1_S20000x1x128_0_1_2 : S20000x1x1.BroadcastsInDim S20000x1x128 (![0, 1, 2] : Fin 3 → Fin S20000x1x128.rank)
  bcast_S1x1x128_S20000x3x128_0_1_2 : S1x1x128.BroadcastsInDim S20000x3x128 (![0, 1, 2] : Fin 3 → Fin S20000x3x128.rank)
  bcast_S20000x1x128_S20000x3x128_0_1_2 : S20000x1x128.BroadcastsInDim S20000x3x128 (![0, 1, 2] : Fin 3 → Fin S20000x3x128.rank)
  reducesTo_S20000x64_S20000_d1 : S20000x64.ReducesTo [1] S20000
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bitsLt_bf16_f32 : FTy.bits .bf16 < FTy.bits .f32
  slices_S384x64_S64x64_0_0 : S384x64.Slices ![0, 0] S64x64
  slices_S384x64_S64x64_64_0 : S384x64.Slices ![64, 0] S64x64
  slices_S384x64_S64x64_128_0 : S384x64.Slices ![128, 0] S64x64
  slices_S384x64_S128x64_192_0 : S384x64.Slices ![192, 0] S128x64
  slices_S384x64_S64x64_320_0 : S384x64.Slices ![320, 0] S64x64
  shapeCasts_S64_S1x64 : S64.ShapeCasts S1x64
  shapeCasts_S128_S1x128 : S128.ShapeCasts S1x128
  inb_S2000x3x128_S2000x3x128_0_0_0 : ∀ a, (![0, 0, 0] : Fin 3 → Nat) a + S2000x3x128.size a ≤ S2000x3x128.size a
  h_S2000x3x128 : 0 < S2000x3x128.numel
  shapeCasts_S2000x3x128_S2000x3x128 : S2000x3x128.ShapeCasts S2000x3x128
  slices_S2000x3x128_o0_0_0_S2000x1x128 : S2000x3x128.Slices ![0, 0, 0] S2000x1x128
  shapeCasts_S2000x1x128_S2000x128 : S2000x1x128.ShapeCasts S2000x128
  slices_S2000x3x128_o0_1_0_S2000x1x128 : S2000x3x128.Slices ![0, 1, 0] S2000x1x128
  slices_S2000x3x128_o0_2_0_S2000x1x128 : S2000x3x128.Slices ![0, 2, 0] S2000x1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x1x128 : S2000x128.ShapeCasts S2000x1x128
  concatenates_S2000x1x128_S2000x1x128_S2000x1x128_S2000x3x128_d1 : Shape.Concatenates [S2000x1x128, S2000x1x128, S2000x1x128] S2000x3x128 1
  scatter_S20000x3x128_S20000x1_S20000x3x128_12_0_0_1_wf : ScatterDims.WF S20000x3x128 S20000x1 S20000x3x128 [1, 2] [0] [0] 1
  scatter_S20000_S20000x1_S20000_n_0_0_1_wf : ScatterDims.WF S20000 S20000x1 S20000 [] [0] [0] 1
  gather_S20000x3x128_S20000x1_S20000x3x128_12_0_n_n_0_1_13128_wf : GatherDims.WF S20000x3x128 S20000x1 S20000x3x128 [1, 2] [0] [] [0] [] 1 ![1, 3, 128]
  scatter_S20000x1x128_S20000x1_S20000x1x128_12_0_0_1_wf : ScatterDims.WF S20000x1x128 S20000x1 S20000x1x128 [1, 2] [0] [0] 1
  gather_S20000x1x128_S20000x1_S20000x1x128_12_0_n_n_0_1_11128_wf : GatherDims.WF S20000x1x128 S20000x1 S20000x1x128 [1, 2] [0] [] [0] [] 1 ![1, 1, 128]
  gather_S20000x3x128_S400000x1_S400000x3x128_12_0_n_n_0_1_13128_wf : GatherDims.WF S20000x3x128 S400000x1 S400000x3x128 [1, 2] [0] [] [0] [] 1 ![1, 3, 128]
  gather_S20000x64_S400000x1_S400000x64_1_0_n_n_0_1_164_wf : GatherDims.WF S20000x64 S400000x1 S400000x64 [1] [0] [] [0] [] 1 ![1, 64]
  dot_S2000x64_S64x64_S2000x64_1_0_0_1_n_n_wf : DotDims.WF S2000x64 S64x64 S2000x64 [1] [0] [0] [1] [] []
  dot_S2000x128_S128x64_S2000x64_1_0_0_1_n_n_wf : DotDims.WF S2000x128 S128x64 S2000x64 [1] [0] [0] [1] [] []
  dot_S2000x64_S64x128_S2000x128_1_0_0_1_n_n_wf : DotDims.WF S2000x64 S64x128 S2000x128 [1] [0] [0] [1] [] []
  scatter_S20000x3x128_S400000x1_S400000x3x128_12_0_0_1_wf : ScatterDims.WF S20000x3x128 S400000x1 S400000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S400000x64.size a
  hwx0_0 : ∀ i : grid0.Coords, EltTy.bits .bf16 = 32 ∨ (Rect.block (s := S400000x64) S2000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S400000x64.size a
  hwx0_1 : ∀ i : grid0.Coords, EltTy.bits .bf16 = 32 ∨ (Rect.block (s := S400000x64) S2000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S400000x64.size a
  hwx0_2 : ∀ i : grid0.Coords, EltTy.bits .bf16 = 32 ∨ (Rect.block (s := S400000x64) S2000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S400000x64.size a
  hwx0_3 : ∀ i : grid0.Coords, EltTy.bits .bf16 = 32 ∨ (Rect.block (s := S400000x64) S2000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x3x128.size a ≤ S400000x3x128.size a
  hwx0_4 : ∀ i : grid0.Coords, EltTy.bits .f32 = 32 ∨ (Rect.block (s := S400000x3x128) S2000x3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .bf16 = 32 ∨ (Rect.block (s := S128x64) S128x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .bf16 = 32 ∨ (Rect.block (s := S64x64) S64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .bf16 = 32 ∨ (Rect.block (s := S64x64) S64x64.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x128.size a ≤ S64x128.size a
  hwx0_15 : ∀ i : grid0.Coords, EltTy.bits .bf16 = 32 ∨ (Rect.block (s := S64x128) S64x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x3x128.size a ≤ S400000x3x128.size a
  hwx0_17 : ∀ i : grid0.Coords, EltTy.bits .f32 = 32 ∨ (Rect.block (s := S400000x3x128) S2000x3x128.size (cc0_transform_17 i) (hinb0_17 i)).WholeWords (EltTy.packing .f32)

variable [Facts₀]

def scatter_S20000x3x128_S20000x1_S20000x3x128_12_0_0_1 : ScatterDims S20000x3x128 S20000x1 S20000x3x128 where
  updateWindowDims := [1, 2]
  insertedWindowDims := [0]
  scatterDimsToOperandDims := [0]
  indexVectorDim := 1
  wf := scatter_S20000x3x128_S20000x1_S20000x3x128_12_0_0_1_wf
def scatter_S20000_S20000x1_S20000_n_0_0_1 : ScatterDims S20000 S20000x1 S20000 where
  updateWindowDims := []
  insertedWindowDims := [0]
  scatterDimsToOperandDims := [0]
  indexVectorDim := 1
  wf := scatter_S20000_S20000x1_S20000_n_0_0_1_wf
def gather_S20000x3x128_S20000x1_S20000x3x128_12_0_n_n_0_1_13128 : GatherDims S20000x3x128 S20000x1 S20000x3x128 where
  offsetDims := [1, 2]
  collapsedSliceDims := [0]
  operandBatchingDims := []
  startIndicesBatchingDims := []
  startIndexMap := [0]
  indexVectorDim := 1
  sliceSizes := ![1, 3, 128]
  wf := gather_S20000x3x128_S20000x1_S20000x3x128_12_0_n_n_0_1_13128_wf
def scatter_S20000x1x128_S20000x1_S20000x1x128_12_0_0_1 : ScatterDims S20000x1x128 S20000x1 S20000x1x128 where
  updateWindowDims := [1, 2]
  insertedWindowDims := [0]
  scatterDimsToOperandDims := [0]
  indexVectorDim := 1
  wf := scatter_S20000x1x128_S20000x1_S20000x1x128_12_0_0_1_wf
def gather_S20000x1x128_S20000x1_S20000x1x128_12_0_n_n_0_1_11128 : GatherDims S20000x1x128 S20000x1 S20000x1x128 where
  offsetDims := [1, 2]
  collapsedSliceDims := [0]
  operandBatchingDims := []
  startIndicesBatchingDims := []
  startIndexMap := [0]
  indexVectorDim := 1
  sliceSizes := ![1, 1, 128]
  wf := gather_S20000x1x128_S20000x1_S20000x1x128_12_0_n_n_0_1_11128_wf
def gather_S20000x3x128_S400000x1_S400000x3x128_12_0_n_n_0_1_13128 : GatherDims S20000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S20000x3x128_S400000x1_S400000x3x128_12_0_n_n_0_1_13128_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def scatter_S20000x3x128_S400000x1_S400000x3x128_12_0_0_1 : ScatterDims S20000x3x128 S400000x1 S400000x3x128 where
  updateWindowDims := [1, 2]
  insertedWindowDims := [0]
  scatterDimsToOperandDims := [0]
  indexVectorDim := 1
  wf := scatter_S20000x3x128_S400000x1_S400000x3x128_12_0_0_1_wf

abbrev win0_0 : Pipeline.Window sig grid0 :=
  Pipeline.Window.ofSpec (Memref.whole main_v99) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v107) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v108) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v109) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v91) S2000x3x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v111) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v112) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v113) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v114) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v115) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v116) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v117) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v118) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v119) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v120) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v121) S64x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v122) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v123) S2000x3x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S20000 : Shape := ⟨1, ![20000]⟩
abbrev S20000x3x128 : Shape := ⟨3, ![20000, 3, 128]⟩
abbrev S20000x64 : Shape := ⟨2, ![20000, 64]⟩
abbrev S2x400000 : Shape := ⟨2, ![2, 400000]⟩
abbrev S400000x64 : Shape := ⟨2, ![400000, 64]⟩
abbrev S384x64 : Shape := ⟨2, ![384, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1x128 : Shape := ⟨3, ![1, 1, 128]⟩
abbrev S_ : Shape := ⟨0, ![]⟩
abbrev S20000x1 : Shape := ⟨2, ![20000, 1]⟩
abbrev S20000x1x1 : Shape := ⟨3, ![20000, 1, 1]⟩
abbrev S20000x128 : Shape := ⟨2, ![20000, 128]⟩
abbrev S20000x1x128 : Shape := ⟨3, ![20000, 1, 128]⟩
abbrev S1x64 : Shape := ⟨2, ![1, 64]⟩
abbrev S1x400000 : Shape := ⟨2, ![1, 400000]⟩
abbrev S400000 : Shape := ⟨1, ![400000]⟩
abbrev S400000x1 : Shape := ⟨2, ![400000, 1]⟩
abbrev S400000x3x128 : Shape := ⟨3, ![400000, 3, 128]⟩
abbrev S400000x128 : Shape := ⟨2, ![400000, 128]⟩
abbrev S400000x192 : Shape := ⟨2, ![400000, 192]⟩
abbrev S400000x384 : Shape := ⟨2, ![400000, 384]⟩
abbrev S1x128 : Shape := ⟨2, ![1, 128]⟩
abbrev S400000x1x128 : Shape := ⟨3, ![400000, 1, 128]⟩

abbrev nBuf : Space → Nat
  | .hbm => 215
  | .vmem => 0
  | .smem => 0
  | _ => 0

abbrev hbmTy0_0 (i : Nat) : BufTy := match i % 128 with
  | 0 => ⟨S20000, .i32⟩
  | 1 => ⟨S20000x3x128, .f32⟩
  | 2 => ⟨S20000x64, .f32⟩
  | 3 => ⟨S2x400000, .i32⟩
  | 4 => ⟨S400000x64, .f32⟩
  | 5 => ⟨S400000x64, .f32⟩
  | 6 => ⟨S384x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x128, .f32⟩
  | 13 => ⟨S128, .f32⟩
  | 14 => ⟨S64, .f32⟩
  | 15 => ⟨S64, .f32⟩
  | 16 => ⟨S1x1x128, .f32⟩
  | 17 => ⟨S_, .f32⟩
  | 18 => ⟨S20000x3x128, .f32⟩
  | 19 => ⟨S20000x1, .i32⟩
  | 20 => ⟨S20000x3x128, .f32⟩
  | 21 => ⟨S_, .f32⟩
  | 22 => ⟨S20000, .f32⟩
  | 23 => ⟨S_, .f32⟩
  | 24 => ⟨S20000, .f32⟩
  | 25 => ⟨S20000x1, .i32⟩
  | 26 => ⟨S20000, .f32⟩
  | 27 => ⟨S_, .f32⟩
  | 28 => ⟨S20000, .f32⟩
  | 29 => ⟨S20000, .f32⟩
  | 30 => ⟨S20000x1x1, .f32⟩
  | 31 => ⟨S20000x3x128, .f32⟩
  | 32 => ⟨S20000x3x128, .f32⟩
  | 33 => ⟨S_, .i32⟩
  | 34 => ⟨S20000, .i32⟩
  | 35 => ⟨S20000, .i1⟩
  | 36 => ⟨S_, .i32⟩
  | 37 => ⟨S20000, .i32⟩
  | 38 => ⟨S20000, .i32⟩
  | 39 => ⟨S20000, .i32⟩
  | 40 => ⟨S20000x1, .i32⟩
  | 41 => ⟨S20000x3x128, .f32⟩
  | 42 => ⟨S20000x3x128, .f32⟩
  | 43 => ⟨S20000x3x128, .f32⟩
  | 44 => ⟨S_, .f32⟩
  | 45 => ⟨S20000x128, .f32⟩
  | 46 => ⟨S20000x1x128, .f32⟩
  | 47 => ⟨S20000x1x128, .f32⟩
  | 48 => ⟨S_, .f32⟩
  | 49 => ⟨S20000x1x128, .f32⟩
  | 50 => ⟨S20000x1, .i32⟩
  | 51 => ⟨S20000x1x128, .f32⟩
  | 52 => ⟨S_, .f32⟩
  | 53 => ⟨S20000, .f32⟩
  | 54 => ⟨S_, .f32⟩
  | 55 => ⟨S20000, .f32⟩
  | 56 => ⟨S20000x1, .i32⟩
  | 57 => ⟨S20000, .f32⟩
  | 58 => ⟨S_, .f32⟩
  | 59 => ⟨S20000, .f32⟩
  | 60 => ⟨S20000, .f32⟩
  | 61 => ⟨S20000x1x1, .f32⟩
  | 62 => ⟨S20000x1x128, .f32⟩
  | 63 => ⟨S20000x1x128, .f32⟩
  | 64 => ⟨S20000x3x128, .f32⟩
  | 65 => ⟨S20000x3x128, .f32⟩
  | 66 => ⟨S_, .i32⟩
  | 67 => ⟨S20000, .i32⟩
  | 68 => ⟨S20000, .i1⟩
  | 69 => ⟨S_, .i32⟩
  | 70 => ⟨S20000, .i32⟩
  | 71 => ⟨S20000, .i32⟩
  | 72 => ⟨S20000, .i32⟩
  | 73 => ⟨S20000x1, .i32⟩
  | 74 => ⟨S20000x1x128, .f32⟩
  | 75 => ⟨S_, .f32⟩
  | 76 => ⟨S20000x1x128, .f32⟩
  | 77 => ⟨S20000x1x128, .f32⟩
  | 78 => ⟨S20000x3x128, .f32⟩
  | 79 => ⟨S20000x3x128, .f32⟩
  | 80 => ⟨S_, .f32⟩
  | 81 => ⟨S20000, .f32⟩
  | 82 => ⟨S20000x1, .f32⟩
  | 83 => ⟨S_, .f32⟩
  | 84 => ⟨S20000x1, .f32⟩
  | 85 => ⟨S20000x1, .f32⟩
  | 86 => ⟨S20000x64, .f32⟩
  | 87 => ⟨S20000x64, .f32⟩
  | 88 => ⟨S20000x64, .f32⟩
  | 89 => ⟨S_, .f32⟩
  | 90 => ⟨S20000, .f32⟩
  | 91 => ⟨S20000x1, .f32⟩
  | 92 => ⟨S_, .f32⟩
  | 93 => ⟨S20000x1, .f32⟩
  | 94 => ⟨S20000x1, .f32⟩
  | 95 => ⟨S20000x64, .f32⟩
  | 96 => ⟨S20000x64, .f32⟩
  | 97 => ⟨S1x64, .f32⟩
  | 98 => ⟨S20000x64, .f32⟩
  | 99 => ⟨S20000x64, .f32⟩
  | 100 => ⟨S_, .f32⟩
  | 101 => ⟨S20000x1, .f32⟩
  | 102 => ⟨S20000x1, .f32⟩
  | 103 => ⟨S20000x1, .f32⟩
  | 104 => ⟨S20000x64, .f32⟩
  | 105 => ⟨S20000x64, .f32⟩
  | 106 => ⟨S1x64, .f32⟩
  | 107 => ⟨S20000x64, .f32⟩
  | 108 => ⟨S20000x64, .f32⟩
  | 109 => ⟨S1x400000, .i32⟩
  | 110 => ⟨S400000, .i32⟩
  | 111 => ⟨S1x400000, .i32⟩
  | 112 => ⟨S400000, .i32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x3x128, .f32⟩
  | 122 => ⟨S_, .i32⟩
  | 123 => ⟨S400000, .i32⟩
  | 124 => ⟨S400000, .i1⟩
  | 125 => ⟨S_, .i32⟩
  | 126 => ⟨S400000, .i32⟩
  | 127 => ⟨S400000, .i32⟩
  | _ => ⟨S20000, .i32⟩

abbrev hbmTy0_1 (i : Nat) : BufTy := match i % 128 with
  | 0 => ⟨S400000, .i32⟩
  | 1 => ⟨S400000x1, .i32⟩
  | 2 => ⟨S400000x3x128, .f32⟩
  | 3 => ⟨S400000x3x128, .f32⟩
  | 4 => ⟨S400000x3x128, .f32⟩
  | 5 => ⟨S_, .f32⟩
  | 6 => ⟨S400000x128, .f32⟩
  | 7 => ⟨S400000x192, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S400000x64, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x64, .f32⟩
  | 26 => ⟨S400000x384, .f32⟩
  | 27 => ⟨S400000x64, .f32⟩
  | 28 => ⟨S1x64, .f32⟩
  | 29 => ⟨S400000x64, .f32⟩
  | 30 => ⟨S400000x64, .f32⟩
  | 31 => ⟨S400000x64, .f32⟩
  | 32 => ⟨S400000x64, .f32⟩
  | 33 => ⟨S_, .f32⟩
  | 34 => ⟨S400000x64, .f32⟩
  | 35 => ⟨S400000x64, .f32⟩
  | 36 => ⟨S_, .f32⟩
  | 37 => ⟨S400000x64, .f32⟩
  | 38 => ⟨S400000x64, .f32⟩
  | 39 => ⟨S400000x64, .f32⟩
  | 40 => ⟨S400000x64, .f32⟩
  | 41 => ⟨S1x64, .f32⟩
  | 42 => ⟨S400000x64, .f32⟩
  | 43 => ⟨S400000x64, .f32⟩
  | 44 => ⟨S400000x64, .f32⟩
  | 45 => ⟨S1x64, .f32⟩
  | 46 => ⟨S400000x64, .f32⟩
  | 47 => ⟨S400000x64, .f32⟩
  | 48 => ⟨S400000x64, .f32⟩
  | 49 => ⟨S400000x64, .f32⟩
  | 50 => ⟨S_, .f32⟩
  | 51 => ⟨S400000x64, .f32⟩
  | 52 => ⟨S400000x64, .f32⟩
  | 53 => ⟨S_, .f32⟩
  | 54 => ⟨S400000x64, .f32⟩
  | 55 => ⟨S400000x64, .f32⟩
  | 56 => ⟨S400000x64, .f32⟩
  | 57 => ⟨S400000x128, .f32⟩
  | 58 => ⟨S1x128, .f32⟩
  | 59 => ⟨S400000x128, .f32⟩
  | 60 => ⟨S400000x128, .f32⟩
  | 61 => ⟨S_, .f32⟩
  | 62 => ⟨S_, .f32⟩
  | 63 => ⟨S_, .f32⟩
  | 64 => ⟨S400000x128, .f32⟩
  | 65 => ⟨S400000x128, .f32⟩
  | 66 => ⟨S_, .f32⟩
  | 67 => ⟨S400000x128, .f32⟩
  | 68 => ⟨S400000x128, .f32⟩
  | 69 => ⟨S400000x1x128, .f32⟩
  | 70 => ⟨S_, .f32⟩
  | 71 => ⟨S400000x1x128, .f32⟩
  | 72 => ⟨S400000x1x128, .f32⟩
  | 73 => ⟨S400000x1x128, .f32⟩
  | 74 => ⟨S_, .f32⟩
  | 75 => ⟨S400000x1x128, .f32⟩
  | 76 => ⟨S400000x1x128, .f32⟩
  | 77 => ⟨S400000x3x128, .f32⟩
  | 78 => ⟨S400000x3x128, .f32⟩
  | 79 => ⟨S400000x1x128, .f32⟩
  | 80 => ⟨S400000x3x128, .f32⟩
  | 81 => ⟨S400000x3x128, .f32⟩
  | 82 => ⟨S_, .f32⟩
  | 83 => ⟨S20000x3x128, .f32⟩
  | 84 => ⟨S400000x1, .i32⟩
  | 85 => ⟨S20000x3x128, .f32⟩
  | 86 => ⟨S20000x3x128, .f32⟩
  | _ => ⟨S20000, .i32⟩

abbrev hbmTy (i : Nat) : BufTy := match i / 128 with
  | 0 => hbmTy0_0 i
  | 1 => hbmTy0_1 i
  | _ => ⟨S20000, .i32⟩

abbrev bufTy : (tb : Table) → Fin (tcTables nBuf tb) → BufTy
  | .hbm, ⟨i, _⟩ => hbmTy i
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_c_10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_v49 : Ref sig .tc := ⟨.hbm, 81, rfl⟩
abbrev main_v50 : Ref sig .tc := ⟨.hbm, 82, rfl⟩
abbrev main_cst_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_14 : Ref sig .tc := ⟨.hbm, 89, rfl⟩
abbrev main_v56 : Ref sig .tc := ⟨.hbm, 90, rfl⟩
abbrev main_v57 : Ref sig .tc := ⟨.hbm, 91, rfl⟩
abbrev main_cst_15 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_17 : Ref sig .tc := ⟨.hbm, 113, rfl⟩
abbrev main_v77 : Ref sig .tc := ⟨.hbm, 114, rfl⟩
abbrev main_v78 : Ref sig .tc := ⟨.hbm, 115, rfl⟩
abbrev main_c_18 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_19 : Ref sig .tc := ⟨.hbm, 122, rfl⟩
abbrev main_v84 : Ref sig .tc := ⟨.hbm, 123, rfl⟩
abbrev main_v85 : Ref sig .tc := ⟨.hbm, 124, rfl⟩
abbrev main_c_20 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_21 : Ref sig .tc := ⟨.hbm, 133, rfl⟩
abbrev main_v93 : Ref sig .tc := ⟨.hbm, 134, rfl⟩
abbrev main_v94 : Ref sig .tc := ⟨.hbm, 135, rfl⟩
abbrev main_c_22 : Ref sig .tc := ⟨.hbm, 136, rfl⟩
abbrev main_v95 : Ref sig .tc := ⟨.hbm, 137, rfl⟩
abbrev main_v96 : Ref sig .tc := ⟨.hbm, 138, rfl⟩
abbrev main_c_23 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_24 : Ref sig .tc := ⟨.hbm, 145, rfl⟩
abbrev main_v102 : Ref sig .tc := ⟨.hbm, 146, rfl⟩
abbrev main_v103 : Ref sig .tc := ⟨.hbm, 147, rfl⟩
abbrev main_c_25 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_call0_v0 : Ref sig .tc := ⟨.hbm, 159, rfl⟩
abbrev main_call0_v1 : Ref sig .tc := ⟨.hbm, 160, rfl⟩
abbrev main_call0_cst : Ref sig .tc := ⟨.hbm, 161, rfl⟩
abbrev main_call0_v2 : Ref sig .tc := ⟨.hbm, 162, rfl⟩
abbrev main_call0_v3 : Ref sig .tc := ⟨.hbm, 163, rfl⟩
abbrev main_call0_cst_0 : Ref sig .tc := ⟨.hbm, 164, rfl⟩
abbrev main_call0_v4 : Ref sig .tc := ⟨.hbm, 165, rfl⟩
abbrev main_call0_v5 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_call1_v0 : Ref sig .tc := ⟨.hbm, 176, rfl⟩
abbrev main_call1_v1 : Ref sig .tc := ⟨.hbm, 177, rfl⟩
abbrev main_call1_cst : Ref sig .tc := ⟨.hbm, 178, rfl⟩
abbrev main_call1_v2 : Ref sig .tc := ⟨.hbm, 179, rfl⟩
abbrev main_call1_v3 : Ref sig .tc := ⟨.hbm, 180, rfl⟩
abbrev main_call1_cst_0 : Ref sig .tc := ⟨.hbm, 181, rfl⟩
abbrev main_call1_v4 : Ref sig .tc := ⟨.hbm, 182, rfl⟩
abbrev main_call1_v5 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_cst_26 : Ref sig .tc := ⟨.hbm, 189, rfl⟩
abbrev main_cst_27 : Ref sig .tc := ⟨.hbm, 190, rfl⟩
abbrev main_call2_v0 : Ref sig .tc := ⟨.hbm, 191, rfl⟩
abbrev main_call2_v1 : Ref sig .tc := ⟨.hbm, 192, rfl⟩
abbrev main_call2_v2 : Ref sig .tc := ⟨.hbm, 193, rfl⟩
abbrev main_call2_v3 : Ref sig .tc := ⟨.hbm, 194, rfl⟩
abbrev main_call2_v4 : Ref sig .tc := ⟨.hbm, 195, rfl⟩
abbrev main_v128 : Ref sig .tc := ⟨.hbm, 196, rfl⟩
abbrev main_v129 : Ref sig .tc := ⟨.hbm, 197, rfl⟩
abbrev main_cst_28 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_29 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_cst_30 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩

abbrev nD : Nat := 1
abbrev τ : Topo := Topo.v7x

variable {F : FTy → Type} [FloatOps F]

class Facts₀ : Prop where
  bcast_S_S20000x3x128 : S_.BroadcastsInDim S20000x3x128 (![] : Fin 0 → Fin S20000x3x128.rank)
  bcast_S20000_S20000x1_0 : S20000.BroadcastsInDim S20000x1 (![0] : Fin 1 → Fin S20000x1.rank)
  bcast_S_S20000 : S_.BroadcastsInDim S20000 (![] : Fin 0 → Fin S20000.rank)
  shapeCasts_S20000_S20000x1x1 : S20000.ShapeCasts S20000x1x1
  bcast_S20000x1x1_S20000x3x128_0_1_2 : S20000x1x1.BroadcastsInDim S20000x3x128 (![0, 1, 2] : Fin 3 → Fin S20000x3x128.rank)
  reducesTo_S20000x3x128_S20000x128_d1 : S20000x3x128.ReducesTo [1] S20000x128
  h_S_ : 0 < S_.numel
  bcast_S20000x128_S20000x1x128_0_2 : S20000x128.BroadcastsInDim S20000x1x128 (![0, 2] : Fin 2 → Fin S20000x1x128.rank)
  bcast_S_S20000x1x128 : S_.BroadcastsInDim S20000x1x128 (![] : Fin 0 → Fin S20000x1x128.rank)
  bcast_S20000x1x1_S20000x1x128_0_1_2 : S20000x1x1.BroadcastsInDim S20000x1x128 (![0, 1, 2] : Fin 3 → Fin S20000x1x128.rank)
  bcast_S1x1x128_S20000x3x128_0_1_2 : S1x1x128.BroadcastsInDim S20000x3x128 (![0, 1, 2] : Fin 3 → Fin S20000x3x128.rank)
  bcast_S20000x1x128_S20000x3x128_0_1_2 : S20000x1x128.BroadcastsInDim S20000x3x128 (![0, 1, 2] : Fin 3 → Fin S20000x3x128.rank)
  reducesTo_S20000x64_S20000_d1 : S20000x64.ReducesTo [1] S20000
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  reducesTo_S400000x3x128_S400000x128_d1 : S400000x3x128.ReducesTo [1] S400000x128
  concatenates_S400000x64_S400000x128_S400000x192_d1 : Shape.Concatenates [S400000x64, S400000x128] S400000x192 1
  concatenates_S400000x64_S400000x64_S400000x192_S400000x64_S400000x384_d1 : Shape.Concatenates [S400000x64, S400000x64, S400000x192, S400000x64] S400000x384 1
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S400000x128_S400000x1x128_0_2 : S400000x128.BroadcastsInDim S400000x1x128 (![0, 2] : Fin 2 → Fin S400000x1x128.rank)
  bcast_S_S400000x1x128 : S_.BroadcastsInDim S400000x1x128 (![] : Fin 0 → Fin S400000x1x128.rank)
  bcast_S400000x1x128_S400000x3x128_0_1_2 : S400000x1x128.BroadcastsInDim S400000x3x128 (![0, 1, 2] : Fin 3 → Fin S400000x3x128.rank)
  scatter_S20000x3x128_S20000x1_S20000x3x128_12_0_0_1_wf : ScatterDims.WF S20000x3x128 S20000x1 S20000x3x128 [1, 2] [0] [0] 1
  scatter_S20000_S20000x1_S20000_n_0_0_1_wf : ScatterDims.WF S20000 S20000x1 S20000 [] [0] [0] 1
  gather_S20000x3x128_S20000x1_S20000x3x128_12_0_n_n_0_1_13128_wf : GatherDims.WF S20000x3x128 S20000x1 S20000x3x128 [1, 2] [0] [] [0] [] 1 ![1, 3, 128]
  scatter_S20000x1x128_S20000x1_S20000x1x128_12_0_0_1_wf : ScatterDims.WF S20000x1x128 S20000x1 S20000x1x128 [1, 2] [0] [0] 1
  gather_S20000x1x128_S20000x1_S20000x1x128_12_0_n_n_0_1_11128_wf : GatherDims.WF S20000x1x128 S20000x1 S20000x1x128 [1, 2] [0] [] [0] [] 1 ![1, 1, 128]
  gather_S20000x3x128_S400000x1_S400000x3x128_12_0_n_n_0_1_13128_wf : GatherDims.WF S20000x3x128 S400000x1 S400000x3x128 [1, 2] [0] [] [0] [] 1 ![1, 3, 128]
  gather_S20000x64_S400000x1_S400000x64_1_0_n_n_0_1_164_wf : GatherDims.WF S20000x64 S400000x1 S400000x64 [1] [0] [] [0] [] 1 ![1, 64]
  dot_S400000x384_S384x64_S400000x64_1_0_0_1_n_n_wf : DotDims.WF S400000x384 S384x64 S400000x64 [1] [0] [0] [1] [] []
  dot_S400000x64_S64x64_S400000x64_1_0_0_1_n_n_wf : DotDims.WF S400000x64 S64x64 S400000x64 [1] [0] [0] [1] [] []
  dot_S400000x64_S64x128_S400000x128_1_0_0_1_n_n_wf : DotDims.WF S400000x64 S64x128 S400000x128 [1] [0] [0] [1] [] []
  scatter_S20000x3x128_S400000x1_S400000x3x128_12_0_0_1_wf : ScatterDims.WF S20000x3x128 S400000x1 S400000x3x128 [1, 2] [0] [0] 1

variable [Facts₀]

def scatter_S20000x3x128_S20000x1_S20000x3x128_12_0_0_1 : ScatterDims S20000x3x128 S20000x1 S20000x3x128 where
  updateWindowDims := [1, 2]
  insertedWindowDims := [0]
  scatterDimsToOperandDims := [0]
  indexVectorDim := 1
  wf := scatter_S20000x3x128_S20000x1_S20000x3x128_12_0_0_1_wf
def scatter_S20000_S20000x1_S20000_n_0_0_1 : ScatterDims S20000 S20000x1 S20000 where
  updateWindowDims := []
  insertedWindowDims := [0]
  scatterDimsToOperandDims := [0]
  indexVectorDim := 1
  wf := scatter_S20000_S20000x1_S20000_n_0_0_1_wf
def gather_S20000x3x128_S20000x1_S20000x3x128_12_0_n_n_0_1_13128 : GatherDims S20000x3x128 S20000x1 S20000x3x128 where
  offsetDims := [1, 2]
  collapsedSliceDims := [0]
  operandBatchingDims := []
  startIndicesBatchingDims := []
  startIndexMap := [0]
  indexVectorDim := 1
  sliceSizes := ![1, 3, 128]
  wf := gather_S20000x3x128_S20000x1_S20000x3x128_12_0_n_n_0_1_13128_wf
def scatter_S20000x1x128_S20000x1_S20000x1x128_12_0_0_1 : ScatterDims S20000x1x128 S20000x1 S20000x1x128 where
  updateWindowDims := [1, 2]
  insertedWindowDims := [0]
  scatterDimsToOperandDims := [0]
  indexVectorDim := 1
  wf := scatter_S20000x1x128_S20000x1_S20000x1x128_12_0_0_1_wf
def gather_S20000x1x128_S20000x1_S20000x1x128_12_0_n_n_0_1_11128 : GatherDims S20000x1x128 S20000x1 S20000x1x128 where
  offsetDims := [1, 2]
  collapsedSliceDims := [0]
  operandBatchingDims := []
  startIndicesBatchingDims := []
  startIndexMap := [0]
  indexVectorDim := 1
  sliceSizes := ![1, 1, 128]
  wf := gather_S20000x1x128_S20000x1_S20000x1x128_12_0_n_n_0_1_11128_wf
def gather_S20000x3x128_S400000x1_S400000x3x128_12_0_n_n_0_1_13128 : GatherDims S20000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S20000x3x128_S400000x1_S400000x3x128_12_0_n_n_0_1_13128_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def dot_S400000x384_S384x64_S400000x64_1_0_0_1_n_n : DotDims S400000x384 S384x64 S400000x64 where
  lhsContracting := [1]
  rhsContracting := [0]
  lhsNonContracting := [0]
  rhsNonContracting := [1]
  lhsBatch := []
  rhsBatch := []
  wf := dot_S400000x384_S384x64_S400000x64_1_0_0_1_n_n_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf
def dot_S400000x64_S64x128_S400000x128_1_0_0_1_n_n : DotDims S400000x64 S64x128 S400000x128 where
  lhsContracting := [1]
  rhsContracting := [0]
  lhsNonContracting := [0]
  rhsNonContracting := [1]
  lhsBatch := []
  rhsBatch := []
  wf := dot_S400000x64_S64x128_S400000x128_1_0_0_1_n_n_wf
def scatter_S20000x3x128_S400000x1_S400000x3x128_12_0_0_1 : ScatterDims S20000x3x128 S400000x1 S400000x3x128 where
  updateWindowDims := [1, 2]
  insertedWindowDims := [0]
  scatterDimsToOperandDims := [0]
  indexVectorDim := 1
  wf := scatter_S20000x3x128_S400000x1_S400000x3x128_12_0_0_1_wf

class Facts : Prop extends Facts₀ where

variable [Facts]
-- ==== Proof.RefRunA.lean ====
/-
  THE REFERENCE'S HOST OPERATIONS IN STRETCHES, the first stretch read back, and the arguments kept.

  The reference's @main is a straight line of 198 host operations, cut here into four stretches: the first 115 (the
  normalisation of positions and features and the gathers of the positions along the edges), the next 22 (the squared
  lengths and the two gathers of features), the one concatenation of the four row parts, and the last 60 (the edge network,
  the scatter-add and the final sum).  After the first stretch the buffers the later lines read hold the stage functions
  of the arguments; and no operation of the whole line writes an argument.
-/
import proofs.«151455_j19911468384607_2_alg».proof.Proof.RefOps
import proofs.«151455_j19911468384607_2_alg».proof.Proof.RefRead

set_option maxRecDepth 16384

noncomputable section

namespace Cert.ReferenceIdeal.HandRun

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo

variable {F : FTy → Type} [FloatOps F]

/-- The first 115 operations: up to the relative positions along the edges. -/
def opsA : List (HloOp τ sig (Elt F)) :=
  [ nullary main_cst (constant S_ .f32 0x00000000#32),
    unary main_cst main_v0 (broadcastInDim S20000x3x128 ![] bcast_S_S20000x3x128 : (⟨S_, .f32⟩ : BufTy).Contents (Elt F) → (⟨S20000x3x128, .f32⟩ : BufTy).Contents (Elt F)),
    unary main_arg0 main_v1 (broadcastInDim S20000x1 ![0] bcast_S20000_S20000x1_0 : (⟨S20000, .i32⟩ : BufTy).Contents (Elt F) → (⟨S20000x1, .i32⟩ : BufTy).Contents (Elt F)),
    ternary main_v0 main_v1 main_arg1 main_v2 ((fun x i u => Host.scatterAdd scatter_S20000x3x128_S20000x1_S20000x3x128_12_0_0_1 x i u) : (⟨S20000x3x128, .f32⟩ : BufTy).Contents (Elt F) → (⟨S20000x1, .i32⟩ : BufTy).Contents (Elt F) → (⟨S20000x3x128, .f32⟩ : BufTy).Contents (Elt F) → (⟨S20000x3x128, .f32⟩ : BufTy).Contents (Elt F)),
    nullary main_cst_0 (constant S_ .f32 0x3F800000#32),
    unary main_cst_0 main_v3 (broadcastInDim S20000 ![] bcast_S_S20000 : (⟨S_, .f32⟩ : BufTy).Contents (Elt F) → (⟨S20000, .f32⟩ : BufTy).Contents (Elt F)),
    nullary main_cst_1 (constant S_ .f32 0x00000000#32),
    unary main_cst_1 main_v4 (broadcastInDim S20000 ![] bcast_S_S20000 : (⟨S_, .f32⟩ : BufTy).Contents (Elt F) → (⟨S20000, .f32⟩ : BufTy).Contents (Elt F)),
    unary main_arg0 main_v5 (broadcastInDim S20000x1 ![0] bcast_S20000_S20000x1_0 : (⟨S20000, .i32⟩ : BufTy).Contents (Elt F) → (⟨S20000x1, .i32⟩ : BufTy).Contents (Elt F)),
    ternary main_v4 main_v5 main_v3 main_v6 ((fun x i u => Host.scatterAdd scatter_S20000_S20000x1_S20000_n_0_0_1 x i u) : (⟨S20000, .f32⟩ : BufTy).Contents (Elt F) → (⟨S20000x1, .i32⟩ : BufTy).Contents (Elt F) → (⟨S20000, .f32⟩ : BufTy).Contents (Elt F) → (⟨S20000, .f32⟩ : BufTy).Contents (Elt F)),
    nullary main_cst_2 (constant S_ .f32 0x3F800000#32),
    unary main_cst_2 main_v7 (broadcastInDim S20000 ![] bcast_S_S20000 : (⟨S_, .f32⟩ : BufTy).Contents (Elt F) → (⟨S20000, .f32⟩ : BufTy).Contents (Elt F)),
    binary main_v6 main_v7 main_v8 (maximumf : (⟨S20000, .f32⟩ : BufTy).Contents (Elt F) → (⟨S20000, .f32⟩ : BufTy).Contents (Elt F) → (⟨S20000, .f32⟩ : BufTy).Contents (Elt F)),
    reshape main_v8 main_v9 rfl shapeCasts_S20000_S20000x1x1,
    unary main_v9 main_v10 (broadcastInDim S20000x3x128 ![0, 1, 2] bcast_S20000x1x1_S20000x3x128_0_1_2 : (⟨S20000x1x1, .f32⟩ : BufTy).Contents (Elt F) → (⟨S20000x3x128, .f32⟩ : BufTy).Contents (Elt F)),
    binary main_v2 main_v10 main_v11 (Host.divf : (⟨S20000x3x128, .f32⟩ : BufTy).Contents (Elt F) → (⟨S20000x3x128, .f32⟩ : BufTy).Contents (Elt F) → (⟨S20000x3x128, .f32⟩ : BufTy).Contents (Elt F)),
    nullary main_c (constantI S_ 32 0#32),
    unary main_c main_v12 (broadcastInDim S20000 ![] bcast_S_S20000 : (⟨S_, .i32⟩ : BufTy).Contents (Elt F) → (⟨S20000, .i32⟩ : BufTy).Contents (Elt F)),
    binary main_arg0 main_v12 main_v13 (cmpi .slt : (⟨S20000, .i32⟩ : BufTy).Contents (Elt F) → (⟨S20000, .i32⟩ : BufTy).Contents (Elt F) → (⟨S20000, .i1⟩ : BufTy).Contents (Elt F)),
    nullary main_c_3 (constantI S_ 32 20000#32),
    unary main_c_3 main_v14 (broadcastInDim S20000 ![] bcast_S_S20000 : (⟨S_, .i32⟩ : BufTy).Contents (Elt F) → (⟨S20000, .i32⟩ : BufTy).Contents (Elt F)),
    binary main_arg0 main_v14 main_v15 (addi : (⟨S20000, .i32⟩ : BufTy).Contents (Elt F) → (⟨S20000, .i32⟩ : BufTy).Contents (Elt F) → (⟨S20000, .i32⟩ : BufTy).Contents (Elt F)),
    ternary main_v13 main_v15 main_arg0 main_v16 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v16 main_v17 (broadcastInDim S20000x1 ![0] bcast_S20000_S20000x1_0 : (⟨S20000, .i32⟩ : BufTy).Contents (Elt F) → (⟨S20000x1, .i32⟩ : BufTy).Contents (Elt F)),
    binary main_v11 main_v17 main_v18 ((fun x i => Host.gather gather_S20000x3x128_S20000x1_S20000x3x128_12_0_n_n_0_1_13128 x i) : (⟨S20000x3x128, .f32⟩ : BufTy).Contents (Elt F) → (⟨S20000x1, .i32⟩ : BufTy).Contents (Elt F) → (⟨S20000x3x128, .f32⟩ : BufTy).Contents (Elt F)),
    binary main_arg1 main_v18 main_v19 (subf : (⟨S20000x3x128, .f32⟩ : BufTy).Contents (Elt F) → (⟨S20000x3x128, .f32⟩ : BufTy).Contents (Elt F) → (⟨S20000x3x128, .f32⟩ : BufTy).Contents (Elt F)),
    binary main_v19 main_v19 main_v20 (mulf : (⟨S20000x3x128, .f32⟩ : BufTy).Contents (Elt F) → (⟨S20000x3x128, .f32⟩ : BufTy).Contents (Elt F) → (⟨S20000x3x128, .f32⟩ : BufTy).Contents (Elt F)),
    nullary main_cst_4 (constant S_ .f32 0x00000000#32),
    binary main_v20 main_cst_4 main_v21 ((fun x v => Host.reduceAdd x v reducesTo_S20000x3x128_S20000x128_d1 h_S_) : (⟨S20000x3x128, .f32⟩ : BufTy).Contents (Elt F) → (⟨S_, .f32⟩ : BufTy).Contents (Elt F) → (⟨S20000x128, .f32⟩ : BufTy).Contents (Elt F)),
    unary main_v21 main_v22 (broadcastInDim S20000x1x128 ![0, 2] bcast_S20000x128_S20000x1x128_0_2 : (⟨S20000x128, .f32⟩ : BufTy).Contents (Elt F) → (⟨S20000x1x128, .f32⟩ : BufTy).Contents (Elt F)),
    unary main_v22 main_v23 (Host.sqrt : (⟨S20000x1x128, .f32⟩ : BufTy).Contents (Elt F) → (⟨S20000x1x128, .f32⟩ : BufTy).Contents (Elt F)),
    nullary main_cst_5 (constant S_ .f32 0x00000000#32),
    unary main_cst_5 main_v24 (broadcastInDim S20000x1x128 ![] bcast_S_S20000x1x128 : (⟨S_, .f32⟩ : BufTy).Contents (Elt F) → (⟨S20000x1x128, .f32⟩ : BufTy).Contents (Elt F)),
    unary main_arg0 main_v25 (broadcastInDim S20000x1 ![0] bcast_S20000_S20000x1_0 : (⟨S20000, .i32⟩ : BufTy).Contents (Elt F) → (⟨S20000x1, .i32⟩ : BufTy).Contents (Elt F)),
    ternary main_v24 main_v25 main_v23 main_v26 ((fun x i u => Host.scatterAdd scatter_S20000x1x128_S20000x1_S20000x1x128_12_0_0_1 x i u) : (⟨S20000x1x128, .f32⟩ : BufTy).Contents (Elt F) → (⟨S20000x1, .i32⟩ : BufTy).Contents (Elt F) → (⟨S20000x1x128, .f32⟩ : BufTy).Contents (Elt F) → (⟨S20000x1x128, .f32⟩ : BufTy).Contents (Elt F)),
    nullary main_cst_6 (constant S_ .f32 0x3F800000#32),
    unary main_cst_6 main_v27 (broadcastInDim S20000 ![] bcast_S_S20000 : (⟨S_, .f32⟩ : BufTy).Contents (Elt F) → (⟨S20000, .f32⟩ : BufTy).Contents (Elt F)),
    nullary main_cst_7 (constant S_ .f32 0x00000000#32),
    unary main_cst_7 main_v28 (broadcastInDim S20000 ![] bcast_S_S20000 : (⟨S_, .f32⟩ : BufTy).Contents (Elt F) → (⟨S20000, .f32⟩ : BufTy).Contents (Elt F)),
    unary main_arg0 main_v29 (broadcastInDim S20000x1 ![0] bcast_S20000_S20000x1_0 : (⟨S20000, .i32⟩ : BufTy).Contents (Elt F) → (⟨S20000x1, .i32⟩ : BufTy).Contents (Elt F)),
    ternary main_v28 main_v29 main_v27 main_v30 ((fun x i u => Host.scatterAdd scatter_S20000_S20000x1_S20000_n_0_0_1 x i u) : (⟨S20000, .f32⟩ : BufTy).Contents (Elt F) → (⟨S20000x1, .i32⟩ : BufTy).Contents (Elt F) → (⟨S20000, .f32⟩ : BufTy).Contents (Elt F) → (⟨S20000, .f32⟩ : BufTy).Contents (Elt F)),
    nullary main_cst_8 (constant S_ .f32 0x3F800000#32),
    unary main_cst_8 main_v31 (broadcastInDim S20000 ![] bcast_S_S20000 : (⟨S_, .f32⟩ : BufTy).Contents (Elt F) → (⟨S20000, .f32⟩ : BufTy).Contents (Elt F)),
    binary main_v30 main_v31 main_v32 (maximumf : (⟨S20000, .f32⟩ : BufTy).Contents (Elt F) → (⟨S20000, .f32⟩ : BufTy).Contents (Elt F) → (⟨S20000, .f32⟩ : BufTy).Contents (Elt F)),
    reshape main_v32 main_v33 rfl shapeCasts_S20000_S20000x1x1,
    unary main_v33 main_v34 (broadcastInDim S20000x1x128 ![0, 1, 2] bcast_S20000x1x1_S20000x1x128_0_1_2 : (⟨S20000x1x1, .f32⟩ : BufTy).Contents (Elt F) → (⟨S20000x1x128, .f32⟩ : BufTy).Contents (Elt F)),
    binary main_v26 main_v34 main_v35 (Host.divf : (⟨S20000x1x128, .f32⟩ : BufTy).Contents (Elt F) → (⟨S20000x1x128, .f32⟩ : BufTy).Contents (Elt F) → (⟨S20000x1x128, .f32⟩ : BufTy).Contents (Elt F)),
    unary main_arg16 main_v36 (broadcastInDim S20000x3x128 ![0, 1, 2] bcast_S1x1x128_S20000x3x128_0_1_2 : (⟨S1x1x128, .f32⟩ : BufTy).Contents (Elt F) → (⟨S20000x3x128, .f32⟩ : BufTy).Contents (Elt F)),
    binary main_v36 main_v19 main_v37 (mulf : (⟨S20000x3x128, .f32⟩ : BufTy).Contents (Elt F) → (⟨S20000x3x128, .f32⟩ : BufTy).Contents (Elt F) → (⟨S20000x3x128, .f32⟩ : BufTy).Contents (Elt F)),
    nullary main_c_9 (constantI S_ 32 0#32),
    unary main_c_9 main_v38 (broadcastInDim S20000 ![] bcast_S_S20000 : (⟨S_, .i32⟩ : BufTy).Contents (Elt F) → (⟨S20000, .i32⟩ : BufTy).Contents (Elt F)),
    binary main_arg0 main_v38 main_v39 (cmpi .slt : (⟨S20000, .i32⟩ : BufTy).Contents (Elt F) → (⟨S20000, .i32⟩ : BufTy).Contents (Elt F) → (⟨S20000, .i1⟩ : BufTy).Contents (Elt F)),
    nullary main_c_10 (constantI S_ 32 20000#32),
    unary main_c_10 main_v40 (broadcastInDim S20000 ![] bcast_S_S20000 : (⟨S_, .i32⟩ : BufTy).Contents (Elt F) → (⟨S20000, .i32⟩ : BufTy).Contents (Elt F)),
    binary main_arg0 main_v40 main_v41 (addi : (⟨S20000, .i32⟩ : BufTy).Contents (Elt F) → (⟨S20000, .i32⟩ : BufTy).Contents (Elt F) → (⟨S20000, .i32⟩ : BufTy).Contents (Elt F)),
    ternary main_v39 main_v41 main_arg0 main_v42 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v42 main_v43 (broadcastInDim S20000x1 ![0] bcast_S20000_S20000x1_0 : (⟨S20000, .i32⟩ : BufTy).Contents (Elt F) → (⟨S20000x1, .i32⟩ : BufTy).Contents (Elt F)),
    binary main_v35 main_v43 main_v44 ((fun x i => Host.gather gather_S20000x1x128_S20000x1_S20000x1x128_12_0_n_n_0_1_11128 x i) : (⟨S20000x1x128, .f32⟩ : BufTy).Contents (Elt F) → (⟨S20000x1, .i32⟩ : BufTy).Contents (Elt F) → (⟨S20000x1x128, .f32⟩ : BufTy).Contents (Elt F)),
    nullary main_cst_11 (constant S_ .f32 0x3727C5AC#32),
    unary main_cst_11 main_v45 (broadcastInDim S20000x1x128 ![] bcast_S_S20000x1x128 : (⟨S_, .f32⟩ : BufTy).Contents (Elt F) → (⟨S20000x1x128, .f32⟩ : BufTy).Contents (Elt F)),
    binary main_v44 main_v45 main_v46 (addf : (⟨S20000x1x128, .f32⟩ : BufTy).Contents (Elt F) → (⟨S20000x1x128, .f32⟩ : BufTy).Contents (Elt F) → (⟨S20000x1x128, .f32⟩ : BufTy).Contents (Elt F)),
    unary main_v46 main_v47 (broadcastInDim S20000x3x128 ![0, 1, 2] bcast_S20000x1x128_S20000x3x128_0_1_2 : (⟨S20000x1x128, .f32⟩ : BufTy).Contents (Elt F) → (⟨S20000x3x128, .f32⟩ : BufTy).Contents (Elt F)),
    binary main_v37 main_v47 main_v48 (Host.divf : (⟨S20000x3x128, .f32⟩ : BufTy).Contents (Elt F) → (⟨S20000x3x128, .f32⟩ : BufTy).Contents (Elt F) → (⟨S20000x3x128, .f32⟩ : BufTy).Contents (Elt F)),
    nullary main_cst_12 (constant S_ .f32 0x00000000#32),
    binary main_arg2 main_cst_12 main_v49 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v49 main_v50 (broadcastInDim S20000x1 ![0] bcast_S20000_S20000x1_0 : (⟨S20000, .f32⟩ : BufTy).Contents (Elt F) → (⟨S20000x1, .f32⟩ : BufTy).Contents (Elt F)),
    nullary main_cst_13 (constant S_ .f32 0x42800000#32),
    unary main_cst_13 main_v51 (broadcastInDim S20000x1 ![] bcast_S_S20000x1 : (⟨S_, .f32⟩ : BufTy).Contents (Elt F) → (⟨S20000x1, .f32⟩ : BufTy).Contents (Elt F)),
    binary main_v50 main_v51 main_v52 (Host.divf : (⟨S20000x1, .f32⟩ : BufTy).Contents (Elt F) → (⟨S20000x1, .f32⟩ : BufTy).Contents (Elt F) → (⟨S20000x1, .f32⟩ : BufTy).Contents (Elt F)),
    unary main_v52 main_v53 (broadcastInDim S20000x64 ![0, 1] bcast_S20000x1_S20000x64_0_1 : (⟨S20000x1, .f32⟩ : BufTy).Contents (Elt F) → (⟨S20000x64, .f32⟩ : BufTy).Contents (Elt F)),
    binary main_arg2 main_v53 main_v54 (subf : (⟨S20000x64, .f32⟩ : BufTy).Contents (Elt F) → (⟨S20000x64, .f32⟩ : BufTy).Contents (Elt F) → (⟨S20000x64, .f32⟩ : BufTy).Contents (Elt F)),
    binary main_v54 main_v54 main_v55 (mulf : (⟨S20000x64, .f32⟩ : BufTy).Contents (Elt F) → (⟨S20000x64, .f32⟩ : BufTy).Contents (Elt F) → (⟨S20000x64, .f32⟩ : BufTy).Contents (Elt F)),
    nullary main_cst_14 (constant S_ .f32 0x00000000#32),
    binary main_v55 main_cst_14 main_v56 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    unary main_v56 main_v57 (broadcastInDim S20000x1 ![0] bcast_S20000_S20000x1_0 : (⟨S20000, .f32⟩ : BufTy).Contents (Elt F) → (⟨S20000x1, .f32⟩ : BufTy).Contents (Elt F)),
    nullary main_cst_15 (constant S_ .f32 0x42800000#32),
    unary main_cst_15 main_v58 (broadcastInDim S20000x1 ![] bcast_S_S20000x1 : (⟨S_, .f32⟩ : BufTy).Contents (Elt F) → (⟨S20000x1, .f32⟩ : BufTy).Contents (Elt F)),
    binary main_v57 main_v58 main_v59 (Host.divf : (⟨S20000x1, .f32⟩ : BufTy).Contents (Elt F) → (⟨S20000x1, .f32⟩ : BufTy).Contents (Elt F) → (⟨S20000x1, .f32⟩ : BufTy).Contents (Elt F)),
    unary main_v52 main_v60 (broadcastInDim S20000x64 ![0, 1] bcast_S20000x1_S20000x64_0_1 : (⟨S20000x1, .f32⟩ : BufTy).Contents (Elt F) → (⟨S20000x64, .f32⟩ : BufTy).Contents (Elt F)),
    binary main_arg2 main_v60 main_v61 (subf : (⟨S20000x64, .f32⟩ : BufTy).Contents (Elt F) → (⟨S20000x64, .f32⟩ : BufTy).Contents (Elt F) → (⟨S20000x64, .f32⟩ : BufTy).Contents (Elt F)),
    unary main_arg14 main_v62 (broadcastInDim S1x64 ![1] bcast_S64_S1x64_1 : (⟨S64, .f32⟩ : BufTy).Contents (Elt F) → (⟨S1x64, .f32⟩ : BufTy).Contents (Elt F)),
    unary main_v62 main_v63 (broadcastInDim S20000x64 ![0, 1] bcast_S1x64_S20000x64_0_1 : (⟨S1x64, .f32⟩ : BufTy).Contents (Elt F) → (⟨S20000x64, .f32⟩ : BufTy).Contents (Elt F)),
    binary main_v63 main_v61 main_v64 (mulf : (⟨S20000x64, .f32⟩ : BufTy).Contents (Elt F) → (⟨S20000x64, .f32⟩ : BufTy).Contents (Elt F) → (⟨S20000x64, .f32⟩ : BufTy).Contents (Elt F)),
    nullary main_cst_16 (constant S_ .f32 0x3727C5AC#32),
    unary main_cst_16 main_v65 (broadcastInDim S20000x1 ![] bcast_S_S20000x1 : (⟨S_, .f32⟩ : BufTy).Contents (Elt F) → (⟨S20000x1, .f32⟩ : BufTy).Contents (Elt F)),
    binary main_v59 main_v65 main_v66 (addf : (⟨S20000x1, .f32⟩ : BufTy).Contents (Elt F) → (⟨S20000x1, .f32⟩ : BufTy).Contents (Elt F) → (⟨S20000x1, .f32⟩ : BufTy).Contents (Elt F)),
    unary main_v66 main_v67 (Host.sqrt : (⟨S20000x1, .f32⟩ : BufTy).Contents (Elt F) → (⟨S20000x1, .f32⟩ : BufTy).Contents (Elt F)),
    unary main_v67 main_v68 (broadcastInDim S20000x64 ![0, 1] bcast_S20000x1_S20000x64_0_1 : (⟨S20000x1, .f32⟩ : BufTy).Contents (Elt F) → (⟨S20000x64, .f32⟩ : BufTy).Contents (Elt F)),
    binary main_v64 main_v68 main_v69 (Host.divf : (⟨S20000x64, .f32⟩ : BufTy).Contents (Elt F) → (⟨S20000x64, .f32⟩ : BufTy).Contents (Elt F) → (⟨S20000x64, .f32⟩ : BufTy).Contents (Elt F)),
    unary main_arg15 main_v70 (broadcastInDim S1x64 ![1] bcast_S64_S1x64_1 : (⟨S64, .f32⟩ : BufTy).Contents (Elt F) → (⟨S1x64, .f32⟩ : BufTy).Contents (Elt F)),
    unary main_v70 main_v71 (broadcastInDim S20000x64 ![0, 1] bcast_S1x64_S20000x64_0_1 : (⟨S1x64, .f32⟩ : BufTy).Contents (Elt F) → (⟨S20000x64, .f32⟩ : BufTy).Contents (Elt F)),
    binary main_v69 main_v71 main_v72 (addf : (⟨S20000x64, .f32⟩ : BufTy).Contents (Elt F) → (⟨S20000x64, .f32⟩ : BufTy).Contents (Elt F) → (⟨S20000x64, .f32⟩ : BufTy).Contents (Elt F)),
    unary main_arg3 main_v73 ((extractStridedSlice S1x400000 ![0, 0] · slices_S2x400000_S1x400000_0_0) : (⟨S2x400000, .i32⟩ : BufTy).Contents (Elt F) → (⟨S1x400000, .i32⟩ : BufTy).Contents (Elt F)),
    reshape main_v73 main_v74 rfl shapeCasts_S1x400000_S400000,
    unary main_arg3 main_v75 ((extractStridedSlice S1x400000 ![1, 0] · slices_S2x400000_S1x400000_1_0) : (⟨S2x400000, .i32⟩ : BufTy).Contents (Elt F) → (⟨S1x400000, .i32⟩ : BufTy).Contents (Elt F)),
    reshape main_v75 main_v76 rfl shapeCasts_S1x400000_S400000,
    nullary main_c_17 (constantI S_ 32 0#32),
    unary main_c_17 main_v77 (broadcastInDim S400000 ![] bcast_S_S400000 : (⟨S_, .i32⟩ : BufTy).Contents (Elt F) → (⟨S400000, .i32⟩ : BufTy).Contents (Elt F)),
    binary main_v74 main_v77 main_v78 (cmpi .slt : (⟨S400000, .i32⟩ : BufTy).Contents (Elt F) → (⟨S400000, .i32⟩ : BufTy).Contents (Elt F) → (⟨S400000, .i1⟩ : BufTy).Contents (Elt F)),
    nullary main_c_18 (constantI S_ 32 20000#32),
    unary main_c_18 main_v79 (broadcastInDim S400000 ![] bcast_S_S400000 : (⟨S_, .i32⟩ : BufTy).Contents (Elt F) → (⟨S400000, .i32⟩ : BufTy).Contents (Elt F)),
    binary main_v74 main_v79 main_v80 (addi : (⟨S400000, .i32⟩ : BufTy).Contents (Elt F) → (⟨S400000, .i32⟩ : BufTy).Contents (Elt F) → (⟨S400000, .i32⟩ : BufTy).Contents (Elt F)),
    ternary main_v78 main_v80 main_v74 main_v81 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v81 main_v82 (broadcastInDim S400000x1 ![0] bcast_S400000_S400000x1_0 : (⟨S400000, .i32⟩ : BufTy).Contents (Elt F) → (⟨S400000x1, .i32⟩ : BufTy).Contents (Elt F)),
    binary main_v48 main_v82 main_v83 ((fun x i => Host.gather gather_S20000x3x128_S400000x1_S400000x3x128_12_0_n_n_0_1_13128 x i) : (⟨S20000x3x128, .f32⟩ : BufTy).Contents (Elt F) → (⟨S400000x1, .i32⟩ : BufTy).Contents (Elt F) → (⟨S400000x3x128, .f32⟩ : BufTy).Contents (Elt F)),
    nullary main_c_19 (constantI S_ 32 0#32),
    unary main_c_19 main_v84 (broadcastInDim S400000 ![] bcast_S_S400000 : (⟨S_, .i32⟩ : BufTy).Contents (Elt F) → (⟨S400000, .i32⟩ : BufTy).Contents (Elt F)),
    binary main_v76 main_v84 main_v85 (cmpi .slt : (⟨S400000, .i32⟩ : BufTy).Contents (Elt F) → (⟨S400000, .i32⟩ : BufTy).Contents (Elt F) → (⟨S400000, .i1⟩ : BufTy).Contents (Elt F)),
    nullary main_c_20 (constantI S_ 32 20000#32),
    unary main_c_20 main_v86 (broadcastInDim S400000 ![] bcast_S_S400000 : (⟨S_, .i32⟩ : BufTy).Contents (Elt F) → (⟨S400000, .i32⟩ : BufTy).Contents (Elt F)),
    binary main_v76 main_v86 main_v87 (addi : (⟨S400000, .i32⟩ : BufTy).Contents (Elt F) → (⟨S400000, .i32⟩ : BufTy).Contents (Elt F) → (⟨S400000, .i32⟩ : BufTy).Contents (Elt F)),
    ternary main_v85 main_v87 main_v76 main_v88 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v88 main_v89 (broadcastInDim S400000x1 ![0] bcast_S400000_S400000x1_0 : (⟨S400000, .i32⟩ : BufTy).Contents (Elt F) → (⟨S400000x1, .i32⟩ : BufTy).Contents (Elt F)),
    binary main_v48 main_v89 main_v90 ((fun x i => Host.gather gather_S20000x3x128_S400000x1_S400000x3x128_12_0_n_n_0_1_13128 x i) : (⟨S20000x3x128, .f32⟩ : BufTy).Contents (Elt F) → (⟨S400000x1, .i32⟩ : BufTy).Contents (Elt F) → (⟨S400000x3x128, .f32⟩ : BufTy).Contents (Elt F)),
    binary main_v83 main_v90 main_v91 (subf : (⟨S400000x3x128, .f32⟩ : BufTy).Contents (Elt F) → (⟨S400000x3x128, .f32⟩ : BufTy).Contents (Elt F) → (⟨S400000x3x128, .f32⟩ : BufTy).Contents (Elt F)) ]

/-- The next 22: the squared lengths, the attribute row joined to them, the two gathers of features. -/
def opsB1 : List (HloOp τ sig (Elt F)) :=
  [ binary main_v91 main_v91 main_v92 (mulf : (⟨S400000x3x128, .f32⟩ : BufTy).Contents (Elt F) → (⟨S400000x3x128, .f32⟩ : BufTy).Contents (Elt F) → (⟨S400000x3x128, .f32⟩ : BufTy).Contents (Elt F)),
    nullary main_cst_21 (constant S_ .f32 0x00000000#32),
    binary main_v92 main_cst_21 main_v93 ((fun x v => Host.reduceAdd x v reducesTo_S400000x3x128_S400000x128_d1 h_S_) : (⟨S400000x3x128, .f32⟩ : BufTy).Contents (Elt F) → (⟨S_, .f32⟩ : BufTy).Contents (Elt F) → (⟨S400000x128, .f32⟩ : BufTy).Contents (Elt F)),
    binary main_arg4 main_v93 main_v94 ((fun a b => concatenate S400000x192 1 [⟨S400000x64, a⟩, ⟨S400000x128, b⟩] concatenates_S400000x64_S400000x128_S400000x192_d1) : (⟨S400000x64, .f32⟩ : BufTy).Contents (Elt F) → (⟨S400000x128, .f32⟩ : BufTy).Contents (Elt F) → (⟨S400000x192, .f32⟩ : BufTy).Contents (Elt F)),
    nullary main_c_22 (constantI S_ 32 0#32),
    unary main_c_22 main_v95 (broadcastInDim S400000 ![] bcast_S_S400000 : (⟨S_, .i32⟩ : BufTy).Contents (Elt F) → (⟨S400000, .i32⟩ : BufTy).Contents (Elt F)),
    binary main_v76 main_v95 main_v96 (cmpi .slt : (⟨S400000, .i32⟩ : BufTy).Contents (Elt F) → (⟨S400000, .i32⟩ : BufTy).Contents (Elt F) → (⟨S400000, .i1⟩ : BufTy).Contents (Elt F)),
    nullary main_c_23 (constantI S_ 32 20000#32),
    unary main_c_23 main_v97 (broadcastInDim S400000 ![] bcast_S_S400000 : (⟨S_, .i32⟩ : BufTy).Contents (Elt F) → (⟨S400000, .i32⟩ : BufTy).Contents (Elt F)),
    binary main_v76 main_v97 main_v98 (addi : (⟨S400000, .i32⟩ : BufTy).Contents (Elt F) → (⟨S400000, .i32⟩ : BufTy).Contents (Elt F) → (⟨S400000, .i32⟩ : BufTy).Contents (Elt F)),
    ternary main_v96 main_v98 main_v76 main_v99 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v99 main_v100 (broadcastInDim S400000x1 ![0] bcast_S400000_S400000x1_0 : (⟨S400000, .i32⟩ : BufTy).Contents (Elt F) → (⟨S400000x1, .i32⟩ : BufTy).Contents (Elt F)),
    binary main_v72 main_v100 main_v101 ((fun x i => Host.gather gather_S20000x64_S400000x1_S400000x64_1_0_n_n_0_1_164 x i) : (⟨S20000x64, .f32⟩ : BufTy).Contents (Elt F) → (⟨S400000x1, .i32⟩ : BufTy).Contents (Elt F) → (⟨S400000x64, .f32⟩ : BufTy).Contents (Elt F)),
    nullary main_c_24 (constantI S_ 32 0#32),
    unary main_c_24 main_v102 (broadcastInDim S400000 ![] bcast_S_S400000 : (⟨S_, .i32⟩ : BufTy).Contents (Elt F) → (⟨S400000, .i32⟩ : BufTy).Contents (Elt F)),
    binary main_v74 main_v102 main_v103 (cmpi .slt : (⟨S400000, .i32⟩ : BufTy).Contents (Elt F) → (⟨S400000, .i32⟩ : BufTy).Contents (Elt F) → (⟨S400000, .i1⟩ : BufTy).Contents (Elt F)),
    nullary main_c_25 (constantI S_ 32 20000#32),
    unary main_c_25 main_v104 (broadcastInDim S400000 ![] bcast_S_S400000 : (⟨S_, .i32⟩ : BufTy).Contents (Elt F) → (⟨S400000, .i32⟩ : BufTy).Contents (Elt F)),
    binary main_v74 main_v104 main_v105 (addi : (⟨S400000, .i32⟩ : BufTy).Contents (Elt F) → (⟨S400000, .i32⟩ : BufTy).Contents (Elt F) → (⟨S400000, .i32⟩ : BufTy).Contents (Elt F)),
    ternary main_v103 main_v105 main_v74 main_v106 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v106 main_v107 (broadcastInDim S400000x1 ![0] bcast_S400000_S400000x1_0 : (⟨S400000, .i32⟩ : BufTy).Contents (Elt F) → (⟨S400000x1, .i32⟩ : BufTy).Contents (Elt F)),
    binary main_v72 main_v107 main_v108 ((fun x i => Host.gather gather_S20000x64_S400000x1_S400000x64_1_0_n_n_0_1_164 x i) : (⟨S20000x64, .f32⟩ : BufTy).Contents (Elt F) → (⟨S400000x1, .i32⟩ : BufTy).Contents (Elt F) → (⟨S400000x64, .f32⟩ : BufTy).Contents (Elt F)) ]

/-- The concatenation of the four row parts. -/
def opN : HloOp τ sig (Elt F) :=
  nary ![main_v101, main_v108, main_v94, main_arg5] main_v109 (fun u => concatenate S400000x384 1 [⟨S400000x64, u 0⟩, ⟨S400000x64, u 1⟩, ⟨S400000x192, u 2⟩, ⟨S400000x64, u 3⟩] concatenates_S400000x64_S400000x64_S400000x192_S400000x64_S400000x384_d1)

/-- The last 60: the edge network, the scatter-add, the final sum. -/
def opsB2 : List (HloOp τ sig (Elt F)) :=
  [ binary main_v109 main_arg6 main_v110 ((fun l r => Host.dotGeneral dot_S400000x384_S384x64_S400000x64_1_0_0_1_n_n none l r) : (⟨S400000x384, .f32⟩ : BufTy).Contents (Elt F) → (⟨S384x64, .f32⟩ : BufTy).Contents (Elt F) → (⟨S400000x64, .f32⟩ : BufTy).Contents (Elt F)),
    unary main_arg7 main_v111 (broadcastInDim S1x64 ![1] bcast_S64_S1x64_1 : (⟨S64, .f32⟩ : BufTy).Contents (Elt F) → (⟨S1x64, .f32⟩ : BufTy).Contents (Elt F)),
    unary main_v111 main_v112 (broadcastInDim S400000x64 ![0, 1] bcast_S1x64_S400000x64_0_1 : (⟨S1x64, .f32⟩ : BufTy).Contents (Elt F) → (⟨S400000x64, .f32⟩ : BufTy).Contents (Elt F)),
    binary main_v110 main_v112 main_v113 (addf : (⟨S400000x64, .f32⟩ : BufTy).Contents (Elt F) → (⟨S400000x64, .f32⟩ : BufTy).Contents (Elt F) → (⟨S400000x64, .f32⟩ : BufTy).Contents (Elt F)),
    TRef.unary (TRef.of (T := ⟨S400000x64, .f32⟩) main_v113) (TRef.of (T := ⟨S400000x64, .f32⟩) main_call0_v0) Host.negf,
    TRef.unary (TRef.of (T := ⟨S400000x64, .f32⟩) main_call0_v0) (TRef.of (T := ⟨S400000x64, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S400000x64, .f32⟩) main_call0_v2) (broadcastInDim S400000x64 ![] bcast_S_S400000x64),
    TRef.binary (TRef.of (T := ⟨S400000x64, .f32⟩) main_call0_v2) (TRef.of (T := ⟨S400000x64, .f32⟩) main_call0_v1) (TRef.of (T := ⟨S400000x64, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S400000x64, .f32⟩) main_call0_v4) (broadcastInDim S400000x64 ![] bcast_S_S400000x64),
    TRef.binary (TRef.of (T := ⟨S400000x64, .f32⟩) main_call0_v4) (TRef.of (T := ⟨S400000x64, .f32⟩) main_call0_v3) (TRef.of (T := ⟨S400000x64, .f32⟩) main_call0_v5) Host.divf,
    TRef.binary (TRef.of (T := ⟨S400000x64, .f32⟩) main_v113) (TRef.of (T := ⟨S400000x64, .f32⟩) main_call0_v5) (TRef.of (T := ⟨S400000x64, .f32⟩) main_v114) mulf,
    binary main_v114 main_arg8 main_v115 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)),
    unary main_arg9 main_v116 (broadcastInDim S1x64 ![1] bcast_S64_S1x64_1 : (⟨S64, .f32⟩ : BufTy).Contents (Elt F) → (⟨S1x64, .f32⟩ : BufTy).Contents (Elt F)),
    unary main_v116 main_v117 (broadcastInDim S400000x64 ![0, 1] bcast_S1x64_S400000x64_0_1 : (⟨S1x64, .f32⟩ : BufTy).Contents (Elt F) → (⟨S400000x64, .f32⟩ : BufTy).Contents (Elt F)),
    binary main_v115 main_v117 main_v118 (addf : (⟨S400000x64, .f32⟩ : BufTy).Contents (Elt F) → (⟨S400000x64, .f32⟩ : BufTy).Contents (Elt F) → (⟨S400000x64, .f32⟩ : BufTy).Contents (Elt F)),
    binary main_v118 main_arg10 main_v119 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)),
    unary main_arg11 main_v120 (broadcastInDim S1x64 ![1] bcast_S64_S1x64_1 : (⟨S64, .f32⟩ : BufTy).Contents (Elt F) → (⟨S1x64, .f32⟩ : BufTy).Contents (Elt F)),
    unary main_v120 main_v121 (broadcastInDim S400000x64 ![0, 1] bcast_S1x64_S400000x64_0_1 : (⟨S1x64, .f32⟩ : BufTy).Contents (Elt F) → (⟨S400000x64, .f32⟩ : BufTy).Contents (Elt F)),
    binary main_v119 main_v121 main_v122 (addf : (⟨S400000x64, .f32⟩ : BufTy).Contents (Elt F) → (⟨S400000x64, .f32⟩ : BufTy).Contents (Elt F) → (⟨S400000x64, .f32⟩ : BufTy).Contents (Elt F)),
    TRef.unary (TRef.of (T := ⟨S400000x64, .f32⟩) main_v122) (TRef.of (T := ⟨S400000x64, .f32⟩) main_call1_v0) Host.negf,
    TRef.unary (TRef.of (T := ⟨S400000x64, .f32⟩) main_call1_v0) (TRef.of (T := ⟨S400000x64, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S400000x64, .f32⟩) main_call1_v2) (broadcastInDim S400000x64 ![] bcast_S_S400000x64),
    TRef.binary (TRef.of (T := ⟨S400000x64, .f32⟩) main_call1_v2) (TRef.of (T := ⟨S400000x64, .f32⟩) main_call1_v1) (TRef.of (T := ⟨S400000x64, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S400000x64, .f32⟩) main_call1_v4) (broadcastInDim S400000x64 ![] bcast_S_S400000x64),
    TRef.binary (TRef.of (T := ⟨S400000x64, .f32⟩) main_call1_v4) (TRef.of (T := ⟨S400000x64, .f32⟩) main_call1_v3) (TRef.of (T := ⟨S400000x64, .f32⟩) main_call1_v5) Host.divf,
    TRef.binary (TRef.of (T := ⟨S400000x64, .f32⟩) main_v122) (TRef.of (T := ⟨S400000x64, .f32⟩) main_call1_v5) (TRef.of (T := ⟨S400000x64, .f32⟩) main_v123) mulf,
    binary main_v123 main_arg12 main_v124 ((fun l r => Host.dotGeneral dot_S400000x64_S64x128_S400000x128_1_0_0_1_n_n none l r) : (⟨S400000x64, .f32⟩ : BufTy).Contents (Elt F) → (⟨S64x128, .f32⟩ : BufTy).Contents (Elt F) → (⟨S400000x128, .f32⟩ : BufTy).Contents (Elt F)),
    unary main_arg13 main_v125 (broadcastInDim S1x128 ![1] bcast_S128_S1x128_1 : (⟨S128, .f32⟩ : BufTy).Contents (Elt F) → (⟨S1x128, .f32⟩ : BufTy).Contents (Elt F)),
    unary main_v125 main_v126 (broadcastInDim S400000x128 ![0, 1] bcast_S1x128_S400000x128_0_1 : (⟨S1x128, .f32⟩ : BufTy).Contents (Elt F) → (⟨S400000x128, .f32⟩ : BufTy).Contents (Elt F)),
    binary main_v124 main_v126 main_v127 (addf : (⟨S400000x128, .f32⟩ : BufTy).Contents (Elt F) → (⟨S400000x128, .f32⟩ : BufTy).Contents (Elt F) → (⟨S400000x128, .f32⟩ : BufTy).Contents (Elt F)),
    nullary main_cst_26 (constant S_ .f32 0xC1200000#32),
    nullary main_cst_27 (constant S_ .f32 0x41200000#32),
    TRef.unary (TRef.of (T := ⟨S_, .f32⟩) main_cst_26) (TRef.of (T := ⟨S_, .f32⟩) main_call2_v0) id,
    TRef.unary (TRef.of (T := ⟨S_, .f32⟩) main_call2_v0) (TRef.of (T := ⟨S400000x128, .f32⟩) main_call2_v1) (broadcastInDim S400000x128 ![] bcast_S_S400000x128),
    TRef.binary (TRef.of (T := ⟨S400000x128, .f32⟩) main_call2_v1) (TRef.of (T := ⟨S400000x128, .f32⟩) main_v127) (TRef.of (T := ⟨S400000x128, .f32⟩) main_call2_v2) maximumf,
    TRef.unary (TRef.of (T := ⟨S_, .f32⟩) main_cst_27) (TRef.of (T := ⟨S_, .f32⟩) main_call2_v3) id,
    TRef.unary (TRef.of (T := ⟨S_, .f32⟩) main_call2_v3) (TRef.of (T := ⟨S400000x128, .f32⟩) main_call2_v4) (broadcastInDim S400000x128 ![] bcast_S_S400000x128),
    TRef.binary (TRef.of (T := ⟨S400000x128, .f32⟩) main_call2_v4) (TRef.of (T := ⟨S400000x128, .f32⟩) main_call2_v2) (TRef.of (T := ⟨S400000x128, .f32⟩) main_v128) minimumf,
    unary main_v93 main_v129 (broadcastInDim S400000x1x128 ![0, 2] bcast_S400000x128_S400000x1x128_0_2 : (⟨S400000x128, .f32⟩ : BufTy).Contents (Elt F) → (⟨S400000x1x128, .f32⟩ : BufTy).Contents (Elt F)),
    nullary main_cst_28 (constant S_ .f32 0x322BCC77#32),
    unary main_cst_28 main_v130 (broadcastInDim S400000x1x128 ![] bcast_S_S400000x1x128 : (⟨S_, .f32⟩ : BufTy).Contents (Elt F) → (⟨S400000x1x128, .f32⟩ : BufTy).Contents (Elt F)),
    binary main_v129 main_v130 main_v131 (addf : (⟨S400000x1x128, .f32⟩ : BufTy).Contents (Elt F) → (⟨S400000x1x128, .f32⟩ : BufTy).Contents (Elt F) → (⟨S400000x1x128, .f32⟩ : BufTy).Contents (Elt F)),
    unary main_v131 main_v132 (Host.sqrt : (⟨S400000x1x128, .f32⟩ : BufTy).Contents (Elt F) → (⟨S400000x1x128, .f32⟩ : BufTy).Contents (Elt F)),
    nullary main_cst_29 (constant S_ .f32 0x3F800000#32),
    unary main_cst_29 main_v133 (broadcastInDim S400000x1x128 ![] bcast_S_S400000x1x128 : (⟨S_, .f32⟩ : BufTy).Contents (Elt F) → (⟨S400000x1x128, .f32⟩ : BufTy).Contents (Elt F)),
    binary main_v133 main_v132 main_v134 (addf : (⟨S400000x1x128, .f32⟩ : BufTy).Contents (Elt F) → (⟨S400000x1x128, .f32⟩ : BufTy).Contents (Elt F) → (⟨S400000x1x128, .f32⟩ : BufTy).Contents (Elt F)),
    unary main_v134 main_v135 (broadcastInDim S400000x3x128 ![0, 1, 2] bcast_S400000x1x128_S400000x3x128_0_1_2 : (⟨S400000x1x128, .f32⟩ : BufTy).Contents (Elt F) → (⟨S400000x3x128, .f32⟩ : BufTy).Contents (Elt F)),
    binary main_v91 main_v135 main_v136 (Host.divf : (⟨S400000x3x128, .f32⟩ : BufTy).Contents (Elt F) → (⟨S400000x3x128, .f32⟩ : BufTy).Contents (Elt F) → (⟨S400000x3x128, .f32⟩ : BufTy).Contents (Elt F)),
    unary main_v128 main_v137 (broadcastInDim S400000x1x128 ![0, 2] bcast_S400000x128_S400000x1x128_0_2 : (⟨S400000x128, .f32⟩ : BufTy).Contents (Elt F) → (⟨S400000x1x128, .f32⟩ : BufTy).Contents (Elt F)),
    unary main_v137 main_v138 (broadcastInDim S400000x3x128 ![0, 1, 2] bcast_S400000x1x128_S400000x3x128_0_1_2 : (⟨S400000x1x128, .f32⟩ : BufTy).Contents (Elt F) → (⟨S400000x3x128, .f32⟩ : BufTy).Contents (Elt F)),
    binary main_v136 main_v138 main_v139 (mulf : (⟨S400000x3x128, .f32⟩ : BufTy).Contents (Elt F) → (⟨S400000x3x128, .f32⟩ : BufTy).Contents (Elt F) → (⟨S400000x3x128, .f32⟩ : BufTy).Contents (Elt F)),
    nullary main_cst_30 (constant S_ .f32 0x00000000#32),
    unary main_cst_30 main_v140 (broadcastInDim S20000x3x128 ![] bcast_S_S20000x3x128 : (⟨S_, .f32⟩ : BufTy).Contents (Elt F) → (⟨S20000x3x128, .f32⟩ : BufTy).Contents (Elt F)),
    unary main_v76 main_v141 (broadcastInDim S400000x1 ![0] bcast_S400000_S400000x1_0 : (⟨S400000, .i32⟩ : BufTy).Contents (Elt F) → (⟨S400000x1, .i32⟩ : BufTy).Contents (Elt F)),
    ternary main_v140 main_v141 main_v139 main_v142 ((fun x i u => Host.scatterAdd scatter_S20000x3x128_S400000x1_S400000x3x128_12_0_0_1 x i u) : (⟨S20000x3x128, .f32⟩ : BufTy).Contents (Elt F) → (⟨S400000x1, .i32⟩ : BufTy).Contents (Elt F) → (⟨S400000x3x128, .f32⟩ : BufTy).Contents (Elt F) → (⟨S20000x3x128, .f32⟩ : BufTy).Contents (Elt F)),
    binary main_v48 main_v142 main_v143 (addf : (⟨S20000x3x128, .f32⟩ : BufTy).Contents (Elt F) → (⟨S20000x3x128, .f32⟩ : BufTy).Contents (Elt F) → (⟨S20000x3x128, .f32⟩ : BufTy).Contents (Elt F)) ]

set_option maxRecDepth 65536 in
theorem ops_split : (ops : List (HloOp τ sig (Elt F))) = opsA ++ (opsB1 ++ opN :: opsB2) := rfl

/-- The fold over two stretches laid end to end is the fold over the second from the fold over the first. -/
theorem after_append (A B : List (HloOp τ sig (Elt F))) (V : Valuation τ sig (Elt F)) :
    after (A ++ B) V = after B (after A V) := by
  induction A generalizing V with
  | nil => rfl
  | cons a A ih => exact ih _

variable (V : Valuation τ sig (Elt F))

/-! ## After the first stretch -/

set_option maxHeartbeats 4000000 in
theorem A_v91 : after opsA V (Proc.devRef .tc main_v91) = val_main_v91 (F := F) (V (Proc.devRef .tc main_arg0)) (V (Proc.devRef .tc main_arg1)) (V (Proc.devRef .tc main_arg3)) (V (Proc.devRef .tc main_arg16)) := by
  unfold opsA
  after_results_simp <;> rfl

set_option maxHeartbeats 4000000 in
theorem A_v48 : after opsA V (Proc.devRef .tc main_v48) = val_main_v48 (F := F) (V (Proc.devRef .tc main_arg0)) (V (Proc.devRef .tc main_arg1)) (V (Proc.devRef .tc main_arg16)) := by
  unfold opsA
  after_results_simp <;> rfl

set_option maxHeartbeats 4000000 in
theorem A_v76 : after opsA V (Proc.devRef .tc main_v76) = val_main_v76 (F := F) (V (Proc.devRef .tc main_arg3)) := by
  unfold opsA
  after_results_simp <;> rfl

set_option maxHeartbeats 4000000 in
theorem A_v74 : after opsA V (Proc.devRef .tc main_v74) = val_main_v74 (F := F) (V (Proc.devRef .tc main_arg3)) := by
  unfold opsA
  after_results_simp <;> rfl

set_option maxHeartbeats 4000000 in
theorem A_v72 : after opsA V (Proc.devRef .tc main_v72) = val_main_v72 (F := F) (V (Proc.devRef .tc main_arg2)) (V (Proc.devRef .tc main_arg14)) (V (Proc.devRef .tc main_arg15)) := by
  unfold opsA
  after_results_simp <;> rfl

set_option maxHeartbeats 4000000 in
theorem A_arg4 : after opsA V (Proc.devRef .tc main_arg4) = V (Proc.devRef .tc main_arg4) := by
  unfold opsA
  after_results_simp <;> rfl

set_option maxHeartbeats 4000000 in
theorem A_arg5 : after opsA V (Proc.devRef .tc main_arg5) = V (Proc.devRef .tc main_arg5) := by
  unfold opsA
  after_results_simp <;> rfl

set_option maxHeartbeats 4000000 in
theorem A_arg6 : after opsA V (Proc.devRef .tc main_arg6) = V (Proc.devRef .tc main_arg6) := by
  unfold opsA
  after_results_simp <;> rfl

set_option maxHeartbeats 4000000 in
theorem A_arg7 : after opsA V (Proc.devRef .tc main_arg7) = V (Proc.devRef .tc main_arg7) := by
  unfold opsA
  after_results_simp <;> rfl

set_option maxHeartbeats 4000000 in
theorem A_arg8 : after opsA V (Proc.devRef .tc main_arg8) = V (Proc.devRef .tc main_arg8) := by
  unfold opsA
  after_results_simp <;> rfl

set_option maxHeartbeats 4000000 in
theorem A_arg9 : after opsA V (Proc.devRef .tc main_arg9) = V (Proc.devRef .tc main_arg9) := by
  unfold opsA
  after_results_simp <;> rfl

set_option maxHeartbeats 4000000 in
theorem A_arg10 : after opsA V (Proc.devRef .tc main_arg10) = V (Proc.devRef .tc main_arg10) := by
  unfold opsA
  after_results_simp <;> rfl

set_option maxHeartbeats 4000000 in
theorem A_arg11 : after opsA V (Proc.devRef .tc main_arg11) = V (Proc.devRef .tc main_arg11) := by
  unfold opsA
  after_results_simp <;> rfl

set_option maxHeartbeats 4000000 in
theorem A_arg12 : after opsA V (Proc.devRef .tc main_arg12) = V (Proc.devRef .tc main_arg12) := by
  unfold opsA
  after_results_simp <;> rfl

set_option maxHeartbeats 4000000 in
theorem A_arg13 : after opsA V (Proc.devRef .tc main_arg13) = V (Proc.devRef .tc main_arg13) := by
  unfold opsA
  after_results_simp <;> rfl

set_option maxHeartbeats 4000000 in
theorem kept0 : after ops V (Proc.devRef .tc main_arg0) = V (Proc.devRef .tc main_arg0) := by
  after_results_simp <;> rfl

set_option maxHeartbeats 4000000 in
theorem kept1 : after ops V (Proc.devRef .tc main_arg1) = V (Proc.devRef .tc main_arg1) := by
  after_results_simp <;> rfl

set_option maxHeartbeats 4000000 in
theorem kept2 : after ops V (Proc.devRef .tc main_arg2) = V (Proc.devRef .tc main_arg2) := by
  after_results_simp <;> rfl

set_option maxHeartbeats 4000000 in
theorem kept3 : after ops V (Proc.devRef .tc main_arg3) = V (Proc.devRef .tc main_arg3) := by
  after_results_simp <;> rfl

set_option maxHeartbeats 4000000 in
theorem kept4 : after ops V (Proc.devRef .tc main_arg4) = V (Proc.devRef .tc main_arg4) := by
  after_results_simp <;> rfl

set_option maxHeartbeats 4000000 in
theorem kept5 : after ops V (Proc.devRef .tc main_arg5) = V (Proc.devRef .tc main_arg5) := by
  after_results_simp <;> rfl

set_option maxHeartbeats 4000000 in
theorem kept6 : after ops V (Proc.devRef .tc main_arg6) = V (Proc.devRef .tc main_arg6) := by
  after_results_simp <;> rfl

set_option maxHeartbeats 4000000 in
theorem kept7 : after ops V (Proc.devRef .tc main_arg7) = V (Proc.devRef .tc main_arg7) := by
  after_results_simp <;> rfl

set_option maxHeartbeats 4000000 in
theorem kept8 : after ops V (Proc.devRef .tc main_arg8) = V (Proc.devRef .tc main_arg8) := by
  after_results_simp <;> rfl

set_option maxHeartbeats 4000000 in
theorem kept9 : after ops V (Proc.devRef .tc main_arg9) = V (Proc.devRef .tc main_arg9) := by
  after_results_simp <;> rfl

set_option maxHeartbeats 4000000 in
theorem kept10 : after ops V (Proc.devRef .tc main_arg10) = V (Proc.devRef .tc main_arg10) := by
  after_results_simp <;> rfl

set_option maxHeartbeats 4000000 in
theorem kept11 : after ops V (Proc.devRef .tc main_arg11) = V (Proc.devRef .tc main_arg11) := by
  after_results_simp <;> rfl

set_option maxHeartbeats 4000000 in
theorem kept12 : after ops V (Proc.devRef .tc main_arg12) = V (Proc.devRef .tc main_arg12) := by
  after_results_simp <;> rfl

set_option maxHeartbeats 4000000 in
theorem kept13 : after ops V (Proc.devRef .tc main_arg13) = V (Proc.devRef .tc main_arg13) := by
  after_results_simp <;> rfl

set_option maxHeartbeats 4000000 in
theorem kept14 : after ops V (Proc.devRef .tc main_arg14) = V (Proc.devRef .tc main_arg14) := by
  after_results_simp <;> rfl

set_option maxHeartbeats 4000000 in
theorem kept15 : after ops V (Proc.devRef .tc main_arg15) = V (Proc.devRef .tc main_arg15) := by
  after_results_simp <;> rfl

set_option maxHeartbeats 4000000 in
theorem kept16 : after ops V (Proc.devRef .tc main_arg16) = V (Proc.devRef .tc main_arg16) := by
  after_results_simp <;> rfl

/-- No operation allocates: each determines its results. -/
theorem ops_fresh : (ops : List (HloOp τ sig (Elt F))).Forall fun op => op.fresh = ∅ := by
  simp only [List.Forall]; repeat' constructor

end Cert.ReferenceIdeal.HandRun

end
-- ==== Proof.RefRun.lean ====
/-
  THE REFERENCE'S RUN, read back in stretches.

  Every weakly fair execution of the reference's straight-line @main terminates with each buffer at the fold of the
  operations' results over the launch contents (the library's run of a straight-line program).  The fold is read stretch
  by stretch (RefRunA has the stretches and the first one): the second stretch over the first; the one concatenation of
  the four row parts by its own lemma; the last stretch over a valuation known only at the buffers it reads.  Composed,
  the result buffer holds the last stage function of the arguments, and the arguments are unchanged.
-/
import proofs.«151455_j19911468384607_2_alg».proof.Proof.RefRunA

set_option maxRecDepth 16384

noncomputable section

namespace Cert.ReferenceIdeal.HandRun

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo

variable {F : FTy → Type} [FloatOps F]

variable (V : Valuation τ sig (Elt F))

/-! ## After the second stretch -/

set_option maxHeartbeats 4000000 in
theorem g_v101 : after opsB1 (after opsA V) (Proc.devRef .tc main_v101) = val_main_v101 (F := F) (V (Proc.devRef .tc main_arg2)) (V (Proc.devRef .tc main_arg3)) (V (Proc.devRef .tc main_arg14)) (V (Proc.devRef .tc main_arg15)) := by
  unfold opsB1
  after_results
  rw [A_v72 V, A_v76 V]
  <;> rfl

set_option maxHeartbeats 4000000 in
theorem g_v108 : after opsB1 (after opsA V) (Proc.devRef .tc main_v108) = val_main_v108 (F := F) (V (Proc.devRef .tc main_arg2)) (V (Proc.devRef .tc main_arg3)) (V (Proc.devRef .tc main_arg14)) (V (Proc.devRef .tc main_arg15)) := by
  unfold opsB1
  after_results
  rw [A_v72 V, A_v74 V]
  <;> rfl

set_option maxHeartbeats 4000000 in
theorem g_v94 : after opsB1 (after opsA V) (Proc.devRef .tc main_v94) = val_main_v94 (F := F) (V (Proc.devRef .tc main_arg0)) (V (Proc.devRef .tc main_arg1)) (V (Proc.devRef .tc main_arg3)) (V (Proc.devRef .tc main_arg4)) (V (Proc.devRef .tc main_arg16)) := by
  unfold opsB1
  after_results
  rw [A_v91 V, A_arg4 V]
  <;> rfl

set_option maxHeartbeats 4000000 in
theorem g_v93 : after opsB1 (after opsA V) (Proc.devRef .tc main_v93) = val_main_v93 (F := F) (V (Proc.devRef .tc main_arg0)) (V (Proc.devRef .tc main_arg1)) (V (Proc.devRef .tc main_arg3)) (V (Proc.devRef .tc main_arg16)) := by
  unfold opsB1
  after_results
  rw [A_v91 V]
  <;> rfl

set_option maxHeartbeats 4000000 in
theorem g_v91 : after opsB1 (after opsA V) (Proc.devRef .tc main_v91) = val_main_v91 (F := F) (V (Proc.devRef .tc main_arg0)) (V (Proc.devRef .tc main_arg1)) (V (Proc.devRef .tc main_arg3)) (V (Proc.devRef .tc main_arg16)) := by
  unfold opsB1
  after_results
  rw [A_v91 V]
  <;> rfl

set_option maxHeartbeats 4000000 in
theorem g_v76 : after opsB1 (after opsA V) (Proc.devRef .tc main_v76) = val_main_v76 (F := F) (V (Proc.devRef .tc main_arg3)) := by
  unfold opsB1
  after_results
  rw [A_v76 V]
  <;> rfl

set_option maxHeartbeats 4000000 in
theorem g_v48 : after opsB1 (after opsA V) (Proc.devRef .tc main_v48) = val_main_v48 (F := F) (V (Proc.devRef .tc main_arg0)) (V (Proc.devRef .tc main_arg1)) (V (Proc.devRef .tc main_arg16)) := by
  unfold opsB1
  after_results
  rw [A_v48 V]
  <;> rfl

set_option maxHeartbeats 4000000 in
theorem g_arg5 : after opsB1 (after opsA V) (Proc.devRef .tc main_arg5) = V (Proc.devRef .tc main_arg5) := by
  unfold opsB1
  after_results
  rw [A_arg5 V]
  <;> rfl

set_option maxHeartbeats 4000000 in
theorem g_arg6 : after opsB1 (after opsA V) (Proc.devRef .tc main_arg6) = V (Proc.devRef .tc main_arg6) := by
  unfold opsB1
  after_results
  rw [A_arg6 V]
  <;> rfl

set_option maxHeartbeats 4000000 in
theorem g_arg7 : after opsB1 (after opsA V) (Proc.devRef .tc main_arg7) = V (Proc.devRef .tc main_arg7) := by
  unfold opsB1
  after_results
  rw [A_arg7 V]
  <;> rfl

set_option maxHeartbeats 4000000 in
theorem g_arg8 : after opsB1 (after opsA V) (Proc.devRef .tc main_arg8) = V (Proc.devRef .tc main_arg8) := by
  unfold opsB1
  after_results
  rw [A_arg8 V]
  <;> rfl

set_option maxHeartbeats 4000000 in
theorem g_arg9 : after opsB1 (after opsA V) (Proc.devRef .tc main_arg9) = V (Proc.devRef .tc main_arg9) := by
  unfold opsB1
  after_results
  rw [A_arg9 V]
  <;> rfl

set_option maxHeartbeats 4000000 in
theorem g_arg10 : after opsB1 (after opsA V) (Proc.devRef .tc main_arg10) = V (Proc.devRef .tc main_arg10) := by
  unfold opsB1
  after_results
  rw [A_arg10 V]
  <;> rfl

set_option maxHeartbeats 4000000 in
theorem g_arg11 : after opsB1 (after opsA V) (Proc.devRef .tc main_arg11) = V (Proc.devRef .tc main_arg11) := by
  unfold opsB1
  after_results
  rw [A_arg11 V]
  <;> rfl

set_option maxHeartbeats 4000000 in
theorem g_arg12 : after opsB1 (after opsA V) (Proc.devRef .tc main_arg12) = V (Proc.devRef .tc main_arg12) := by
  unfold opsB1
  after_results
  rw [A_arg12 V]
  <;> rfl

set_option maxHeartbeats 4000000 in
theorem g_arg13 : after opsB1 (after opsA V) (Proc.devRef .tc main_arg13) = V (Proc.devRef .tc main_arg13) := by
  unfold opsB1
  after_results
  rw [A_arg13 V]
  <;> rfl

/-! ## The concatenation -/

/-- The concatenated row array is the stage function of the arguments. -/
theorem n_v109 : (opN (F := F)).result (after opsB1 (after opsA V)) (Proc.devRef .tc main_v109)
    = val_main_v109 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg14)) (V (Proc.devRef .tc main_arg15)) (V (Proc.devRef .tc main_arg16)) := by
  unfold opN
  rw [nary4_result, g_v101 V, g_v108 V, g_v94 V, g_arg5 V]
  rfl

/-- Every other buffer is as the concatenation found it. -/
theorem n_ne {r : Ref sig .tc} (h : r ≠ main_v109) :
    (opN (F := F)).result (after opsB1 (after opsA V)) (Proc.devRef .tc r) = after opsB1 (after opsA V) (Proc.devRef .tc r) := by
  unfold opN
  rw [nary_result_ne]
  exact h

/-! ## The last stretch, over any valuation known at the buffers it reads -/

set_option maxHeartbeats 8000000 in
theorem last_stretch (G : Valuation τ sig (Elt F))
    (h109 : G (Proc.devRef .tc main_v109) = val_main_v109 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg14)) (V (Proc.devRef .tc main_arg15)) (V (Proc.devRef .tc main_arg16)))
    (h6 : G (Proc.devRef .tc main_arg6) = V (Proc.devRef .tc main_arg6)) (h7 : G (Proc.devRef .tc main_arg7) = V (Proc.devRef .tc main_arg7)) (h8 : G (Proc.devRef .tc main_arg8) = V (Proc.devRef .tc main_arg8)) (h9 : G (Proc.devRef .tc main_arg9) = V (Proc.devRef .tc main_arg9)) (h10 : G (Proc.devRef .tc main_arg10) = V (Proc.devRef .tc main_arg10)) (h11 : G (Proc.devRef .tc main_arg11) = V (Proc.devRef .tc main_arg11)) (h12 : G (Proc.devRef .tc main_arg12) = V (Proc.devRef .tc main_arg12)) (h13 : G (Proc.devRef .tc main_arg13) = V (Proc.devRef .tc main_arg13))
    (h93 : G (Proc.devRef .tc main_v93) = val_main_v93 (F := F) (V (Proc.devRef .tc main_arg0)) (V (Proc.devRef .tc main_arg1)) (V (Proc.devRef .tc main_arg3)) (V (Proc.devRef .tc main_arg16)))
    (h91 : G (Proc.devRef .tc main_v91) = val_main_v91 (F := F) (V (Proc.devRef .tc main_arg0)) (V (Proc.devRef .tc main_arg1)) (V (Proc.devRef .tc main_arg3)) (V (Proc.devRef .tc main_arg16)))
    (h76 : G (Proc.devRef .tc main_v76) = val_main_v76 (F := F) (V (Proc.devRef .tc main_arg3)))
    (h48 : G (Proc.devRef .tc main_v48) = val_main_v48 (F := F) (V (Proc.devRef .tc main_arg0)) (V (Proc.devRef .tc main_arg1)) (V (Proc.devRef .tc main_arg16))) :
    after opsB2 G (Proc.devRef .tc main_v143) = val_main_v143 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  unfold opsB2
  after_results_simp
  rw [h109, h6, h7, h8, h9, h10, h11, h12, h13, h93, h91, h76, h48]
  rfl

/-! ## The result, and the arguments -/

/-- The result buffer after all 198 operations is the last stage function of the arguments. -/
theorem res_eq : after ops V (Proc.devRef .tc main_v143) = val_main_v143 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [ops_split, after_append, after_append, after_cons]
  exact last_stretch V _ (n_v109 V)
    ((n_ne V (by decide)).trans (g_arg6 V)) ((n_ne V (by decide)).trans (g_arg7 V)) ((n_ne V (by decide)).trans (g_arg8 V)) ((n_ne V (by decide)).trans (g_arg9 V)) ((n_ne V (by decide)).trans (g_arg10 V)) ((n_ne V (by decide)).trans (g_arg11 V)) ((n_ne V (by decide)).trans (g_arg12 V)) ((n_ne V (by decide)).trans (g_arg13 V))
    ((n_ne V (by decide)).trans (g_v93 V)) ((n_ne V (by decide)).trans (g_v91 V)) ((n_ne V (by decide)).trans (g_v76 V))
    ((n_ne V (by decide)).trans (g_v48 V))

/-- On every device, from any memory with zero counters: every weakly fair execution of @main terminates with the result
    at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143) = val_main_v143 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v143).trans (res_eq (launchContents m c)),
      (h c main_arg0).trans (kept0 (launchContents m c)),
      (h c main_arg1).trans (kept1 (launchContents m c)),
      (h c main_arg2).trans (kept2 (launchContents m c)),
      (h c main_arg3).trans (kept3 (launchContents m c)),
      (h c main_arg4).trans (kept4 (launchContents m c)),
      (h c main_arg5).trans (kept5 (launchContents m c)),
      (h c main_arg6).trans (kept6 (launchContents m c)),
      (h c main_arg7).trans (kept7 (launchContents m c)),
      (h c main_arg8).trans (kept8 (launchContents m c)),
      (h c main_arg9).trans (kept9 (launchContents m c)),
      (h c main_arg10).trans (kept10 (launchContents m c)),
      (h c main_arg11).trans (kept11 (launchContents m c)),
      (h c main_arg12).trans (kept12 (launchContents m c)),
      (h c main_arg13).trans (kept13 (launchContents m c)),
      (h c main_arg14).trans (kept14 (launchContents m c)),
      (h c main_arg15).trans (kept15 (launchContents m c)),
      (h c main_arg16).trans (kept16 (launchContents m c))⟩)
    (run_seq scopedRefs_eq scopedSems_eq defs main (fun _ => ops) main_eq (fun _ => ops_sub) m ρ
      (fun _ op h => List.forall_iff_forall_mem.mp ops_fresh op h))

end Cert.ReferenceIdeal.HandRun

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibLeakyDense.lean ====
/-
  LEAKY-RECTIFIED DENSE STAGES, READ AT AN INDEX, generic in the extents.

  Over the extended reals, with  leaky v = v if v ≥ 0 else 0.2·v  (the slope the f32 word 0x3E4CCCCD, the zero the
  f32 word 0, both kept as words: the two spellings below carry the same words, so neither is ever evaluated):

  * a bias vector [B] laid as the row [1, B] and spread over [A, B] reads b(c) at (r, c) — in a kernel's spelling
    (shape cast, then vector broadcast) and in the host's (two broadcast_in_dim);
  * a scalar splat over any shape is the host's broadcast of a rank-0 constant;
  * x + bias row, then leaky, at (r, c) is  leaky (x(r, c) + b(c))  in both spellings;
  * a plain product whose operands pass a narrowing format change (the identity on the extended reals) is the host's
    dot_general of the operands, entry by entry:  Σ_k l(r, k) · w(k, c).

  * the two-layer head (leaky (z · W₂ + b₂)) · W₃ + b₃ at (r, c) as one double sum, in both spellings.

  Nothing here depends on a program.
-/
import Idealize.ShloMosaic.Lib.ValueIdx
import Idealize.ShloMosaic.Lib.ValueLayout
import Idealize.ShloMosaic.Lib.Pipeline.Value
import Idealize.ShloMosaic.PureOps.Ideal.Laws
import proofs.«151455_j19911468384607_2_alg».proof.Proof.LibPlainDot

noncomputable section

open scoped BigOperators

namespace Cert.Lib.LeakyDense

open Idealize.ShloMosaic Idealize.ShloMosaic.ValueIdx Cert.Lib.PlainDot

variable {A K B : Nat}

/-- leaky v = v where v ≥ 0, 0.2·v elsewhere: the comparison, the product and the choice as one scalar function
    of the extended real v, the zero and the slope as their f32 words. -/
def leaky (v : Ideal .f32) : Ideal .f32 :=
  Scalar.select (FloatOps.cmpf .oge v (FloatOps.ofBits .f32 0x00000000#32)) v
    (FloatOps.mulf (FloatOps.ofBits .f32 0x3E4CCCCD#32) v)

/-! ## The bias row -/

/-- A kernel's spelling: the vector [B] cast to [1, B] and broadcast over the rows of [A, B] reads b(c) at (r, c). -/
theorem kernelRow_apply {α : Type} (b : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (r : Fin A) (c : Fin B) :
    broadcastTo ⟨2, ![A, B]⟩ (shapeCast ⟨2, ![1, B]⟩ b h1) h2 (ix2 r c) = b (ix1 c) :=
  (broadcastTo_1b_ab_apply _ h2 r c).trans (shapeCast_a_1a_apply b h1 0 c)

/-- The host's spelling: the vector [B] broadcast along axis 1 into [1, B], then over [A, B], reads b(c) at (r, c). -/
theorem hostRow_apply {α : Type} (b : (⟨1, ![B]⟩ : Shape).Idx → α)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (r : Fin A) (c : Fin B) :
    broadcastInDim ⟨2, ![A, B]⟩ (![0, 1] : Fin 2 → Fin 2) g2 (broadcastInDim ⟨2, ![1, B]⟩ (![1] : Fin 1 → Fin 2) g1 b) (ix2 r c) = b (ix1 c) := by
  refine (broadcastInDim_apply _ g2 _ (ix2 r c) (ix2 (0 : Fin 1) c) fun a => ?_).trans
    (broadcastInDim_apply _ g1 b (ix2 (0 : Fin 1) c) (ix1 c) fun a => ?_)
  · match a with
    | ⟨0, _⟩ => show (0 : Nat) = if (1 : Nat) = 1 then 0 else r.val; rw [if_pos rfl]
    | ⟨1, _⟩ =>
      show c.val = if B = 1 then 0 else c.val
      split
      · have := c.isLt; omega
      · rfl
  · match a with
    | ⟨0, _⟩ =>
      show c.val = if B = 1 then 0 else c.val
      split
      · have := c.isLt; omega
      · rfl

/-! ## Bias, then leaky -/

/-- A kernel's spelling of  leaky (x + bias row)  at (r, c): the zero and the slope splat from scalars. -/
theorem kernelBiasLeaky_apply (x : FVec Ideal ⟨2, ![A, B]⟩ .f32) (b : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (r : Fin A) (c : Fin B) :
    select (cmpf .oge (addf x (broadcastTo ⟨2, ![A, B]⟩ (shapeCast ⟨2, ![1, B]⟩ b h1) h2))
        (broadcast ⟨2, ![A, B]⟩ (Scalar.ofBits (F := Ideal) .f32 0x00000000#32)))
      (addf x (broadcastTo ⟨2, ![A, B]⟩ (shapeCast ⟨2, ![1, B]⟩ b h1) h2))
      (mulf (broadcast ⟨2, ![A, B]⟩ (Scalar.ofBits (F := Ideal) .f32 0x3E4CCCCD#32))
        (addf x (broadcastTo ⟨2, ![A, B]⟩ (shapeCast ⟨2, ![1, B]⟩ b h1) h2))) (ix2 r c)
      = leaky (x (ix2 r c) + b (ix1 c)) := by
  have e := kernelRow_apply (A := A) b h1 h2 r c
  show Scalar.select (FloatOps.cmpf .oge (x (ix2 r c) + _) _) (x (ix2 r c) + _) (FloatOps.mulf _ (x (ix2 r c) + _)) = _
  rw [e]
  rfl

/-- The host's spelling of  leaky (x + bias row)  at (r, c): the zero and the slope broadcast from rank-0 constants. -/
theorem hostBiasLeaky_apply (x : FVec Ideal ⟨2, ![A, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2))
    (g0 : (⟨0, ![]⟩ : Shape).BroadcastsInDim ⟨2, ![A, B]⟩ (![] : Fin 0 → Fin 2))
    (r : Fin A) (c : Fin B) :
    select (cmpf .oge (addf x (broadcastInDim ⟨2, ![A, B]⟩ (![0, 1] : Fin 2 → Fin 2) g2 (broadcastInDim ⟨2, ![1, B]⟩ (![1] : Fin 1 → Fin 2) g1 b)))
        (broadcastInDim ⟨2, ![A, B]⟩ (![] : Fin 0 → Fin 2) g0 (constant (F := Ideal) ⟨0, ![]⟩ .f32 0x00000000#32)))
      (addf x (broadcastInDim ⟨2, ![A, B]⟩ (![0, 1] : Fin 2 → Fin 2) g2 (broadcastInDim ⟨2, ![1, B]⟩ (![1] : Fin 1 → Fin 2) g1 b)))
      (mulf (broadcastInDim ⟨2, ![A, B]⟩ (![] : Fin 0 → Fin 2) g0 (constant (F := Ideal) ⟨0, ![]⟩ .f32 0x3E4CCCCD#32))
        (addf x (broadcastInDim ⟨2, ![A, B]⟩ (![0, 1] : Fin 2 → Fin 2) g2 (broadcastInDim ⟨2, ![1, B]⟩ (![1] : Fin 1 → Fin 2) g1 b)))) (ix2 r c)
      = leaky (x (ix2 r c) + b (ix1 c)) := by
  have e := hostRow_apply (A := A) b g1 g2 r c
  show Scalar.select (FloatOps.cmpf .oge (x (ix2 r c) + _) _) (x (ix2 r c) + _) (FloatOps.mulf _ (x (ix2 r c) + _)) = _
  rw [e]
  rfl

/-! ## The plain product through a narrowing format change -/

/-- A kernel's matmul into the zero accumulator of operands narrowed to another float format reads, at (r, c), the
    textbook sum of the operands themselves: the format change is the identity on the extended reals. -/
theorem kernelDot_apply {ψ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (hb : ψ.bits < FTy.f32.bits)
    (l : FVec Ideal ⟨2, ![A, K]⟩ .f32) (w : FVec Ideal ⟨2, ![K, B]⟩ .f32) (r : Fin A) (c : Fin B) :
    matmul d none (truncf ψ l hb) (truncf ψ w hb) (constant ⟨2, ![A, B]⟩ .f32 0x00000000#32) (ix2 r c)
      = ∑ k : Fin K, l (ix2 r k) * w (ix2 k c) := by
  obtain rfl := eq_plain d h1 h2 h3 h4 h5 h6
  exact matmul_zero_plain_apply none (truncf ψ l hb) (truncf ψ w hb) (ix2 r c)

/-- The host's dot_general of a plain product reads, at (r, c), the same sum. -/
theorem hostDot_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ .f32) (w : FVec Ideal ⟨2, ![K, B]⟩ .f32) (r : Fin A) (c : Fin B) :
    Host.dotGeneral d none l w (ix2 r c) = ∑ k : Fin K, l (ix2 r k) * w (ix2 k c) := by
  obtain rfl := eq_plain d h1 h2 h3 h4 h5 h6
  exact dotGeneral_plain_apply none l w (ix2 r c)

/-! ## Offsets of a whole-block access -/

theorem offs2 : (![0, 0] : Fin 2 → Nat) = fun _ => 0 := funext fun a => by fin_cases a <;> rfl
theorem offs1 : (![0] : Fin 1 → Nat) = fun _ => 0 := funext fun a => by fin_cases a; rfl

/-! ## A two-layer head:  (leaky (z · W₂ + b₂)) · W₃ + b₃ -/

section Head
variable {K₁ K₂ : Nat}

/-- A kernel's spelling of the head — both products into zero accumulators with operands narrowed to another float
    format, both biases cast to rows and broadcast, the zero and the slope splat — read at (r, c). -/
theorem kernelHead_apply {ψ : FTy} (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (hb : ψ.bits < FTy.f32.bits)
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (h0 : (⟨2, ![A, K₁]⟩ : Shape).ShapeCasts ⟨2, ![A, K₁]⟩)
    (h1 : (⟨1, ![K₂]⟩ : Shape).ShapeCasts ⟨2, ![1, K₂]⟩) (h2 : (⟨2, ![1, K₂]⟩ : Shape).Broadcasts ⟨2, ![A, K₂]⟩)
    (h3 : (⟨1, ![B]⟩ : Shape).ShapeCasts ⟨2, ![1, B]⟩) (h4 : (⟨2, ![1, B]⟩ : Shape).Broadcasts ⟨2, ![A, B]⟩)
    (r : Fin A) (c : Fin B) :
    (addf (matmul d₃ none (truncf ψ (select (cmpf .oge (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (broadcast ⟨2, ![A, K₂]⟩ (Scalar.ofBits (F := Ideal) .f32 0x00000000#32))) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)) (mulf (broadcast ⟨2, ![A, K₂]⟩ (Scalar.ofBits (F := Ideal) .f32 0x3E4CCCCD#32)) (addf (matmul d₂ none (truncf ψ (shapeCast ⟨2, ![A, K₁]⟩ z h0) hb) (truncf ψ w₂ hb) (constant ⟨2, ![A, K₂]⟩ .f32 0x00000000#32)) (broadcastTo ⟨2, ![A, K₂]⟩ (shapeCast ⟨2, ![1, K₂]⟩ b₂ h1) h2)))) hb) (truncf ψ w₃ hb) (constant ⟨2, ![A, B]⟩ .f32 0x00000000#32)) (broadcastTo ⟨2, ![A, B]⟩ (shapeCast ⟨2, ![1, B]⟩ b₃ h3) h4)) (ix2 r c)
      = (∑ k : Fin K₂, leaky ((∑ j : Fin K₁, z (ix2 r j) * w₂ (ix2 j k)) + b₂ (ix1 k)) * w₃ (ix2 k c)) + b₃ (ix1 c) := by
  show (matmul d₃ none _ _ _) (ix2 r c) + (broadcastTo ⟨2, ![A, B]⟩ (shapeCast ⟨2, ![1, B]⟩ b₃ h3) h4) (ix2 r c) = _
  rw [kernelRow_apply (A := A) b₃ h3 h4 r c, kernelDot_apply d₃ q1 q2 q3 q4 q5 q6 hb _ w₃ r c]
  refine congrArg (· + b₃ (ix1 c)) (Finset.sum_congr rfl fun k _ => congrArg (· * w₃ (ix2 k c)) ?_)
  rw [kernelBiasLeaky_apply (A := A) _ b₂ h1 h2 r k, kernelDot_apply d₂ p1 p2 p3 p4 p5 p6 hb _ w₂ r k, shapeCast_self]

/-- The host's spelling of the head — two dot_general, each bias broadcast twice, the zero and the slope broadcast
    from rank-0 constants — read at (r, c): the same double sum. -/
theorem hostHead_apply (d₂ : DotDims ⟨2, ![A, K₁]⟩ ⟨2, ![K₁, K₂]⟩ ⟨2, ![A, K₂]⟩) (p1 : d₂.lhsContracting = [1]) (p2 : d₂.rhsContracting = [0]) (p3 : d₂.lhsNonContracting = [0])
    (p4 : d₂.rhsNonContracting = [1]) (p5 : d₂.lhsBatch = []) (p6 : d₂.rhsBatch = [])
    (d₃ : DotDims ⟨2, ![A, K₂]⟩ ⟨2, ![K₂, B]⟩ ⟨2, ![A, B]⟩) (q1 : d₃.lhsContracting = [1]) (q2 : d₃.rhsContracting = [0]) (q3 : d₃.lhsNonContracting = [0])
    (q4 : d₃.rhsNonContracting = [1]) (q5 : d₃.lhsBatch = []) (q6 : d₃.rhsBatch = [])
    (z : FVec Ideal ⟨2, ![A, K₁]⟩ .f32) (w₂ : FVec Ideal ⟨2, ![K₁, K₂]⟩ .f32) (b₂ : FVec Ideal ⟨1, ![K₂]⟩ .f32)
    (w₃ : FVec Ideal ⟨2, ![K₂, B]⟩ .f32) (b₃ : FVec Ideal ⟨1, ![B]⟩ .f32)
    (g1 : (⟨1, ![K₂]⟩ : Shape).BroadcastsInDim ⟨2, ![1, K₂]⟩ (![1] : Fin 1 → Fin 2))
    (g2 : (⟨2, ![1, K₂]⟩ : Shape).BroadcastsInDim ⟨2, ![A, K₂]⟩ (![0, 1] : Fin 2 → Fin 2))
    (g0 : (⟨0, ![]⟩ : Shape).BroadcastsInDim ⟨2, ![A, K₂]⟩ (![] : Fin 0 → Fin 2))
    (g3 : (⟨1, ![B]⟩ : Shape).BroadcastsInDim ⟨2, ![1, B]⟩ (![1] : Fin 1 → Fin 2))
    (g4 : (⟨2, ![1, B]⟩ : Shape).BroadcastsInDim ⟨2, ![A, B]⟩ (![0, 1] : Fin 2 → Fin 2))
    (r : Fin A) (c : Fin B) :
    (addf (Host.dotGeneral d₃ none (select (cmpf .oge (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (broadcastInDim ⟨2, ![A, K₂]⟩ (![] : Fin 0 → Fin 2) g0 (constant (F := Ideal) ⟨0, ![]⟩ .f32 0x00000000#32))) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))) (mulf (broadcastInDim ⟨2, ![A, K₂]⟩ (![] : Fin 0 → Fin 2) g0 (constant (F := Ideal) ⟨0, ![]⟩ .f32 0x3E4CCCCD#32)) (addf (Host.dotGeneral d₂ none z w₂) (broadcastInDim ⟨2, ![A, K₂]⟩ (![0, 1] : Fin 2 → Fin 2) g2 (broadcastInDim ⟨2, ![1, K₂]⟩ (![1] : Fin 1 → Fin 2) g1 b₂))))) w₃) (broadcastInDim ⟨2, ![A, B]⟩ (![0, 1] : Fin 2 → Fin 2) g4 (broadcastInDim ⟨2, ![1, B]⟩ (![1] : Fin 1 → Fin 2) g3 b₃))) (ix2 r c)
      = (∑ k : Fin K₂, leaky ((∑ j : Fin K₁, z (ix2 r j) * w₂ (ix2 j k)) + b₂ (ix1 k)) * w₃ (ix2 k c)) + b₃ (ix1 c) := by
  show (Host.dotGeneral d₃ none _ w₃) (ix2 r c) + (broadcastInDim ⟨2, ![A, B]⟩ (![0, 1] : Fin 2 → Fin 2) g4 (broadcastInDim ⟨2, ![1, B]⟩ (![1] : Fin 1 → Fin 2) g3 b₃)) (ix2 r c) = _
  rw [hostRow_apply (A := A) b₃ g3 g4 r c, hostDot_apply d₃ q1 q2 q3 q4 q5 q6 _ w₃ r c]
  refine congrArg (· + b₃ (ix1 c)) (Finset.sum_congr rfl fun k _ => congrArg (· * w₃ (ix2 k c)) ?_)
  rw [hostBiasLeaky_apply (A := A) _ b₂ g1 g2 g0 r k, hostDot_apply d₂ p1 p2 p3 p4 p5 p6 z w₂ r k]

end Head

end Cert.Lib.LeakyDense

end
-- ==== Proof.LibEdgeLayout.lean ====
/-
  LAYOUT AND PRODUCT LEMMAS FOR A ROW-WISE DENSE KERNEL, generic in the extents.

  * an [a, b] array cast to [a, 1, b] and back: the unit axis in the middle carries nothing;
  * a matmul of a plain product  [A, K] · [K, B] → [A, B]  into the zero accumulator, whatever the record's proof
    field, read at (r, c): the sum over k of  l (r, k) · w (k, c);
  * the same followed by a bias row [1, B] broadcast over the rows: the sum plus  b (0, c);
  * the host's spelling of the same stage: dot_general, the bias vector [B] broadcast along axis 1 and then over the rows.

  Nothing here depends on a program.
-/
import Idealize.ShloMosaic.Lib.ValueIdx
import Idealize.ShloMosaic.Lib.ValueLayout
import Idealize.ShloMosaic.Lib.Pipeline.Value
import Idealize.ShloMosaic.PureOps.Ideal.Laws
import proofs.«151455_j19911468384607_2_alg».proof.Proof.LibPlainDot
import proofs.«151455_j19911468384607_2_alg».proof.Proof.LibLeakyDense

noncomputable section

open scoped BigOperators

namespace Cert.Lib.EdgeLayout

open Idealize.ShloMosaic Idealize.ShloMosaic.ValueIdx Cert.Lib.PlainDot

variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

variable {A K B : Nat}

/-- A matmul of a plain product into the zero accumulator reads, at (r, c), the textbook sum. -/
theorem matmul_apply {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ φ₁) (w : FVec Ideal ⟨2, ![K, B]⟩ φ₂) (r : Fin A) (c : Fin B) :
    matmul d none l w (constant ⟨2, ![A, B]⟩ .f32 0x00000000#32) (ix2 r c) = ∑ k : Fin K, l (ix2 r k) * w (ix2 k c) := by
  obtain rfl := eq_plain d h1 h2 h3 h4 h5 h6
  exact matmul_zero_plain_apply none l w (ix2 r c)

/-- A kernel's dense stage: the product into the zero accumulator plus the bias row [1, B] broadcast down the rows. -/
theorem kernelDense_apply {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ φ₁) (w : FVec Ideal ⟨2, ![K, B]⟩ φ₂) (b : FVec Ideal ⟨2, ![1, B]⟩ .f32)
    (hb : (⟨2, ![1, B]⟩ : Shape).Broadcasts ⟨2, ![A, B]⟩) (r : Fin A) (c : Fin B) :
    addf (matmul d none l w (constant ⟨2, ![A, B]⟩ .f32 0x00000000#32)) (broadcastTo ⟨2, ![A, B]⟩ b hb) (ix2 r c)
      = (∑ k : Fin K, l (ix2 r k) * w (ix2 k c)) + b (ix2 (0 : Fin 1) c) := by
  show matmul d none l w _ (ix2 r c) + broadcastTo ⟨2, ![A, B]⟩ b hb (ix2 r c) = _
  rw [matmul_apply d h1 h2 h3 h4 h5 h6 l w r c, broadcastTo_1b_ab_apply b hb r c]

/-- The host's dense stage: dot_general plus the bias vector broadcast along axis 1 and then over the rows. -/
theorem hostDense_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ .f32) (w : FVec Ideal ⟨2, ![K, B]⟩ .f32) (b : FVec Ideal ⟨1, ![B]⟩ .f32)
    (g1 : (⟨1, ![B]⟩ : Shape).BroadcastsInDim ⟨2, ![1, B]⟩ (![1] : Fin 1 → Fin 2))
    (g2 : (⟨2, ![1, B]⟩ : Shape).BroadcastsInDim ⟨2, ![A, B]⟩ (![0, 1] : Fin 2 → Fin 2)) (r : Fin A) (c : Fin B) :
    addf (Host.dotGeneral d none l w)
        (broadcastInDim ⟨2, ![A, B]⟩ (![0, 1] : Fin 2 → Fin 2) g2 (broadcastInDim ⟨2, ![1, B]⟩ (![1] : Fin 1 → Fin 2) g1 b)) (ix2 r c)
      = (∑ k : Fin K, l (ix2 r k) * w (ix2 k c)) + b (ix1 c) := by
  show Host.dotGeneral d none l w (ix2 r c) + _ = _
  rw [Cert.Lib.LeakyDense.hostDot_apply d h1 h2 h3 h4 h5 h6 l w r c, Cert.Lib.LeakyDense.hostRow_apply (A := A) b g1 g2 r c]

end Cert.Lib.EdgeLayout

end
-- ==== Proof.EdgeSpec.lean ====
/-
  ONE EDGE OF THE MESSAGE-PASSING LAYER, as scalar functions over the extended reals.

  For one edge the layer takes the two end nodes' feature rows  ht, hs  (64 entries each), the edge's attribute row
  ea  and time-embedding row  te  (64 each) and the relative position  rel  (3 coordinates × 128 lanes), and computes

      rd k   = rel 0 k ² + rel 1 k ² + rel 2 k ²                                 (128 lanes)
      p j    = [ht | hs | ea | rd | te] · W₁ (·, j) + b₁ j                       (a row of 384 entries against W₁)
      m l    = Σ_q silu (p q) · W₂ (q, l) + b₂ l
      u i    = silu (Σ_l m l · W₃ (l, i) + b₃ i)
      w k    = min 10 (max (−10) (Σ_i u i · W₄ (i, k) + b₄ k))
      d k    = 1 + sqrt (rd k + 1e-8)
      out c k = rel c k · w k / d k .

  Two spellings of it are compared.  One multiplies the five parts of the row against the five row blocks of W₁ one
  after the other, takes silu as  x · logistic x, adds the three squares two at a time and ends with
  rel · (w / d).  The other takes ONE sum over all 384 entries, spells the logistic function out as 1 / (1 + e^(−x)) with the
  one an f32 word, adds the squares from a zero, and ends with  (rel / d) · w.  They agree on every extended real:
  sums over the extended reals may be regrouped, the f32 word 0x3F800000 is the real 1, and the divisor
  d = 1 + sqrt(·) is never zero (sqrt is −∞, +∞ or a real ≥ 0), so both quotients are products with d⁻¹.
  No finiteness of any entry is used.
-/
import Mathlib.Algebra.BigOperators.Fin
import Idealize.ShloMosaic.PureOps.Ideal
import Idealize.ShloMosaic.PureOps.Ideal.Laws

noncomputable section

open scoped BigOperators

namespace Cert.EdgeSpec

open Idealize.ShloMosaic

/-! ## The f32 words of the layer -/

/-- the f32 word of 1.0 -/
def one : EReal := Ideal.ofBits .f32 0x3F800000#32
/-- the f32 word nearest 1e-8 -/
def eps : EReal := Ideal.ofBits .f32 0x322BCC77#32
/-- the f32 word of 10.0 -/
def hi : EReal := Ideal.ofBits .f32 0x41200000#32
/-- the f32 word of −10.0 -/
def lo : EReal := Ideal.ofBits .f32 0xC1200000#32
/-- the f32 word of 0.0 -/
def zero : EReal := Ideal.ofBits .f32 0x00000000#32

/-- The word 0x3F800000 denotes the real number 1. -/
theorem one_eq : one = 1 := by
  unfold one
  simp [Ideal.ofBits, Ideal.ieee, -EReal.coe_mul]
  norm_num

theorem zero_eq : zero = 0 := Ideal.ofBits_zero_f32

/-! ## silu -/

/-- silu x = x · logistic x. -/
def silu (x : EReal) : EReal := x * Ideal.logistic x

/-- silu with the logistic function spelt out, the one an f32 word: x · (1 / (1 + e^(−x))). -/
def siluSpelt (x : EReal) : EReal := x * Ideal.div one (one + Ideal.exp (-x))

theorem siluSpelt_eq : siluSpelt = silu := by
  funext x
  unfold siluSpelt silu Ideal.logistic
  rw [one_eq]

/-! ## The squared length of the relative position, lane by lane -/

def relDist (rel : Fin 3 → Fin 128 → EReal) (k : Fin 128) : EReal :=
  rel 0 k * rel 0 k + rel 1 k * rel 1 k + rel 2 k * rel 2 k

/-- The same from a zero word, as a sum over the three coordinates. -/
def relDistSum (rel : Fin 3 → Fin 128 → EReal) (k : Fin 128) : EReal :=
  zero + ∑ c : Fin 3, rel c k * rel c k

theorem relDistSum_eq : relDistSum = relDist := by
  funext rel k
  unfold relDistSum relDist
  rw [zero_eq, zero_add, Fin.sum_univ_three]

/-! ## The first layer's row against W₁ -/

/-- The five parts against the five row blocks of W₁, added one after the other, then the bias. -/
def pre5 (ht hs ea te : Fin 64 → EReal) (rd : Fin 128 → EReal) (Wa Wb Wc We : Fin 64 → Fin 64 → EReal)
    (Wd : Fin 128 → Fin 64 → EReal) (b1 : Fin 64 → EReal) (j : Fin 64) : EReal :=
  (∑ i, ht i * Wa i j) + (∑ i, hs i * Wb i j) + (∑ i, ea i * Wc i j) + (∑ i, rd i * Wd i j) + (∑ i, te i * We i j) + b1 j

/-- A sum over 384 entries, cut at 64, 128, 192 and 320. -/
theorem sum384 {M : Type} [AddCommMonoid M] (f : Fin 384 → M) :
    ∑ q, f q = (∑ i : Fin 64, f ⟨i.val, by omega⟩) + (∑ i : Fin 64, f ⟨64 + i.val, by omega⟩)
      + (∑ i : Fin 64, f ⟨128 + i.val, by omega⟩) + (∑ i : Fin 128, f ⟨192 + i.val, by omega⟩)
      + (∑ i : Fin 64, f ⟨320 + i.val, by omega⟩) := by
  have h1 : ∑ q : Fin 384, f q = (∑ i : Fin 320, f ⟨i.val, by omega⟩) + ∑ i : Fin 64, f ⟨320 + i.val, by omega⟩ :=
    Fin.sum_univ_add (a := 320) (b := 64) f
  have h2 : (∑ i : Fin 320, f ⟨i.val, by omega⟩) = (∑ i : Fin 192, f ⟨i.val, by omega⟩) + ∑ i : Fin 128, f ⟨192 + i.val, by omega⟩ :=
    Fin.sum_univ_add (a := 192) (b := 128) fun i : Fin 320 => f ⟨i.val, by omega⟩
  have h3 : (∑ i : Fin 192, f ⟨i.val, by omega⟩) = (∑ i : Fin 128, f ⟨i.val, by omega⟩) + ∑ i : Fin 64, f ⟨128 + i.val, by omega⟩ :=
    Fin.sum_univ_add (a := 128) (b := 64) fun i : Fin 192 => f ⟨i.val, by omega⟩
  have h4 : (∑ i : Fin 128, f ⟨i.val, by omega⟩) = (∑ i : Fin 64, f ⟨i.val, by omega⟩) + ∑ i : Fin 64, f ⟨64 + i.val, by omega⟩ :=
    Fin.sum_univ_add (a := 64) (b := 64) fun i : Fin 128 => f ⟨i.val, by omega⟩
  rw [h1, h2, h3, h4]

/-! ## The layers after the first, the clamp, the divisor -/

/-- From the first layer's pre-activations p to the clamped weight w k, for an activation act. -/
def weight (act : EReal → EReal) (p : Fin 64 → EReal) (W2 W3 : Fin 64 → Fin 64 → EReal) (b2 b3 : Fin 64 → EReal)
    (W4 : Fin 64 → Fin 128 → EReal) (b4 : Fin 128 → EReal) (k : Fin 128) : EReal :=
  min hi (max lo ((∑ i, act ((∑ l, ((∑ q, act (p q) * W2 q l) + b2 l) * W3 l i) + b3 i) * W4 i k) + b4 k))

/-- d = 1 + sqrt (rd + 1e-8). -/
def den (rd : EReal) : EReal := one + Ideal.sqrt (rd + eps)

/-- The divisor is never zero: the square root is −∞, +∞ or a real that is not negative. -/
theorem den_ne_zero (rd : EReal) : den rd ≠ 0 := by
  unfold den
  rw [one_eq]
  generalize rd + eps = x
  induction x using EReal.rec with
  | bot =>
    rw [Ideal.sqrt_bot, EReal.add_bot]
    exact EReal.bot_ne_zero
  | top =>
    rw [Ideal.sqrt_top, EReal.add_top_of_ne_bot (show (1 : EReal) ≠ ⊥ from EReal.coe_ne_bot 1)]
    exact EReal.top_ne_zero
  | coe r =>
    rw [Ideal.sqrt_coe]
    by_cases h : r < 0
    · rw [if_pos h, EReal.add_bot]
      exact EReal.bot_ne_zero
    · have h0 : 0 ≤ Real.sqrt r := Real.sqrt_nonneg r
      rw [if_neg h, ← EReal.coe_one, ← EReal.coe_add, ← EReal.coe_zero]
      intro hc
      have := EReal.coe_eq_coe_iff.mp hc
      linarith

/-- rel · (w / d) = (rel / d) · w when d is not zero: both are products with d⁻¹. -/
theorem scale_law (a w d : EReal) (hd : d ≠ 0) : a * Ideal.div w d = Ideal.div a d * w := by
  unfold Ideal.div
  rw [if_neg hd, if_neg hd, mul_comm w, ← mul_assoc]

/-! ## The two spellings of one edge's output -/

/-- rel c k · (w k / d k), over the five-part first layer. -/
def outParts (ht hs ea te : Fin 64 → EReal) (rel : Fin 3 → Fin 128 → EReal) (Wa Wb Wc We : Fin 64 → Fin 64 → EReal)
    (Wd : Fin 128 → Fin 64 → EReal) (b1 : Fin 64 → EReal) (W2 W3 : Fin 64 → Fin 64 → EReal) (b2 b3 : Fin 64 → EReal)
    (W4 : Fin 64 → Fin 128 → EReal) (b4 : Fin 128 → EReal) (c : Fin 3) (k : Fin 128) : EReal :=
  rel c k * Ideal.div (weight silu (pre5 ht hs ea te (relDist rel) Wa Wb Wc We Wd b1) W2 W3 b2 b3 W4 b4 k) (den (relDist rel k))

/-- (rel c k / d k) · w k, the first layer's pre-activations given as p, silu spelt out, the squares summed from zero. -/
def outWhole (p : Fin 64 → EReal) (rel : Fin 3 → Fin 128 → EReal) (W2 W3 : Fin 64 → Fin 64 → EReal) (b2 b3 : Fin 64 → EReal)
    (W4 : Fin 64 → Fin 128 → EReal) (b4 : Fin 128 → EReal) (c : Fin 3) (k : Fin 128) : EReal :=
  Ideal.div (rel c k) (den (relDistSum rel k)) * weight siluSpelt p W2 W3 b2 b3 W4 b4 k

/-- The two spellings agree once the first layer's pre-activations do. -/
theorem outWhole_eq_outParts (p : Fin 64 → EReal) (ht hs ea te : Fin 64 → EReal) (rel : Fin 3 → Fin 128 → EReal)
    (Wa Wb Wc We : Fin 64 → Fin 64 → EReal) (Wd : Fin 128 → Fin 64 → EReal) (b1 : Fin 64 → EReal)
    (W2 W3 : Fin 64 → Fin 64 → EReal) (b2 b3 : Fin 64 → EReal) (W4 : Fin 64 → Fin 128 → EReal) (b4 : Fin 128 → EReal)
    (hp : p = pre5 ht hs ea te (relDistSum rel) Wa Wb Wc We Wd b1) (c : Fin 3) (k : Fin 128) :
    outWhole p rel W2 W3 b2 b3 W4 b4 c k = outParts ht hs ea te rel Wa Wb Wc We Wd b1 W2 W3 b2 b3 W4 b4 c k := by
  unfold outWhole outParts
  rw [hp, siluSpelt_eq, relDistSum_eq]
  exact (scale_law _ _ _ (den_ne_zero _)).symm

end Cert.EdgeSpec

end
-- ==== Proof.KernelBlock.lean ====
/-
  ONE BLOCK OF 2000 EDGES: what the kernel body stores, read at an index.

  The body loads a block of 2000 rows of each edge array (the two gathered feature rows, the attribute and the time rows,
  the relative positions) and the whole of each weight, and stores one [2000, 3, 128] block.  At (r, c, k) the stored
  value depends on row r of the edge blocks only, and it is the edge function of EdgeSpec in its five-part spelling:
  rel c k · (w k / d k).
-/
import proofs.«151455_j19911468384607_2_alg».proof.Proof.Gen.KernelIdeal.Skeleton
import proofs.«151455_j19911468384607_2_alg».proof.Proof.LibEdgeLayout
import proofs.«151455_j19911468384607_2_alg».proof.Proof.EdgeSpec

noncomputable section

open scoped BigOperators

namespace Cert.KernelIdeal.EdgeBlock

open Cert.KernelIdeal Cert.KernelIdeal.Gen Idealize.ShloMosaic Idealize.ShloMosaic.ValueIdx Cert.Lib.EdgeLayout Cert.EdgeSpec

/-- A change of float format is the identity on the extended reals. -/
theorem truncf_id {s : Shape} {φ ψ : FTy} (a : FVec Ideal s φ) (h : ψ.bits < φ.bits) : (truncf ψ a h : FVec Ideal s ψ) = a := rfl

/-- x · logistic x, entry by entry. -/
theorem silu_apply {s : Shape} (v : FVec Ideal s .f32) (i : s.Idx) : mulf v (logistic v) i = silu (v i) := rfl

/-! ## The three coordinates of the relative position and the squared length -/

theorem coord0 (x4 : Vec Ideal S2000x3x128 .f32) (r : Fin 2000) (k : Fin 128) :
    k0_pay3 (F := Ideal) x4 (ix2 r k) = x4 (ix3 r (0 : Fin 3) k) := by
  unfold k0_pay3 k0_pay2
  refine (shapeCast_a1b_ab_apply _ shapeCasts_S2000x1x128_S2000x128 r k).trans ?_
  refine (slice3_axis1_apply 0 _ slices_S2000x3x128_o0_0_0_S2000x1x128 r (0 : Fin 1) k (0 : Fin 3) rfl).trans ?_
  rw [shapeCast_self]

theorem coord1 (x4 : Vec Ideal S2000x3x128 .f32) (r : Fin 2000) (k : Fin 128) :
    k0_pay4 (F := Ideal) x4 (ix2 r k) = x4 (ix3 r (1 : Fin 3) k) := by
  unfold k0_pay4 k0_pay2
  refine (shapeCast_a1b_ab_apply _ shapeCasts_S2000x1x128_S2000x128 r k).trans ?_
  refine (slice3_axis1_apply 1 _ slices_S2000x3x128_o0_1_0_S2000x1x128 r (0 : Fin 1) k (1 : Fin 3) rfl).trans ?_
  rw [shapeCast_self]

theorem coord2 (x4 : Vec Ideal S2000x3x128 .f32) (r : Fin 2000) (k : Fin 128) :
    k0_pay5 (F := Ideal) x4 (ix2 r k) = x4 (ix3 r (2 : Fin 3) k) := by
  unfold k0_pay5 k0_pay2
  refine (shapeCast_a1b_ab_apply _ shapeCasts_S2000x1x128_S2000x128 r k).trans ?_
  refine (slice3_axis1_apply 2 _ slices_S2000x3x128_o0_2_0_S2000x1x128 r (0 : Fin 1) k (2 : Fin 3) rfl).trans ?_
  rw [shapeCast_self]

theorem dist_apply (x4 : Vec Ideal S2000x3x128 .f32) (r : Fin 2000) (k : Fin 128) :
    k0_pay6 (F := Ideal) x4 (ix2 r k) = relDist (fun c k => x4 (ix3 r c k)) k := by
  unfold k0_pay6 relDist
  show k0_pay3 (F := Ideal) x4 (ix2 r k) * k0_pay3 (F := Ideal) x4 (ix2 r k) + k0_pay4 (F := Ideal) x4 (ix2 r k) * k0_pay4 (F := Ideal) x4 (ix2 r k)
    + k0_pay5 (F := Ideal) x4 (ix2 r k) * k0_pay5 (F := Ideal) x4 (ix2 r k) = _
  rw [coord0, coord1, coord2]

/-! ## The first layer: four of its five products -/

theorem first4_apply (x4 : Vec Ideal S2000x3x128 .f32) (x0 x1 x2 : Vec Ideal S2000x64 .bf16) (x5 x6 x7 : Vec Ideal S64x64 .bf16)
    (x8 : Vec Ideal S128x64 .bf16) (r : Fin 2000) (j : Fin 64) :
    k0_pay7 (F := Ideal) x4 x0 x5 x1 x6 x2 x7 x8 (ix2 r j)
      = (∑ i : Fin 64, x0 (ix2 r i) * x5 (ix2 i j)) + (∑ i : Fin 64, x1 (ix2 r i) * x6 (ix2 i j))
        + (∑ i : Fin 64, x2 (ix2 r i) * x7 (ix2 i j)) + (∑ i : Fin 128, relDist (fun c k => x4 (ix3 r c k)) i * x8 (ix2 i j)) := by
  unfold k0_pay7
  simp only [shapeCast_self, truncf_id]
  refine (congrArg₂ (· + ·) (congrArg₂ (· + ·) (congrArg₂ (· + ·)
      (matmul_apply (φ₁ := .bf16) (φ₂ := .bf16) dot_S2000x64_S64x64_S2000x64_1_0_0_1_n_n rfl rfl rfl rfl rfl rfl x0 x5 r j)
      (matmul_apply (φ₁ := .bf16) (φ₂ := .bf16) dot_S2000x64_S64x64_S2000x64_1_0_0_1_n_n rfl rfl rfl rfl rfl rfl x1 x6 r j))
      (matmul_apply (φ₁ := .bf16) (φ₂ := .bf16) dot_S2000x64_S64x64_S2000x64_1_0_0_1_n_n rfl rfl rfl rfl rfl rfl x2 x7 r j))
      (matmul_apply (φ₁ := .f32) (φ₂ := .bf16) dot_S2000x128_S128x64_S2000x64_1_0_0_1_n_n rfl rfl rfl rfl rfl rfl (k0_pay6 (F := Ideal) x4) x8 r j)).trans ?_
  exact congrArg (_ + ·) (Finset.sum_congr rfl fun i _ => congrArg (· * x8 (ix2 i j)) (dist_apply x4 r i))

/-! ## The fifth product, the bias, and the three layers after -/

theorem rest_apply (v34 : FVec Ideal S2000x64 .f32) (x3 : Vec Ideal S2000x64 .bf16) (x9 : Vec Ideal S64x64 .bf16) (x10 : Vec Ideal S1x64 .f32)
    (x11 : Vec Ideal S64x64 .bf16) (x12 : Vec Ideal S1x64 .f32) (x13 : Vec Ideal S64x64 .bf16) (x14 : Vec Ideal S1x64 .f32)
    (x15 : Vec Ideal S64x128 .bf16) (x16 : Vec Ideal S1x128 .f32) (r : Fin 2000) (k : Fin 128) :
    k0_pay8 (F := Ideal) v34 x3 x9 x10 x11 x12 x13 x14 x15 x16 (ix2 r k)
      = (∑ i : Fin 64, silu ((∑ l : Fin 64, ((∑ q : Fin 64, silu (v34 (ix2 r q) + (∑ a : Fin 64, x3 (ix2 r a) * x9 (ix2 a q)) + x10 (ix2 (0 : Fin 1) q))
            * x11 (ix2 q l)) + x12 (ix2 (0 : Fin 1) l)) * x13 (ix2 l i)) + x14 (ix2 (0 : Fin 1) i)) * x15 (ix2 i k)) + x16 (ix2 (0 : Fin 1) k) := by
  unfold k0_pay8
  simp only [shapeCast_self, truncf_id]
  refine (kernelDense_apply (φ₂ := .bf16) dot_S2000x64_S64x128_S2000x128_1_0_0_1_n_n rfl rfl rfl rfl rfl rfl _ x15 x16 broadcasts_S1x128_S2000x128 r k).trans ?_
  refine congrArg (· + x16 (ix2 (0 : Fin 1) k)) (Finset.sum_congr rfl fun i _ => congrArg (· * x15 (ix2 i k)) ?_)
  refine (silu_apply _ (ix2 r i)).trans (congrArg silu ?_)
  refine (kernelDense_apply (φ₂ := .bf16) dot_S2000x64_S64x64_S2000x64_1_0_0_1_n_n rfl rfl rfl rfl rfl rfl _ x13 x14 broadcasts_S1x64_S2000x64 r i).trans ?_
  refine congrArg (· + x14 (ix2 (0 : Fin 1) i)) (Finset.sum_congr rfl fun l _ => congrArg (· * x13 (ix2 l i)) ?_)
  refine (kernelDense_apply (φ₂ := .bf16) dot_S2000x64_S64x64_S2000x64_1_0_0_1_n_n rfl rfl rfl rfl rfl rfl _ x11 x12 broadcasts_S1x64_S2000x64 r l).trans ?_
  refine congrArg (· + x12 (ix2 (0 : Fin 1) l)) (Finset.sum_congr rfl fun q _ => congrArg (· * x11 (ix2 q l)) ?_)
  refine (silu_apply _ (ix2 r q)).trans (congrArg silu ?_)
  exact congrArg₂ (· + ·) (congrArg (v34 (ix2 r q) + ·)
      (matmul_apply (φ₁ := .bf16) (φ₂ := .bf16) dot_S2000x64_S64x64_S2000x64_1_0_0_1_n_n rfl rfl rfl rfl rfl rfl x3 x9 r q))
    (broadcastTo_1b_ab_apply x10 broadcasts_S1x64_S2000x64 r q)

/-! ## Three [2000, 128] arrays stacked along a new middle axis -/

theorem stack3_apply (y0 y1 y2 : FVec Ideal S2000x128 .f32) (r : Fin 2000) (c : Fin 3) (k : Fin 128) :
    concatenate S2000x3x128 1 [⟨S2000x1x128, shapeCast S2000x1x128 y0 shapeCasts_S2000x128_S2000x1x128⟩,
        ⟨S2000x1x128, shapeCast S2000x1x128 y1 shapeCasts_S2000x128_S2000x1x128⟩,
        ⟨S2000x1x128, shapeCast S2000x1x128 y2 shapeCasts_S2000x128_S2000x1x128⟩]
      concatenates_S2000x1x128_S2000x1x128_S2000x1x128_S2000x3x128_d1 (ix3 r c k)
      = (match c with | ⟨0, _⟩ => y0 | ⟨1, _⟩ => y1 | ⟨2, _⟩ => y2) (ix2 r k) := by
  match c with
  | ⟨0, _⟩ =>
    exact (concatenate_apply_piece (t := S2000x3x128) (1 : Fin 3)
      [⟨S2000x1x128, shapeCast S2000x1x128 y0 shapeCasts_S2000x128_S2000x1x128⟩, ⟨S2000x1x128, shapeCast S2000x1x128 y1 shapeCasts_S2000x128_S2000x1x128⟩,
        ⟨S2000x1x128, shapeCast S2000x1x128 y2 shapeCasts_S2000x128_S2000x1x128⟩]
      concatenates_S2000x1x128_S2000x1x128_S2000x1x128_S2000x3x128_d1 (ix3 r (0 : Fin 3) k) 0 (by show (0 : Nat) < 3; omega)
      S2000x1x128 _ rfl rfl 0 rfl (ix3 r (0 : Fin 1) k)
      (fun b hb => by match b with | ⟨0, _⟩ => rfl | ⟨1, _⟩ => exact absurd rfl hb | ⟨2, _⟩ => rfl) (by rfl)).trans
      (shapeCast_ab_a1b_apply y0 shapeCasts_S2000x128_S2000x1x128 r 0 k)
  | ⟨1, _⟩ =>
    exact (concatenate_apply_piece (t := S2000x3x128) (1 : Fin 3)
      [⟨S2000x1x128, shapeCast S2000x1x128 y0 shapeCasts_S2000x128_S2000x1x128⟩, ⟨S2000x1x128, shapeCast S2000x1x128 y1 shapeCasts_S2000x128_S2000x1x128⟩,
        ⟨S2000x1x128, shapeCast S2000x1x128 y2 shapeCasts_S2000x128_S2000x1x128⟩]
      concatenates_S2000x1x128_S2000x1x128_S2000x1x128_S2000x3x128_d1 (ix3 r (1 : Fin 3) k) 1 (by show (1 : Nat) < 3; omega)
      S2000x1x128 _ rfl rfl 1 rfl (ix3 r (0 : Fin 1) k)
      (fun b hb => by match b with | ⟨0, _⟩ => rfl | ⟨1, _⟩ => exact absurd rfl hb | ⟨2, _⟩ => rfl) (by rfl)).trans
      (shapeCast_ab_a1b_apply y1 shapeCasts_S2000x128_S2000x1x128 r 0 k)
  | ⟨2, _⟩ =>
    exact (concatenate_apply_piece (t := S2000x3x128) (1 : Fin 3)
      [⟨S2000x1x128, shapeCast S2000x1x128 y0 shapeCasts_S2000x128_S2000x1x128⟩, ⟨S2000x1x128, shapeCast S2000x1x128 y1 shapeCasts_S2000x128_S2000x1x128⟩,
        ⟨S2000x1x128, shapeCast S2000x1x128 y2 shapeCasts_S2000x128_S2000x1x128⟩]
      concatenates_S2000x1x128_S2000x1x128_S2000x1x128_S2000x3x128_d1 (ix3 r (2 : Fin 3) k) 2 (by show (2 : Nat) < 3; omega)
      S2000x1x128 _ rfl rfl 2 rfl (ix3 r (0 : Fin 1) k)
      (fun b hb => by match b with | ⟨0, _⟩ => rfl | ⟨1, _⟩ => exact absurd rfl hb | ⟨2, _⟩ => rfl) (by rfl)).trans
      (shapeCast_ab_a1b_apply y2 shapeCasts_S2000x128_S2000x1x128 r 0 k)

/-! ## The stored block at an index -/

/-- What the body stores, at (r, c, k): the edge function of row r of the edge blocks, in the five-part spelling. -/
theorem stored_apply (x0 x1 x2 x3 : Vec Ideal S2000x64 .bf16) (x4 : Vec Ideal S2000x3x128 .f32) (x5 x6 x7 : Vec Ideal S64x64 .bf16)
    (x8 : Vec Ideal S128x64 .bf16) (x9 : Vec Ideal S64x64 .bf16) (x10 : Vec Ideal S1x64 .f32) (x11 : Vec Ideal S64x64 .bf16)
    (x12 : Vec Ideal S1x64 .f32) (x13 : Vec Ideal S64x64 .bf16) (x14 : Vec Ideal S1x64 .f32) (x15 : Vec Ideal S64x128 .bf16)
    (x16 : Vec Ideal S1x128 .f32) (r : Fin 2000) (c : Fin 3) (k : Fin 128) :
    k0_pay1 (F := Ideal) (k0_pay3 x4) (k0_pay4 x4) (k0_pay5 x4) (k0_pay6 x4)
        (k0_pay8 (k0_pay7 x4 x0 x5 x1 x6 x2 x7 x8) x3 x9 x10 x11 x12 x13 x14 x15 x16) (Scalar.ofBits .f32 0x41200000#32) (k0_pay9 (F := Ideal)) (ix3 r c k)
      = outParts (fun i => x0 (ix2 r i)) (fun i => x1 (ix2 r i)) (fun i => x2 (ix2 r i)) (fun i => x3 (ix2 r i)) (fun c k => x4 (ix3 r c k))
          (fun i j => x5 (ix2 i j)) (fun i j => x6 (ix2 i j)) (fun i j => x7 (ix2 i j)) (fun i j => x9 (ix2 i j)) (fun i j => x8 (ix2 i j))
          (fun j => x10 (ix2 (0 : Fin 1) j)) (fun i j => x11 (ix2 i j)) (fun i j => x13 (ix2 i j)) (fun j => x12 (ix2 (0 : Fin 1) j))
          (fun j => x14 (ix2 (0 : Fin 1) j)) (fun i j => x15 (ix2 i j)) (fun j => x16 (ix2 (0 : Fin 1) j)) c k := by
  unfold k0_pay1
  refine (stack3_apply _ _ _ r c k).trans ?_
  have hs : ∀ (p : FVec Ideal S2000x128 .f32),
      mulf p (divf (minimumf (broadcast S2000x128 (Scalar.ofBits (F := Ideal) .f32 0x41200000#32))
          (maximumf (k0_pay9 (F := Ideal)) (k0_pay8 (F := Ideal) (k0_pay7 x4 x0 x5 x1 x6 x2 x7 x8) x3 x9 x10 x11 x12 x13 x14 x15 x16)))
        (addf (broadcast S2000x128 (Scalar.ofBits (F := Ideal) .f32 0x3F800000#32))
          (sqrt (addf (k0_pay6 (F := Ideal) x4) (broadcast S2000x128 (Scalar.ofBits (F := Ideal) .f32 0x322BCC77#32)))))) (ix2 r k)
      = p (ix2 r k) * Ideal.div (min hi (max lo (k0_pay8 (F := Ideal) (k0_pay7 x4 x0 x5 x1 x6 x2 x7 x8) x3 x9 x10 x11 x12 x13 x14 x15 x16 (ix2 r k))))
          (den (k0_pay6 (F := Ideal) x4 (ix2 r k))) := fun _ => rfl
  unfold outParts weight
  rw [← dist_apply x4 r k]
  have hw : k0_pay8 (F := Ideal) (k0_pay7 x4 x0 x5 x1 x6 x2 x7 x8) x3 x9 x10 x11 x12 x13 x14 x15 x16 (ix2 r k)
      = (∑ i : Fin 64, silu ((∑ l : Fin 64, ((∑ q : Fin 64, silu (pre5 (fun i => x0 (ix2 r i)) (fun i => x1 (ix2 r i)) (fun i => x2 (ix2 r i))
            (fun i => x3 (ix2 r i)) (relDist fun c k => x4 (ix3 r c k)) (fun i j => x5 (ix2 i j)) (fun i j => x6 (ix2 i j)) (fun i j => x7 (ix2 i j))
            (fun i j => x9 (ix2 i j)) (fun i j => x8 (ix2 i j)) (fun j => x10 (ix2 (0 : Fin 1) j)) q) * x11 (ix2 q l)) + x12 (ix2 (0 : Fin 1) l)) * x13 (ix2 l i))
          + x14 (ix2 (0 : Fin 1) i)) * x15 (ix2 i k)) + x16 (ix2 (0 : Fin 1) k) := by
    rw [rest_apply]
    simp only [first4_apply]
    rfl
  rw [← hw]
  match c with
  | ⟨0, _⟩ => exact (hs _).trans (congrArg (· * _) (coord0 x4 r k))
  | ⟨1, _⟩ => exact (hs _).trans (congrArg (· * _) (coord1 x4 r k))
  | ⟨2, _⟩ => exact (hs _).trans (congrArg (· * _) (coord2 x4 r k))

end Cert.KernelIdeal.EdgeBlock

end
-- ==== Proof.KernelValue.lean ====
/-
  THE ARRAY THE REGION WRITES, as one function of the arrays it reads.

  The grid has 200 points; point t stages rows 2000·t … 2000·t + 1999 of the five edge arrays and the whole of every
  weight, and writes back rows 2000·t … 2000·t + 1999 of the result.  A block's entry (r, ·) therefore sits at row
  2000·t + r of its array, the stored block at (r, c, k) is the edge function of that row, and the 200 blocks cover the
  result: after the run the result array at (e, c, k) is the edge function of row e of the arrays the region read.
-/
import proofs.«151455_j19911468384607_2_alg».proof.Proof.Gen.KernelIdeal.Frame
import proofs.«151455_j19911468384607_2_alg».proof.Proof.KernelBlock
import Idealize.ShloMosaic.Lib.Pipeline.Value

set_option maxRecDepth 16384

noncomputable section

open scoped BigOperators

namespace Cert.KernelIdeal.EdgeValue

open Cert.KernelIdeal Cert.KernelIdeal.Gen Idealize.ShloMosaic Idealize.ShloMosaic.TcCoe Idealize.SL.Sem Idealize.ShloMosaic.ValueIdx
  Cert.EdgeSpec Cert.KernelIdeal.EdgeBlock
open Idealize.ShloMosaic.Pipeline (Dat Cfg Window)

variable (m : (ℓ : Loc nD τ sig) → Buf (Elt Ideal) ℓ)

/-- Row r of point t's blocks is row 2000·t + r of the edge arrays. -/
def edgeIx (t : Fin cfg0.N) (r : Fin 2000) : Fin 400000 :=
  ⟨2000 * t.val + r.val, by have h := t.isLt; have hN : cfg0.N = 200 := N_0; have := r.isLt; omega⟩

/-! ## The body's stored block, from the blocks it loads -/

theorem hz3 : (![0, 0, 0] : Fin 3 → Nat) = fun _ => 0 := funext fun a => by fin_cases a <;> rfl
theorem hz2 : (![0, 0] : Fin 2 → Nat) = fun _ => 0 := funext fun a => by fin_cases a <;> rfl

/-- The staging buffer of the result after the body, at (r, c, k): the edge function of row r of the loaded blocks. -/
theorem out_apply (x0 x1 x2 x3 : Vec Ideal S2000x64 .bf16) (x4 : Vec Ideal S2000x3x128 .f32) (x5 x6 x7 : Vec Ideal S64x64 .bf16)
    (x8 : Vec Ideal S128x64 .bf16) (x9 : Vec Ideal S64x64 .bf16) (x10 : Vec Ideal S1x64 .f32) (x11 : Vec Ideal S64x64 .bf16)
    (x12 : Vec Ideal S1x64 .f32) (x13 : Vec Ideal S64x64 .bf16) (x14 : Vec Ideal S1x64 .f32) (x15 : Vec Ideal S64x128 .bf16)
    (x16 : Vec Ideal S1x128 .f32) (r : Fin 2000) (c : Fin 3) (k : Fin 128) :
    out0_17 (F := Ideal) x0 x1 x2 x3 x4 x5 x6 x7 x8 x9 x10 x11 x12 x13 x14 x15 x16 (ix3 r c k)
      = outParts (fun i => x0 (ix2 r i)) (fun i => x1 (ix2 r i)) (fun i => x2 (ix2 r i)) (fun i => x3 (ix2 r i)) (fun c k => x4 (ix3 r c k))
          (fun i j => x5 (ix2 i j)) (fun i j => x6 (ix2 i j)) (fun i j => x7 (ix2 i j)) (fun i j => x9 (ix2 i j)) (fun i j => x8 (ix2 i j))
          (fun j => x10 (ix2 (0 : Fin 1) j)) (fun i j => x11 (ix2 i j)) (fun i j => x13 (ix2 i j)) (fun j => x12 (ix2 (0 : Fin 1) j))
          (fun j => x14 (ix2 (0 : Fin 1) j)) (fun i j => x15 (ix2 i j)) (fun j => x16 (ix2 (0 : Fin 1) j)) c k := by
  unfold out0_17
  rw [View.canon_unit_zero hz3]
  simp only [View.ld_unit_zero (S := S2000x3x128) hz3, View.ld_unit_zero (S := S2000x64) hz2, View.ld_unit_zero (S := S64x64) hz2,
    View.ld_unit_zero (S := S128x64) hz2, View.ld_unit_zero (S := S1x64) hz2, View.ld_unit_zero (S := S64x128) hz2,
    View.ld_unit_zero (S := S1x128) hz2]
  exact stored_apply x0 x1 x2 x3 x4 x5 x6 x7 x8 x9 x10 x11 x12 x13 x14 x15 x16 r c k

/-! ## The index maps over the grid -/

theorem ixmap0 : ∀ t : Fin cfg0.N, win0_0.index t (0 : Fin 2) = t.val ∧ win0_0.index t (1 : Fin 2) = 0 :=
  (by decide +kernel : ∀ t : Fin grid0.N, _)
theorem ixmap1 : ∀ t : Fin cfg0.N, win0_1.index t (0 : Fin 2) = t.val ∧ win0_1.index t (1 : Fin 2) = 0 :=
  (by decide +kernel : ∀ t : Fin grid0.N, _)
theorem ixmap2 : ∀ t : Fin cfg0.N, win0_2.index t (0 : Fin 2) = t.val ∧ win0_2.index t (1 : Fin 2) = 0 :=
  (by decide +kernel : ∀ t : Fin grid0.N, _)
theorem ixmap3 : ∀ t : Fin cfg0.N, win0_3.index t (0 : Fin 2) = t.val ∧ win0_3.index t (1 : Fin 2) = 0 :=
  (by decide +kernel : ∀ t : Fin grid0.N, _)
theorem ixmap4 : ∀ t : Fin cfg0.N, win0_4.index t (0 : Fin 3) = t.val ∧ win0_4.index t (1 : Fin 3) = 0 ∧ win0_4.index t (2 : Fin 3) = 0 :=
  (by decide +kernel : ∀ t : Fin grid0.N, _)
theorem ixmap17 : ∀ t : Fin cfg0.N, win0_17.index t (0 : Fin 3) = t.val ∧ win0_17.index t (1 : Fin 3) = 0 ∧ win0_17.index t (2 : Fin 3) = 0 :=
  (by decide +kernel : ∀ t : Fin grid0.N, _)
theorem ixmap5 : ∀ t : Fin cfg0.N, win0_5.index t (0 : Fin 2) = 0 ∧ win0_5.index t (1 : Fin 2) = 0 :=
  (by decide +kernel : ∀ t : Fin grid0.N, _)
theorem ixmap6 : ∀ t : Fin cfg0.N, win0_6.index t (0 : Fin 2) = 0 ∧ win0_6.index t (1 : Fin 2) = 0 :=
  (by decide +kernel : ∀ t : Fin grid0.N, _)
theorem ixmap7 : ∀ t : Fin cfg0.N, win0_7.index t (0 : Fin 2) = 0 ∧ win0_7.index t (1 : Fin 2) = 0 :=
  (by decide +kernel : ∀ t : Fin grid0.N, _)
theorem ixmap8 : ∀ t : Fin cfg0.N, win0_8.index t (0 : Fin 2) = 0 ∧ win0_8.index t (1 : Fin 2) = 0 :=
  (by decide +kernel : ∀ t : Fin grid0.N, _)
theorem ixmap9 : ∀ t : Fin cfg0.N, win0_9.index t (0 : Fin 2) = 0 ∧ win0_9.index t (1 : Fin 2) = 0 :=
  (by decide +kernel : ∀ t : Fin grid0.N, _)
theorem ixmap10 : ∀ t : Fin cfg0.N, win0_10.index t (0 : Fin 2) = 0 ∧ win0_10.index t (1 : Fin 2) = 0 :=
  (by decide +kernel : ∀ t : Fin grid0.N, _)
theorem ixmap11 : ∀ t : Fin cfg0.N, win0_11.index t (0 : Fin 2) = 0 ∧ win0_11.index t (1 : Fin 2) = 0 :=
  (by decide +kernel : ∀ t : Fin grid0.N, _)
theorem ixmap12 : ∀ t : Fin cfg0.N, win0_12.index t (0 : Fin 2) = 0 ∧ win0_12.index t (1 : Fin 2) = 0 :=
  (by decide +kernel : ∀ t : Fin grid0.N, _)
theorem ixmap13 : ∀ t : Fin cfg0.N, win0_13.index t (0 : Fin 2) = 0 ∧ win0_13.index t (1 : Fin 2) = 0 :=
  (by decide +kernel : ∀ t : Fin grid0.N, _)
theorem ixmap14 : ∀ t : Fin cfg0.N, win0_14.index t (0 : Fin 2) = 0 ∧ win0_14.index t (1 : Fin 2) = 0 :=
  (by decide +kernel : ∀ t : Fin grid0.N, _)
theorem ixmap15 : ∀ t : Fin cfg0.N, win0_15.index t (0 : Fin 2) = 0 ∧ win0_15.index t (1 : Fin 2) = 0 :=
  (by decide +kernel : ∀ t : Fin grid0.N, _)
theorem ixmap16 : ∀ t : Fin cfg0.N, win0_16.index t (0 : Fin 2) = 0 ∧ win0_16.index t (1 : Fin 2) = 0 :=
  (by decide +kernel : ∀ t : Fin grid0.N, _)

/-! ## Each window's block at a point, read at an index -/

theorem blk0 (c : Dev nD) (t : Fin cfg0.N) (r : Fin 2000) (j : Fin 64) :
    (iblk m c 0 t : Vec Ideal S2000x64 .bf16) (ix2 r j) = (V m c main_v99 : S400000x64.Idx → EReal) (ix2 (edgeIx t r) j) := by
  obtain ⟨e0, e1⟩ := ixmap0 t
  show (V m c main_v99 : S400000x64.Idx → EReal) (((cfg0.win 0).blk t).view.emb (ix2 r j)) = _
  have h : ((cfg0.win 0).blk t).view.emb (ix2 r j) = ix2 (edgeIx t r) j := by
    funext a; apply Fin.ext
    match a with
    | ⟨0, _⟩ => show win0_0.index t (0 : Fin 2) * 2000 + 1 * r.val = 2000 * t.val + r.val; rw [e0]; omega
    | ⟨1, _⟩ => show win0_0.index t (1 : Fin 2) * 64 + 1 * j.val = j.val; rw [e1]; omega
  rw [h]

theorem blk1 (c : Dev nD) (t : Fin cfg0.N) (r : Fin 2000) (j : Fin 64) :
    (iblk m c 1 t : Vec Ideal S2000x64 .bf16) (ix2 r j) = (V m c main_v107 : S400000x64.Idx → EReal) (ix2 (edgeIx t r) j) := by
  obtain ⟨e0, e1⟩ := ixmap1 t
  show (V m c main_v107 : S400000x64.Idx → EReal) (((cfg0.win 1).blk t).view.emb (ix2 r j)) = _
  have h : ((cfg0.win 1).blk t).view.emb (ix2 r j) = ix2 (edgeIx t r) j := by
    funext a; apply Fin.ext
    match a with
    | ⟨0, _⟩ => show win0_1.index t (0 : Fin 2) * 2000 + 1 * r.val = 2000 * t.val + r.val; rw [e0]; omega
    | ⟨1, _⟩ => show win0_1.index t (1 : Fin 2) * 64 + 1 * j.val = j.val; rw [e1]; omega
  rw [h]

theorem blk2 (c : Dev nD) (t : Fin cfg0.N) (r : Fin 2000) (j : Fin 64) :
    (iblk m c 2 t : Vec Ideal S2000x64 .bf16) (ix2 r j) = (V m c main_v108 : S400000x64.Idx → EReal) (ix2 (edgeIx t r) j) := by
  obtain ⟨e0, e1⟩ := ixmap2 t
  show (V m c main_v108 : S400000x64.Idx → EReal) (((cfg0.win 2).blk t).view.emb (ix2 r j)) = _
  have h : ((cfg0.win 2).blk t).view.emb (ix2 r j) = ix2 (edgeIx t r) j := by
    funext a; apply Fin.ext
    match a with
    | ⟨0, _⟩ => show win0_2.index t (0 : Fin 2) * 2000 + 1 * r.val = 2000 * t.val + r.val; rw [e0]; omega
    | ⟨1, _⟩ => show win0_2.index t (1 : Fin 2) * 64 + 1 * j.val = j.val; rw [e1]; omega
  rw [h]

theorem blk3 (c : Dev nD) (t : Fin cfg0.N) (r : Fin 2000) (j : Fin 64) :
    (iblk m c 3 t : Vec Ideal S2000x64 .bf16) (ix2 r j) = (V m c main_v109 : S400000x64.Idx → EReal) (ix2 (edgeIx t r) j) := by
  obtain ⟨e0, e1⟩ := ixmap3 t
  show (V m c main_v109 : S400000x64.Idx → EReal) (((cfg0.win 3).blk t).view.emb (ix2 r j)) = _
  have h : ((cfg0.win 3).blk t).view.emb (ix2 r j) = ix2 (edgeIx t r) j := by
    funext a; apply Fin.ext
    match a with
    | ⟨0, _⟩ => show win0_3.index t (0 : Fin 2) * 2000 + 1 * r.val = 2000 * t.val + r.val; rw [e0]; omega
    | ⟨1, _⟩ => show win0_3.index t (1 : Fin 2) * 64 + 1 * j.val = j.val; rw [e1]; omega
  rw [h]

theorem blk4 (c : Dev nD) (t : Fin cfg0.N) (r : Fin 2000) (cc : Fin 3) (k : Fin 128) :
    (iblk m c 4 t : Vec Ideal S2000x3x128 .f32) (ix3 r cc k) = (V m c main_v91 : S400000x3x128.Idx → EReal) (ix3 (edgeIx t r) cc k) := by
  obtain ⟨e0, e1, e2⟩ := ixmap4 t
  show (V m c main_v91 : S400000x3x128.Idx → EReal) (((cfg0.win 4).blk t).view.emb (ix3 r cc k)) = _
  have h : ((cfg0.win 4).blk t).view.emb (ix3 r cc k) = ix3 (edgeIx t r) cc k := by
    funext a; apply Fin.ext
    match a with
    | ⟨0, _⟩ => show win0_4.index t (0 : Fin 3) * 2000 + 1 * r.val = 2000 * t.val + r.val; rw [e0]; omega
    | ⟨1, _⟩ => show win0_4.index t (1 : Fin 3) * 3 + 1 * cc.val = cc.val; rw [e1]; omega
    | ⟨2, _⟩ => show win0_4.index t (2 : Fin 3) * 128 + 1 * k.val = k.val; rw [e2]; omega
  rw [h]

theorem blk5 (c : Dev nD) (t : Fin cfg0.N) (i : Fin 64) (j : Fin 64) :
    (iblk m c 5 t : Vec Ideal S64x64 .bf16) (ix2 i j) = (V m c main_v111 : S64x64.Idx → EReal) (ix2 i j) := by
  obtain ⟨e0, e1⟩ := ixmap5 t
  show (V m c main_v111 : S64x64.Idx → EReal) (((cfg0.win 5).blk t).view.emb (ix2 i j)) = _
  have h : ((cfg0.win 5).blk t).view.emb (ix2 i j) = ix2 i j := by
    funext a; apply Fin.ext
    match a with
    | ⟨0, _⟩ => show win0_5.index t (0 : Fin 2) * 64 + 1 * i.val = i.val; rw [e0]; omega
    | ⟨1, _⟩ => show win0_5.index t (1 : Fin 2) * 64 + 1 * j.val = j.val; rw [e1]; omega
  rw [h]

theorem blk6 (c : Dev nD) (t : Fin cfg0.N) (i : Fin 64) (j : Fin 64) :
    (iblk m c 6 t : Vec Ideal S64x64 .bf16) (ix2 i j) = (V m c main_v112 : S64x64.Idx → EReal) (ix2 i j) := by
  obtain ⟨e0, e1⟩ := ixmap6 t
  show (V m c main_v112 : S64x64.Idx → EReal) (((cfg0.win 6).blk t).view.emb (ix2 i j)) = _
  have h : ((cfg0.win 6).blk t).view.emb (ix2 i j) = ix2 i j := by
    funext a; apply Fin.ext
    match a with
    | ⟨0, _⟩ => show win0_6.index t (0 : Fin 2) * 64 + 1 * i.val = i.val; rw [e0]; omega
    | ⟨1, _⟩ => show win0_6.index t (1 : Fin 2) * 64 + 1 * j.val = j.val; rw [e1]; omega
  rw [h]

theorem blk7 (c : Dev nD) (t : Fin cfg0.N) (i : Fin 64) (j : Fin 64) :
    (iblk m c 7 t : Vec Ideal S64x64 .bf16) (ix2 i j) = (V m c main_v113 : S64x64.Idx → EReal) (ix2 i j) := by
  obtain ⟨e0, e1⟩ := ixmap7 t
  show (V m c main_v113 : S64x64.Idx → EReal) (((cfg0.win 7).blk t).view.emb (ix2 i j)) = _
  have h : ((cfg0.win 7).blk t).view.emb (ix2 i j) = ix2 i j := by
    funext a; apply Fin.ext
    match a with
    | ⟨0, _⟩ => show win0_7.index t (0 : Fin 2) * 64 + 1 * i.val = i.val; rw [e0]; omega
    | ⟨1, _⟩ => show win0_7.index t (1 : Fin 2) * 64 + 1 * j.val = j.val; rw [e1]; omega
  rw [h]

theorem blk8 (c : Dev nD) (t : Fin cfg0.N) (i : Fin 128) (j : Fin 64) :
    (iblk m c 8 t : Vec Ideal S128x64 .bf16) (ix2 i j) = (V m c main_v114 : S128x64.Idx → EReal) (ix2 i j) := by
  obtain ⟨e0, e1⟩ := ixmap8 t
  show (V m c main_v114 : S128x64.Idx → EReal) (((cfg0.win 8).blk t).view.emb (ix2 i j)) = _
  have h : ((cfg0.win 8).blk t).view.emb (ix2 i j) = ix2 i j := by
    funext a; apply Fin.ext
    match a with
    | ⟨0, _⟩ => show win0_8.index t (0 : Fin 2) * 128 + 1 * i.val = i.val; rw [e0]; omega
    | ⟨1, _⟩ => show win0_8.index t (1 : Fin 2) * 64 + 1 * j.val = j.val; rw [e1]; omega
  rw [h]

theorem blk9 (c : Dev nD) (t : Fin cfg0.N) (i : Fin 64) (j : Fin 64) :
    (iblk m c 9 t : Vec Ideal S64x64 .bf16) (ix2 i j) = (V m c main_v115 : S64x64.Idx → EReal) (ix2 i j) := by
  obtain ⟨e0, e1⟩ := ixmap9 t
  show (V m c main_v115 : S64x64.Idx → EReal) (((cfg0.win 9).blk t).view.emb (ix2 i j)) = _
  have h : ((cfg0.win 9).blk t).view.emb (ix2 i j) = ix2 i j := by
    funext a; apply Fin.ext
    match a with
    | ⟨0, _⟩ => show win0_9.index t (0 : Fin 2) * 64 + 1 * i.val = i.val; rw [e0]; omega
    | ⟨1, _⟩ => show win0_9.index t (1 : Fin 2) * 64 + 1 * j.val = j.val; rw [e1]; omega
  rw [h]

theorem blk10 (c : Dev nD) (t : Fin cfg0.N) (i : Fin 1) (j : Fin 64) :
    (iblk m c 10 t : Vec Ideal S1x64 .f32) (ix2 i j) = (V m c main_v116 : S1x64.Idx → EReal) (ix2 i j) := by
  obtain ⟨e0, e1⟩ := ixmap10 t
  show (V m c main_v116 : S1x64.Idx → EReal) (((cfg0.win 10).blk t).view.emb (ix2 i j)) = _
  have h : ((cfg0.win 10).blk t).view.emb (ix2 i j) = ix2 i j := by
    funext a; apply Fin.ext
    match a with
    | ⟨0, _⟩ => show win0_10.index t (0 : Fin 2) * 1 + 1 * i.val = i.val; rw [e0]; omega
    | ⟨1, _⟩ => show win0_10.index t (1 : Fin 2) * 64 + 1 * j.val = j.val; rw [e1]; omega
  rw [h]

theorem blk11 (c : Dev nD) (t : Fin cfg0.N) (i : Fin 64) (j : Fin 64) :
    (iblk m c 11 t : Vec Ideal S64x64 .bf16) (ix2 i j) = (V m c main_v117 : S64x64.Idx → EReal) (ix2 i j) := by
  obtain ⟨e0, e1⟩ := ixmap11 t
  show (V m c main_v117 : S64x64.Idx → EReal) (((cfg0.win 11).blk t).view.emb (ix2 i j)) = _
  have h : ((cfg0.win 11).blk t).view.emb (ix2 i j) = ix2 i j := by
    funext a; apply Fin.ext
    match a with
    | ⟨0, _⟩ => show win0_11.index t (0 : Fin 2) * 64 + 1 * i.val = i.val; rw [e0]; omega
    | ⟨1, _⟩ => show win0_11.index t (1 : Fin 2) * 64 + 1 * j.val = j.val; rw [e1]; omega
  rw [h]

theorem blk12 (c : Dev nD) (t : Fin cfg0.N) (i : Fin 1) (j : Fin 64) :
    (iblk m c 12 t : Vec Ideal S1x64 .f32) (ix2 i j) = (V m c main_v118 : S1x64.Idx → EReal) (ix2 i j) := by
  obtain ⟨e0, e1⟩ := ixmap12 t
  show (V m c main_v118 : S1x64.Idx → EReal) (((cfg0.win 12).blk t).view.emb (ix2 i j)) = _
  have h : ((cfg0.win 12).blk t).view.emb (ix2 i j) = ix2 i j := by
    funext a; apply Fin.ext
    match a with
    | ⟨0, _⟩ => show win0_12.index t (0 : Fin 2) * 1 + 1 * i.val = i.val; rw [e0]; omega
    | ⟨1, _⟩ => show win0_12.index t (1 : Fin 2) * 64 + 1 * j.val = j.val; rw [e1]; omega
  rw [h]

theorem blk13 (c : Dev nD) (t : Fin cfg0.N) (i : Fin 64) (j : Fin 64) :
    (iblk m c 13 t : Vec Ideal S64x64 .bf16) (ix2 i j) = (V m c main_v119 : S64x64.Idx → EReal) (ix2 i j) := by
  obtain ⟨e0, e1⟩ := ixmap13 t
  show (V m c main_v119 : S64x64.Idx → EReal) (((cfg0.win 13).blk t).view.emb (ix2 i j)) = _
  have h : ((cfg0.win 13).blk t).view.emb (ix2 i j) = ix2 i j := by
    funext a; apply Fin.ext
    match a with
    | ⟨0, _⟩ => show win0_13.index t (0 : Fin 2) * 64 + 1 * i.val = i.val; rw [e0]; omega
    | ⟨1, _⟩ => show win0_13.index t (1 : Fin 2) * 64 + 1 * j.val = j.val; rw [e1]; omega
  rw [h]

theorem blk14 (c : Dev nD) (t : Fin cfg0.N) (i : Fin 1) (j : Fin 64) :
    (iblk m c 14 t : Vec Ideal S1x64 .f32) (ix2 i j) = (V m c main_v120 : S1x64.Idx → EReal) (ix2 i j) := by
  obtain ⟨e0, e1⟩ := ixmap14 t
  show (V m c main_v120 : S1x64.Idx → EReal) (((cfg0.win 14).blk t).view.emb (ix2 i j)) = _
  have h : ((cfg0.win 14).blk t).view.emb (ix2 i j) = ix2 i j := by
    funext a; apply Fin.ext
    match a with
    | ⟨0, _⟩ => show win0_14.index t (0 : Fin 2) * 1 + 1 * i.val = i.val; rw [e0]; omega
    | ⟨1, _⟩ => show win0_14.index t (1 : Fin 2) * 64 + 1 * j.val = j.val; rw [e1]; omega
  rw [h]

theorem blk15 (c : Dev nD) (t : Fin cfg0.N) (i : Fin 64) (j : Fin 128) :
    (iblk m c 15 t : Vec Ideal S64x128 .bf16) (ix2 i j) = (V m c main_v121 : S64x128.Idx → EReal) (ix2 i j) := by
  obtain ⟨e0, e1⟩ := ixmap15 t
  show (V m c main_v121 : S64x128.Idx → EReal) (((cfg0.win 15).blk t).view.emb (ix2 i j)) = _
  have h : ((cfg0.win 15).blk t).view.emb (ix2 i j) = ix2 i j := by
    funext a; apply Fin.ext
    match a with
    | ⟨0, _⟩ => show win0_15.index t (0 : Fin 2) * 64 + 1 * i.val = i.val; rw [e0]; omega
    | ⟨1, _⟩ => show win0_15.index t (1 : Fin 2) * 128 + 1 * j.val = j.val; rw [e1]; omega
  rw [h]

theorem blk16 (c : Dev nD) (t : Fin cfg0.N) (i : Fin 1) (j : Fin 128) :
    (iblk m c 16 t : Vec Ideal S1x128 .f32) (ix2 i j) = (V m c main_v122 : S1x128.Idx → EReal) (ix2 i j) := by
  obtain ⟨e0, e1⟩ := ixmap16 t
  show (V m c main_v122 : S1x128.Idx → EReal) (((cfg0.win 16).blk t).view.emb (ix2 i j)) = _
  have h : ((cfg0.win 16).blk t).view.emb (ix2 i j) = ix2 i j := by
    funext a; apply Fin.ext
    match a with
    | ⟨0, _⟩ => show win0_16.index t (0 : Fin 2) * 1 + 1 * i.val = i.val; rw [e0]; omega
    | ⟨1, _⟩ => show win0_16.index t (1 : Fin 2) * 128 + 1 * j.val = j.val; rw [e1]; omega
  rw [h]

/-! ## The result array -/

/-- The edge function of row e of the arrays the region reads. -/
def edgeOut (c : Dev nD) (e : Fin 400000) (cc : Fin 3) (k : Fin 128) : EReal :=
  outParts (fun i => (V m c main_v99 : S400000x64.Idx → EReal) (ix2 e i)) (fun i => (V m c main_v107 : S400000x64.Idx → EReal) (ix2 e i))
    (fun i => (V m c main_v108 : S400000x64.Idx → EReal) (ix2 e i)) (fun i => (V m c main_v109 : S400000x64.Idx → EReal) (ix2 e i))
    (fun cc k => (V m c main_v91 : S400000x3x128.Idx → EReal) (ix3 e cc k))
    (fun i j => (V m c main_v111 : S64x64.Idx → EReal) (ix2 i j)) (fun i j => (V m c main_v112 : S64x64.Idx → EReal) (ix2 i j))
    (fun i j => (V m c main_v113 : S64x64.Idx → EReal) (ix2 i j)) (fun i j => (V m c main_v115 : S64x64.Idx → EReal) (ix2 i j))
    (fun i j => (V m c main_v114 : S128x64.Idx → EReal) (ix2 i j)) (fun j => (V m c main_v116 : S1x64.Idx → EReal) (ix2 (0 : Fin 1) j))
    (fun i j => (V m c main_v117 : S64x64.Idx → EReal) (ix2 i j)) (fun i j => (V m c main_v119 : S64x64.Idx → EReal) (ix2 i j))
    (fun j => (V m c main_v118 : S1x64.Idx → EReal) (ix2 (0 : Fin 1) j)) (fun j => (V m c main_v120 : S1x64.Idx → EReal) (ix2 (0 : Fin 1) j))
    (fun i j => (V m c main_v121 : S64x128.Idx → EReal) (ix2 i j)) (fun j => (V m c main_v122 : S1x128.Idx → EReal) (ix2 (0 : Fin 1) j)) cc k

/-- The same as a function of the result array's index. -/
def edgeArr (c : Dev nD) : S400000x3x128.Idx → EReal := fun i =>
  edgeOut m c ⟨(i 0).val, (i 0).isLt⟩ ⟨(i 1).val, (i 1).isLt⟩ ⟨(i 2).val, (i 2).isLt⟩

/-- What point t writes back is block t of that function. -/
theorem flushed_eq (c : Dev nD) (t : Fin cfg0.N) :
    (dats m 0 c).flushed 17 t = ((cfg0.win 17).blk t).view.read (Elt Ideal) (edgeArr m c) := by
  show (cfg0.win 17).cut (grid0.coords t) ((dats m 0 c).after 17 t) = _
  rw [after0_17]
  refine funext fun (y : S2000x3x128.Idx) => ?_
  obtain ⟨r, cc, k, rfl⟩ : ∃ (r : Fin 2000) (cc : Fin 3) (k : Fin 128), y = ix3 r cc k := ⟨y 0, y 1, y 2, eq_ix3 y⟩
  obtain ⟨e0, e1, e2⟩ := ixmap17 t
  show out0_17 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (ix3 r cc k) = edgeArr m c (((cfg0.win 17).blk t).view.emb (ix3 r cc k))
  have h : ((cfg0.win 17).blk t).view.emb (ix3 r cc k) = ix3 (edgeIx t r) cc k := by
    funext a; apply Fin.ext
    match a with
    | ⟨0, _⟩ => show win0_17.index t (0 : Fin 3) * 2000 + 1 * r.val = 2000 * t.val + r.val; rw [e0]; omega
    | ⟨1, _⟩ => show win0_17.index t (1 : Fin 3) * 3 + 1 * cc.val = cc.val; rw [e1]; omega
    | ⟨2, _⟩ => show win0_17.index t (2 : Fin 3) * 128 + 1 * k.val = k.val; rw [e2]; omega
  rw [h]
  refine (out_apply (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) r cc k).trans ?_
  show _ = edgeOut m c (edgeIx t r) cc k
  unfold edgeOut
  simp only [blk0 m c t r, blk1 m c t r, blk2 m c t r, blk3 m c t r, blk4 m c t r, blk5 m c t, blk6 m c t, blk7 m c t, blk8 m c t,
    blk9 m c t, blk10 m c t, blk11 m c t, blk12 m c t, blk13 m c t, blk14 m c t, blk15 m c t, blk16 m c t]

/-- An index of the result is in point t's block iff each coordinate is in the block's range. -/
theorem mem_blk (t : Fin cfg0.N) (i : S400000x3x128.Idx) :
    i ∈ ((cfg0.win 17).blk t).view.set ↔ ∀ a : Fin 3, win0_17.index t a * S2000x3x128.size a ≤ (i a).val ∧ (i a).val < win0_17.index t a * S2000x3x128.size a + S2000x3x128.size a := by
  show i ∈ ((View.whole main_v123).slice (win0_17.rect t)).set ↔ _
  rw [View.set_slice_whole, Rect.mem_set_unit]
  exact Iff.rfl

/-- After the run the result array is the edge function of the arrays the region read. -/
theorem final (c : Dev nD) : (dats m 0 c).arrAt 17 cfg0.N = edgeArr m c :=
  (dats m 0 c).arrAt_eq_of_cover 17 (edgeArr m c) (fun t _ => flushed_eq m c t) fun i => by
    have hi0 : (i 0).val < 400000 := (i 0).isLt
    have hi1 : (i 1).val < 3 := (i 1).isLt
    have hi2 : (i 2).val < 128 := (i 2).isLt
    have hN : cfg0.N = 200 := N_0
    refine ⟨⟨(i 0).val / 2000, by rw [hN]; omega⟩, flush0_17 _, ?_⟩
    rw [mem_blk]
    obtain ⟨e0, e1, e2⟩ := ixmap17 ⟨(i 0).val / 2000, by rw [hN]; omega⟩
    intro a
    match a with
    | ⟨0, _⟩ =>
      show win0_17.index _ (0 : Fin 3) * 2000 ≤ (i 0).val ∧ (i 0).val < win0_17.index _ (0 : Fin 3) * 2000 + 2000
      rw [e0]; show (i 0).val / 2000 * 2000 ≤ (i 0).val ∧ (i 0).val < (i 0).val / 2000 * 2000 + 2000; omega
    | ⟨1, _⟩ =>
      show win0_17.index _ (1 : Fin 3) * 3 ≤ (i 1).val ∧ (i 1).val < win0_17.index _ (1 : Fin 3) * 3 + 3
      rw [e1]; omega
    | ⟨2, _⟩ =>
      show win0_17.index _ (2 : Fin 3) * 128 ≤ (i 2).val ∧ (i 2).val < win0_17.index _ (2 : Fin 3) * 128 + 128
      rw [e2]; omega

end Cert.KernelIdeal.EdgeValue

end
-- ==== Proof.KernelInA.lean ====
/-
  THE ARRAYS THE REGION READS (1): the gathered feature rows and the relative positions.

  Before the region the program computes, from its arguments, the normalised features and positions and gathers them
  along the edges.  Those host lines are the reference's own, so each array is the reference's stage function of the
  same arguments (a narrowing of the float format is the identity on the extended reals).
-/
import proofs.«151455_j19911468384607_2_alg».proof.Proof.Gen.KernelIdeal.Frame
import proofs.«151455_j19911468384607_2_alg».proof.Proof.RefRead
import Idealize.ShloMosaic.Lib.StableHlo.Run
import Idealize.ShloMosaic.PureOps.Ideal

set_option maxRecDepth 16384

noncomputable section

namespace Cert.KernelIdeal.EdgeInputs

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

set_option maxHeartbeats 4000000 in
theorem in_tgt : (V m c main_v99 : S400000x64.Idx → EReal) = Cert.ReferenceIdeal.Read.val_main_v101 (F := Ideal) (m ((c : Thread nD τ).loc main_arg2)) (m ((c : Thread nD τ).loc main_arg3)) (m ((c : Thread nD τ).loc main_arg14)) (m ((c : Thread nD τ).loc main_arg15)) := by
  show StableHlo.after hostOps0 (fun b => m (c, b)) (Proc.devRef .tc main_v99) = _
  after_results_simp <;> rfl

set_option maxHeartbeats 4000000 in
theorem in_src : (V m c main_v107 : S400000x64.Idx → EReal) = Cert.ReferenceIdeal.Read.val_main_v108 (F := Ideal) (m ((c : Thread nD τ).loc main_arg2)) (m ((c : Thread nD τ).loc main_arg3)) (m ((c : Thread nD τ).loc main_arg14)) (m ((c : Thread nD τ).loc main_arg15)) := by
  show StableHlo.after hostOps0 (fun b => m (c, b)) (Proc.devRef .tc main_v107) = _
  after_results_simp <;> rfl

end Cert.KernelIdeal.EdgeInputs

end
-- ==== Proof.KernelInB.lean ====
/-
  THE ARRAYS THE REGION READS (2): the relative positions, and the two arrays the lines after the region read.
-/
import proofs.«151455_j19911468384607_2_alg».proof.Proof.Gen.KernelIdeal.Frame
import proofs.«151455_j19911468384607_2_alg».proof.Proof.RefRead
import Idealize.ShloMosaic.Lib.StableHlo.Run
import Idealize.ShloMosaic.PureOps.Ideal

set_option maxRecDepth 16384

noncomputable section

namespace Cert.KernelIdeal.EdgeInputs

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

set_option maxHeartbeats 4000000 in
theorem in_rel : (V m c main_v91 : S400000x3x128.Idx → EReal) = Cert.ReferenceIdeal.Read.val_main_v91 (F := Ideal) (m ((c : Thread nD τ).loc main_arg0)) (m ((c : Thread nD τ).loc main_arg1)) (m ((c : Thread nD τ).loc main_arg3)) (m ((c : Thread nD τ).loc main_arg16)) := by
  show StableHlo.after hostOps0 (fun b => m (c, b)) (Proc.devRef .tc main_v91) = _
  after_results_simp <;> rfl

set_option maxHeartbeats 4000000 in
theorem in_pos : (V m c main_v48 : S20000x3x128.Idx → EReal) = Cert.ReferenceIdeal.Read.val_main_v48 (F := Ideal) (m ((c : Thread nD τ).loc main_arg0)) (m ((c : Thread nD τ).loc main_arg1)) (m ((c : Thread nD τ).loc main_arg16)) := by
  show StableHlo.after hostOps0 (fun b => m (c, b)) (Proc.devRef .tc main_v48) = _
  after_results_simp <;> rfl

set_option maxHeartbeats 4000000 in
theorem in_tgtIdx : (V m c main_v76 : S400000.Idx → BitVec 32) = Cert.ReferenceIdeal.Read.val_main_v76 (F := Ideal) (m ((c : Thread nD τ).loc main_arg3)) := by
  show StableHlo.after hostOps0 (fun b => m (c, b)) (Proc.devRef .tc main_v76) = _
  after_results_simp <;> rfl

end Cert.KernelIdeal.EdgeInputs

end
-- ==== Proof.KernelInC.lean ====
/-
  THE ARRAYS THE REGION READS (3): the edge attributes, the time rows and the weights.

  Each is an argument itself, a block of rows of W₁, or a bias vector laid as a row; the narrowing of the float format
  is the identity on the extended reals.
-/
import proofs.«151455_j19911468384607_2_alg».proof.Proof.Gen.KernelIdeal.Frame
import Idealize.ShloMosaic.Lib.StableHlo.Run
import Idealize.ShloMosaic.PureOps.Ideal

set_option maxRecDepth 16384

noncomputable section

namespace Cert.KernelIdeal.EdgeInputs

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

set_option maxHeartbeats 4000000 in
theorem in_attr : (V m c main_v108 : S400000x64.Idx → EReal) = (truncf .bf16 (m ((c : Thread nD τ).loc main_arg4)) bitsLt_bf16_f32 : FVec Ideal S400000x64 .bf16) := by
  show StableHlo.after hostOps0 (fun b => m (c, b)) (Proc.devRef .tc main_v108) = _
  after_results_simp <;> rfl

set_option maxHeartbeats 4000000 in
theorem in_te : (V m c main_v109 : S400000x64.Idx → EReal) = (truncf .bf16 (m ((c : Thread nD τ).loc main_arg5)) bitsLt_bf16_f32 : FVec Ideal S400000x64 .bf16) := by
  show StableHlo.after hostOps0 (fun b => m (c, b)) (Proc.devRef .tc main_v109) = _
  after_results_simp <;> rfl

set_option maxHeartbeats 4000000 in
theorem in_wa : (V m c main_v111 : S64x64.Idx → EReal) = (extractStridedSlice S64x64 ![0, 0] (truncf .bf16 (m ((c : Thread nD τ).loc main_arg6)) bitsLt_bf16_f32 : FVec Ideal S384x64 .bf16) slices_S384x64_S64x64_0_0 : FVec Ideal S64x64 .bf16) := by
  show StableHlo.after hostOps0 (fun b => m (c, b)) (Proc.devRef .tc main_v111) = _
  after_results_simp <;> rfl

set_option maxHeartbeats 4000000 in
theorem in_wb : (V m c main_v112 : S64x64.Idx → EReal) = (extractStridedSlice S64x64 ![64, 0] (truncf .bf16 (m ((c : Thread nD τ).loc main_arg6)) bitsLt_bf16_f32 : FVec Ideal S384x64 .bf16) slices_S384x64_S64x64_64_0 : FVec Ideal S64x64 .bf16) := by
  show StableHlo.after hostOps0 (fun b => m (c, b)) (Proc.devRef .tc main_v112) = _
  after_results_simp <;> rfl

set_option maxHeartbeats 4000000 in
theorem in_wc : (V m c main_v113 : S64x64.Idx → EReal) = (extractStridedSlice S64x64 ![128, 0] (truncf .bf16 (m ((c : Thread nD τ).loc main_arg6)) bitsLt_bf16_f32 : FVec Ideal S384x64 .bf16) slices_S384x64_S64x64_128_0 : FVec Ideal S64x64 .bf16) := by
  show StableHlo.after hostOps0 (fun b => m (c, b)) (Proc.devRef .tc main_v113) = _
  after_results_simp <;> rfl

set_option maxHeartbeats 4000000 in
theorem in_wd : (V m c main_v114 : S128x64.Idx → EReal) = (extractStridedSlice S128x64 ![192, 0] (truncf .bf16 (m ((c : Thread nD τ).loc main_arg6)) bitsLt_bf16_f32 : FVec Ideal S384x64 .bf16) slices_S384x64_S128x64_192_0 : FVec Ideal S128x64 .bf16) := by
  show StableHlo.after hostOps0 (fun b => m (c, b)) (Proc.devRef .tc main_v114) = _
  after_results_simp <;> rfl

set_option maxHeartbeats 4000000 in
theorem in_we : (V m c main_v115 : S64x64.Idx → EReal) = (extractStridedSlice S64x64 ![320, 0] (truncf .bf16 (m ((c : Thread nD τ).loc main_arg6)) bitsLt_bf16_f32 : FVec Ideal S384x64 .bf16) slices_S384x64_S64x64_320_0 : FVec Ideal S64x64 .bf16) := by
  show StableHlo.after hostOps0 (fun b => m (c, b)) (Proc.devRef .tc main_v115) = _
  after_results_simp <;> rfl

set_option maxHeartbeats 4000000 in
theorem in_b1 : (V m c main_v116 : S1x64.Idx → EReal) = shapeCast S1x64 (m ((c : Thread nD τ).loc main_arg7)) shapeCasts_S64_S1x64 := by
  show StableHlo.after hostOps0 (fun b => m (c, b)) (Proc.devRef .tc main_v116) = _
  after_results_simp <;> rfl

set_option maxHeartbeats 4000000 in
theorem in_w2 : (V m c main_v117 : S64x64.Idx → EReal) = (truncf .bf16 (m ((c : Thread nD τ).loc main_arg8)) bitsLt_bf16_f32 : FVec Ideal S64x64 .bf16) := by
  show StableHlo.after hostOps0 (fun b => m (c, b)) (Proc.devRef .tc main_v117) = _
  after_results_simp <;> rfl

set_option maxHeartbeats 4000000 in
theorem in_b2 : (V m c main_v118 : S1x64.Idx → EReal) = shapeCast S1x64 (m ((c : Thread nD τ).loc main_arg9)) shapeCasts_S64_S1x64 := by
  show StableHlo.after hostOps0 (fun b => m (c, b)) (Proc.devRef .tc main_v118) = _
  after_results_simp <;> rfl

set_option maxHeartbeats 4000000 in
theorem in_w3 : (V m c main_v119 : S64x64.Idx → EReal) = (truncf .bf16 (m ((c : Thread nD τ).loc main_arg10)) bitsLt_bf16_f32 : FVec Ideal S64x64 .bf16) := by
  show StableHlo.after hostOps0 (fun b => m (c, b)) (Proc.devRef .tc main_v119) = _
  after_results_simp <;> rfl

set_option maxHeartbeats 4000000 in
theorem in_b3 : (V m c main_v120 : S1x64.Idx → EReal) = shapeCast S1x64 (m ((c : Thread nD τ).loc main_arg11)) shapeCasts_S64_S1x64 := by
  show StableHlo.after hostOps0 (fun b => m (c, b)) (Proc.devRef .tc main_v120) = _
  after_results_simp <;> rfl

set_option maxHeartbeats 4000000 in
theorem in_w4 : (V m c main_v121 : S64x128.Idx → EReal) = (truncf .bf16 (m ((c : Thread nD τ).loc main_arg12)) bitsLt_bf16_f32 : FVec Ideal S64x128 .bf16) := by
  show StableHlo.after hostOps0 (fun b => m (c, b)) (Proc.devRef .tc main_v121) = _
  after_results_simp <;> rfl

set_option maxHeartbeats 4000000 in
theorem in_b4 : (V m c main_v122 : S1x128.Idx → EReal) = shapeCast S1x128 (m ((c : Thread nD τ).loc main_arg13)) shapeCasts_S128_S1x128 := by
  show StableHlo.after hostOps0 (fun b => m (c, b)) (Proc.devRef .tc main_v122) = _
  after_results_simp <;> rfl

end Cert.KernelIdeal.EdgeInputs

end
-- ==== Proof.RefEdge.lean ====
/-
  THE REFERENCE'S EDGE STAGES, read at an index.

  The reference computes, for every edge e, the per-edge product  (rel / d) · w  before its scatter-add.  Read at (e, c, k) it
  is the edge function of EdgeSpec in its whole-row spelling: the first layer is ONE product of the concatenated row
  [h(tgt) | h(src) | attr | ‖rel‖² | te] with W₁, and the concatenation read entry by entry splits that sum into the five
  parts against the five row blocks of W₁.
-/
import proofs.«151455_j19911468384607_2_alg».proof.Proof.RefRead
import proofs.«151455_j19911468384607_2_alg».proof.Proof.LibEdgeLayout
import proofs.«151455_j19911468384607_2_alg».proof.Proof.EdgeSpec

noncomputable section

open scoped BigOperators

namespace Cert.ReferenceIdeal.EdgeStage

open Cert.ReferenceIdeal Cert.ReferenceIdeal.Gen Cert.ReferenceIdeal.Read Idealize.ShloMosaic Idealize.ShloMosaic.ValueIdx
  Cert.Lib.EdgeLayout Cert.EdgeSpec

variable (x0 : (⟨S20000, .i32⟩ : BufTy).Contents (Elt Ideal)) (x1 : (⟨S20000x3x128, .f32⟩ : BufTy).Contents (Elt Ideal))
  (x2 : (⟨S20000x64, .f32⟩ : BufTy).Contents (Elt Ideal)) (x3 : (⟨S2x400000, .i32⟩ : BufTy).Contents (Elt Ideal))
  (x4 x5 : (⟨S400000x64, .f32⟩ : BufTy).Contents (Elt Ideal)) (x6 : (⟨S384x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal)) (x10 : (⟨S64x64, .f32⟩ : BufTy).Contents (Elt Ideal))
  (x11 : (⟨S64, .f32⟩ : BufTy).Contents (Elt Ideal)) (x12 : (⟨S64x128, .f32⟩ : BufTy).Contents (Elt Ideal))
  (x13 : (⟨S128, .f32⟩ : BufTy).Contents (Elt Ideal)) (x14 x15 : (⟨S64, .f32⟩ : BufTy).Contents (Elt Ideal))
  (x16 : (⟨S1x1x128, .f32⟩ : BufTy).Contents (Elt Ideal))

/-- The concatenated row of edge e. -/
def row (e : Fin 400000) (q : Fin 384) : EReal := val_main_v109 (F := Ideal) x0 x1 x2 x3 x4 x5 x14 x15 x16 (ix2 e q)

/-- The relative position of edge e. -/
def relAt (e : Fin 400000) (c : Fin 3) (k : Fin 128) : EReal := val_main_v91 (F := Ideal) x0 x1 x3 x16 (ix3 e c k)

/-- The first layer's pre-activations of edge e: the whole row against W₁, plus the bias. -/
def preAt (e : Fin 400000) (j : Fin 64) : EReal :=
  (∑ q : Fin 384, row x0 x1 x2 x3 x4 x5 x14 x15 x16 e q * x6 (ix2 q j)) + x7 (ix1 j)

/-! ## The squared length and the divisor -/

theorem dist_apply (e : Fin 400000) (k : Fin 128) :
    val_main_v93 (F := Ideal) x0 x1 x3 x16 (ix2 e k) = relDistSum (relAt x0 x1 x3 x16 e) k := by
  rw [val_main_v93_apply]
  refine congrArg (_ + ·) (Finset.sum_congr rfl fun c _ => ?_)
  have hi : idx_main_v93 (ix2 e k) c = ix3 e c k :=
    funext fun a => Fin.ext (by match a with | ⟨0, _⟩ => rfl | ⟨1, _⟩ => rfl | ⟨2, _⟩ => rfl)
  rw [hi]
  rfl

theorem den_apply (e : Fin 400000) (c : Fin 3) (k : Fin 128) :
    val_main_v135 (F := Ideal) x0 x1 x3 x16 (ix3 e c k) = den (relDistSum (relAt x0 x1 x3 x16 e) k) := by
  have hi : idx_main_v135 (ix3 e c k) = ix3 e (0 : Fin 1) k :=
    funext fun a => Fin.ext (by match a with | ⟨0, _⟩ => rfl | ⟨1, _⟩ => rfl | ⟨2, _⟩ => rfl)
  have hj : idx_main_v129 (ix3 e (0 : Fin 1) k) = ix2 e k :=
    funext fun a => Fin.ext (by match a with | ⟨0, _⟩ => rfl | ⟨1, _⟩ => rfl)
  rw [val_main_v135_apply, hi, val_main_v134_apply, val_main_v133_apply, val_main_cst_29_apply, val_main_v132_apply, val_main_v131_apply,
    val_main_v130_apply, val_main_cst_28_apply, val_main_v129_apply, hj, dist_apply]
  simp only [Ideal.addf_def, Ideal.ofBits_def, Ideal.hostUnary_sqrt_def]
  rfl

/-! ## The layers after the first and the clamp -/

theorem weight_apply (e : Fin 400000) (k : Fin 128) :
    val_main_v128 (F := Ideal) x0 x1 x2 x3 x4 x5 x6 x7 x8 x9 x10 x11 x12 x13 x14 x15 x16 (ix2 e k)
      = weight siluSpelt (preAt x0 x1 x2 x3 x4 x5 x6 x7 x14 x15 x16 e) (fun i j => x8 (ix2 i j)) (fun i j => x10 (ix2 i j))
          (fun j => x9 (ix1 j)) (fun j => x11 (ix1 j)) (fun i j => x12 (ix2 i j)) (fun j => x13 (ix1 j)) k := by
  unfold weight
  show min hi (max lo (val_main_v127 (F := Ideal) x0 x1 x2 x3 x4 x5 x6 x7 x8 x9 x10 x11 x12 x13 x14 x15 x16 (ix2 e k))) = _
  refine congrArg (fun z => min hi (max lo z)) ?_
  unfold val_main_v127 val_main_v124 val_main_v126 val_main_v125
  refine (hostDense_apply dot_S400000x64_S64x128_S400000x128_1_0_0_1_n_n rfl rfl rfl rfl rfl rfl _ x12 x13 bcast_S128_S1x128_1 bcast_S1x128_S400000x128_0_1 e k).trans ?_
  refine congrArg (· + x13 (ix1 k)) (Finset.sum_congr rfl fun i _ => congrArg (· * x12 (ix2 i k)) ?_)
  show siluSpelt (val_main_v122 (F := Ideal) x0 x1 x2 x3 x4 x5 x6 x7 x8 x9 x10 x11 x14 x15 x16 (ix2 e i)) = _
  refine congrArg siluSpelt ?_
  unfold val_main_v122 val_main_v119 val_main_v121 val_main_v120
  refine (hostDense_apply dot_S400000x64_S64x64_S400000x64_1_0_0_1_n_n rfl rfl rfl rfl rfl rfl _ x10 x11 bcast_S64_S1x64_1 bcast_S1x64_S400000x64_0_1 e i).trans ?_
  refine congrArg (· + x11 (ix1 i)) (Finset.sum_congr rfl fun l _ => congrArg (· * x10 (ix2 l i)) ?_)
  unfold val_main_v118 val_main_v115 val_main_v117 val_main_v116
  refine (hostDense_apply dot_S400000x64_S64x64_S400000x64_1_0_0_1_n_n rfl rfl rfl rfl rfl rfl _ x8 x9 bcast_S64_S1x64_1 bcast_S1x64_S400000x64_0_1 e l).trans ?_
  refine congrArg (· + x9 (ix1 l)) (Finset.sum_congr rfl fun q _ => congrArg (· * x8 (ix2 q l)) ?_)
  show siluSpelt (val_main_v113 (F := Ideal) x0 x1 x2 x3 x4 x5 x6 x7 x14 x15 x16 (ix2 e q)) = _
  refine congrArg siluSpelt ?_
  unfold val_main_v113 val_main_v110 val_main_v112 val_main_v111 preAt row
  exact hostDense_apply dot_S400000x384_S384x64_S400000x64_1_0_0_1_n_n rfl rfl rfl rfl rfl rfl _ x6 x7 bcast_S64_S1x64_1 bcast_S1x64_S400000x64_0_1 e q

/-! ## The product before the scatter-add -/

theorem edge_apply (e : Fin 400000) (c : Fin 3) (k : Fin 128) :
    val_main_v139 (F := Ideal) x0 x1 x2 x3 x4 x5 x6 x7 x8 x9 x10 x11 x12 x13 x14 x15 x16 (ix3 e c k)
      = outWhole (preAt x0 x1 x2 x3 x4 x5 x6 x7 x14 x15 x16 e) (relAt x0 x1 x3 x16 e) (fun i j => x8 (ix2 i j)) (fun i j => x10 (ix2 i j))
          (fun j => x9 (ix1 j)) (fun j => x11 (ix1 j)) (fun i j => x12 (ix2 i j)) (fun j => x13 (ix1 j)) c k := by
  unfold outWhole
  have hi : idx_main_v138 (ix3 e c k) = ix3 e (0 : Fin 1) k :=
    funext fun a => Fin.ext (by match a with | ⟨0, _⟩ => rfl | ⟨1, _⟩ => rfl | ⟨2, _⟩ => rfl)
  have hj : idx_main_v137 (ix3 e (0 : Fin 1) k) = ix2 e k :=
    funext fun a => Fin.ext (by match a with | ⟨0, _⟩ => rfl | ⟨1, _⟩ => rfl)
  rw [val_main_v139_apply, val_main_v136_apply, den_apply, val_main_v138_apply, hi, val_main_v137_apply, hj, weight_apply]
  simp only [Ideal.mulf_def, Ideal.hostDivf_def]
  rfl

end Cert.ReferenceIdeal.EdgeStage

end
-- ==== Proof.RefRow.lean ====
/-
  THE REFERENCE'S CONCATENATED ROW, entry by entry.

  Row e of the [400000, 384] array is  [h(tgt) e | h(src) e | attr e | ‖rel e‖² | te e]  (widths 64, 64, 64, 128, 64;
  the third and fourth parts are themselves one concatenation of width 192).  So the one sum over 384 entries against W₁
  is the five sums against W₁'s row blocks at 0, 64, 128, 192 and 320.
-/
import proofs.«151455_j19911468384607_2_alg».proof.Proof.RefEdge

noncomputable section

open scoped BigOperators

namespace Cert.ReferenceIdeal.EdgeStage

open Cert.ReferenceIdeal Cert.ReferenceIdeal.Gen Cert.ReferenceIdeal.Read Idealize.ShloMosaic Idealize.ShloMosaic.ValueIdx
  Cert.Lib.EdgeLayout Cert.EdgeSpec

variable (x0 : (⟨S20000, .i32⟩ : BufTy).Contents (Elt Ideal)) (x1 : (⟨S20000x3x128, .f32⟩ : BufTy).Contents (Elt Ideal))
  (x2 : (⟨S20000x64, .f32⟩ : BufTy).Contents (Elt Ideal)) (x3 : (⟨S2x400000, .i32⟩ : BufTy).Contents (Elt Ideal))
  (x4 x5 : (⟨S400000x64, .f32⟩ : BufTy).Contents (Elt Ideal)) (x6 : (⟨S384x64, .f32⟩ : BufTy).Contents (Elt Ideal))
  (x7 : (⟨S64, .f32⟩ : BufTy).Contents (Elt Ideal)) (x14 x15 : (⟨S64, .f32⟩ : BufTy).Contents (Elt Ideal))
  (x16 : (⟨S1x1x128, .f32⟩ : BufTy).Contents (Elt Ideal))

theorem row_tgt (e : Fin 400000) (i : Fin 64) :
    row x0 x1 x2 x3 x4 x5 x14 x15 x16 e ⟨i.val, by omega⟩ = val_main_v101 (F := Ideal) x2 x3 x14 x15 (ix2 e i) := by
  unfold row val_main_v109
  exact concatenate_apply_piece (t := S400000x384) (1 : Fin 2)
    [⟨S400000x64, val_main_v101 (F := Ideal) x2 x3 x14 x15⟩, ⟨S400000x64, val_main_v108 (F := Ideal) x2 x3 x14 x15⟩,
      ⟨S400000x192, val_main_v94 (F := Ideal) x0 x1 x3 x4 x16⟩, ⟨S400000x64, x5⟩]
    concatenates_S400000x64_S400000x64_S400000x192_S400000x64_S400000x384_d1
    (ix2 e (⟨i.val, by omega⟩ : Fin 384)) 0 (by show (0 : Nat) < 4; omega) S400000x64 _ rfl rfl 0 rfl (ix2 e i)
    (fun b hb => by match b with | ⟨0, _⟩ => rfl | ⟨1, _⟩ => exact absurd rfl hb) (by first | rfl | exact Nat.zero_add _)

theorem row_src (e : Fin 400000) (i : Fin 64) :
    row x0 x1 x2 x3 x4 x5 x14 x15 x16 e ⟨64 + i.val, by omega⟩ = val_main_v108 (F := Ideal) x2 x3 x14 x15 (ix2 e i) := by
  unfold row val_main_v109
  exact concatenate_apply_piece (t := S400000x384) (1 : Fin 2)
    [⟨S400000x64, val_main_v101 (F := Ideal) x2 x3 x14 x15⟩, ⟨S400000x64, val_main_v108 (F := Ideal) x2 x3 x14 x15⟩,
      ⟨S400000x192, val_main_v94 (F := Ideal) x0 x1 x3 x4 x16⟩, ⟨S400000x64, x5⟩]
    concatenates_S400000x64_S400000x64_S400000x192_S400000x64_S400000x384_d1
    (ix2 e (⟨64 + i.val, by omega⟩ : Fin 384)) 1 (by show (1 : Nat) < 4; omega) S400000x64 _ rfl rfl 64 rfl (ix2 e i)
    (fun b hb => by match b with | ⟨0, _⟩ => rfl | ⟨1, _⟩ => exact absurd rfl hb) (by first | rfl | exact Nat.zero_add _)

theorem row_mid (e : Fin 400000) (q : Fin 384) (i : Fin 192) (hq : 128 + i.val = q.val) :
    row x0 x1 x2 x3 x4 x5 x14 x15 x16 e q = val_main_v94 (F := Ideal) x0 x1 x3 x4 x16 (ix2 e i) := by
  unfold row val_main_v109
  exact concatenate_apply_piece (t := S400000x384) (1 : Fin 2)
    [⟨S400000x64, val_main_v101 (F := Ideal) x2 x3 x14 x15⟩, ⟨S400000x64, val_main_v108 (F := Ideal) x2 x3 x14 x15⟩,
      ⟨S400000x192, val_main_v94 (F := Ideal) x0 x1 x3 x4 x16⟩, ⟨S400000x64, x5⟩]
    concatenates_S400000x64_S400000x64_S400000x192_S400000x64_S400000x384_d1
    (ix2 e q) 2 (by show (2 : Nat) < 4; omega) S400000x192 _ rfl rfl 128 rfl (ix2 e i)
    (fun b hb => by match b with | ⟨0, _⟩ => rfl | ⟨1, _⟩ => exact absurd rfl hb) hq

theorem row_attr (e : Fin 400000) (i : Fin 64) :
    row x0 x1 x2 x3 x4 x5 x14 x15 x16 e ⟨128 + i.val, by omega⟩ = x4 (ix2 e i) := by
  refine (row_mid x0 x1 x2 x3 x4 x5 x14 x15 x16 e ⟨128 + i.val, by omega⟩ ⟨i.val, by omega⟩ rfl).trans ?_
  unfold val_main_v94
  exact concatenate_pair_apply_left (1 : Fin 2) x4 _ concatenates_S400000x64_S400000x128_S400000x192_d1
    (ix2 e (⟨i.val, by omega⟩ : Fin 192)) (by rfl) (ix2 e i) (fun b => by match b with | ⟨0, _⟩ => rfl | ⟨1, _⟩ => rfl)

theorem row_dist (e : Fin 400000) (i : Fin 128) :
    row x0 x1 x2 x3 x4 x5 x14 x15 x16 e ⟨192 + i.val, by omega⟩ = relDistSum (relAt x0 x1 x3 x16 e) i := by
  refine (row_mid x0 x1 x2 x3 x4 x5 x14 x15 x16 e ⟨192 + i.val, by omega⟩ ⟨64 + i.val, by omega⟩ (by show 128 + (64 + i.val) = 192 + i.val; omega)).trans ?_
  unfold val_main_v94
  refine (concatenate_pair_apply_right (1 : Fin 2) x4 _ concatenates_S400000x64_S400000x128_S400000x192_d1
    (ix2 e (⟨64 + i.val, by omega⟩ : Fin 192)) (by rfl) rfl (ix2 e i)
    (fun b hb => by match b with | ⟨0, _⟩ => rfl | ⟨1, _⟩ => exact absurd rfl hb) (Nat.add_comm _ _)).trans ?_
  exact dist_apply x0 x1 x3 x16 e i

theorem row_te (e : Fin 400000) (i : Fin 64) :
    row x0 x1 x2 x3 x4 x5 x14 x15 x16 e ⟨320 + i.val, by omega⟩ = x5 (ix2 e i) := by
  unfold row val_main_v109
  exact concatenate_apply_piece (t := S400000x384) (1 : Fin 2)
    [⟨S400000x64, val_main_v101 (F := Ideal) x2 x3 x14 x15⟩, ⟨S400000x64, val_main_v108 (F := Ideal) x2 x3 x14 x15⟩,
      ⟨S400000x192, val_main_v94 (F := Ideal) x0 x1 x3 x4 x16⟩, ⟨S400000x64, x5⟩]
    concatenates_S400000x64_S400000x64_S400000x192_S400000x64_S400000x384_d1
    (ix2 e (⟨320 + i.val, by omega⟩ : Fin 384)) 3 (by show (3 : Nat) < 4; omega) S400000x64 _ rfl rfl 320 rfl (ix2 e i)
    (fun b hb => by match b with | ⟨0, _⟩ => rfl | ⟨1, _⟩ => exact absurd rfl hb) (by first | rfl | exact Nat.zero_add _)

/-- The first layer's pre-activations of edge e are the five-part sum over the row blocks of W₁. -/
theorem preAt_eq (e : Fin 400000) :
    preAt x0 x1 x2 x3 x4 x5 x6 x7 x14 x15 x16 e
      = pre5 (fun i => val_main_v101 (F := Ideal) x2 x3 x14 x15 (ix2 e i)) (fun i => val_main_v108 (F := Ideal) x2 x3 x14 x15 (ix2 e i))
          (fun i => x4 (ix2 e i)) (fun i => x5 (ix2 e i)) (relDistSum (relAt x0 x1 x3 x16 e))
          (fun i j => x6 (ix2 (⟨i.val, by omega⟩ : Fin 384) j)) (fun i j => x6 (ix2 (⟨64 + i.val, by omega⟩ : Fin 384) j))
          (fun i j => x6 (ix2 (⟨128 + i.val, by omega⟩ : Fin 384) j)) (fun i j => x6 (ix2 (⟨320 + i.val, by omega⟩ : Fin 384) j))
          (fun i j => x6 (ix2 (⟨192 + i.val, by omega⟩ : Fin 384) j)) (fun j => x7 (ix1 j)) := by
  funext j
  unfold preAt pre5
  rw [sum384]
  refine congrArg (· + x7 (ix1 j)) ?_
  refine congrArg₂ (· + ·) (congrArg₂ (· + ·) (congrArg₂ (· + ·) (congrArg₂ (· + ·) ?_ ?_) ?_) ?_) ?_
  · exact Finset.sum_congr rfl fun i _ => congrArg (· * _) (row_tgt x0 x1 x2 x3 x4 x5 x14 x15 x16 e i)
  · exact Finset.sum_congr rfl fun i _ => congrArg (· * _) (row_src x0 x1 x2 x3 x4 x5 x14 x15 x16 e i)
  · exact Finset.sum_congr rfl fun i _ => congrArg (· * _) (row_attr x0 x1 x2 x3 x4 x5 x14 x15 x16 e i)
  · exact Finset.sum_congr rfl fun i _ => congrArg (· * _) (row_dist x0 x1 x2 x3 x4 x5 x14 x15 x16 e i)
  · exact Finset.sum_congr rfl fun i _ => congrArg (· * _) (row_te x0 x1 x2 x3 x4 x5 x14 x15 x16 e i)

end Cert.ReferenceIdeal.EdgeStage

end
-- ==== Proof.Bridge.lean ====
/-
  THE REGION'S RESULT IS THE REFERENCE'S PER-EDGE PRODUCT.

  After the run the region's result array at (e, c, k) is the edge function, in its five-part spelling, of row e of the
  arrays the region read; those arrays are the reference's own stage functions of the arguments, the five weight blocks
  are the row blocks of W₁ at 0, 64, 128, 192 and 320, and the bias rows are the bias vectors.  The reference's product
  before its scatter-add is the edge function in the whole-row spelling of the same data.  EdgeSpec's law joins the two.
-/
import proofs.«151455_j19911468384607_2_alg».proof.Proof.KernelValue
import proofs.«151455_j19911468384607_2_alg».proof.Proof.KernelInA
import proofs.«151455_j19911468384607_2_alg».proof.Proof.KernelInB
import proofs.«151455_j19911468384607_2_alg».proof.Proof.KernelInC
import proofs.«151455_j19911468384607_2_alg».proof.Proof.RefRow

set_option maxRecDepth 16384

noncomputable section

open scoped BigOperators

namespace Cert.KernelIdeal.EdgeBridge

open Cert.KernelIdeal Cert.KernelIdeal.Gen Idealize.ShloMosaic Idealize.ShloMosaic.TcCoe Idealize.SL.Sem Idealize.ShloMosaic.ValueIdx
  Cert.EdgeSpec Cert.KernelIdeal.EdgeValue Cert.KernelIdeal.EdgeInputs

variable (m : (ℓ : Loc nD τ sig) → Buf (Elt Ideal) ℓ) (c : Dev nD)

/-- The region's result array is the reference's per-edge product of the same arguments. -/
theorem edgeArr_eq :
    edgeArr m c = Cert.ReferenceIdeal.Read.val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  funext i
  obtain ⟨e, cc, k, rfl⟩ : ∃ (e : Fin 400000) (cc : Fin 3) (k : Fin 128), i = ix3 e cc k := ⟨i 0, i 1, i 2, eq_ix3 i⟩
  show edgeOut m c e cc k = _
  rw [Cert.ReferenceIdeal.EdgeStage.edge_apply,
    outWhole_eq_outParts _ _ _ _ _ _ _ _ _ _ _ _ _ _ _ _ _ _ (Cert.ReferenceIdeal.EdgeStage.preAt_eq _ _ _ _ _ _ _ _ _ _ _ e) cc k]
  unfold edgeOut
  rw [in_tgt, in_src, in_rel, in_attr, in_te, in_wa, in_wb, in_wc, in_wd, in_we, in_b1, in_w2, in_b2, in_w3, in_b3, in_w4, in_b4]
  have hWa : (fun (i j : Fin 64) => (extractStridedSlice S64x64 ![0, 0] (truncf .bf16 (m ((c : Thread nD τ).loc main_arg6)) bitsLt_bf16_f32 : FVec Ideal S384x64 .bf16) slices_S384x64_S64x64_0_0 : FVec Ideal S64x64 .bf16) (ix2 i j))
      = fun i j => (m ((c : Thread nD τ).loc main_arg6)) (ix2 (⟨i.val, by omega⟩ : Fin 384) j) :=
    funext fun i => funext fun j => slice2_axis0_apply 0 _ slices_S384x64_S64x64_0_0 i j _ (Nat.zero_add _).symm
  have hWb : (fun (i j : Fin 64) => (extractStridedSlice S64x64 ![64, 0] (truncf .bf16 (m ((c : Thread nD τ).loc main_arg6)) bitsLt_bf16_f32 : FVec Ideal S384x64 .bf16) slices_S384x64_S64x64_64_0 : FVec Ideal S64x64 .bf16) (ix2 i j))
      = fun i j => (m ((c : Thread nD τ).loc main_arg6)) (ix2 (⟨64 + i.val, by omega⟩ : Fin 384) j) :=
    funext fun i => funext fun j => slice2_axis0_apply 64 _ slices_S384x64_S64x64_64_0 i j _ rfl
  have hWc : (fun (i j : Fin 64) => (extractStridedSlice S64x64 ![128, 0] (truncf .bf16 (m ((c : Thread nD τ).loc main_arg6)) bitsLt_bf16_f32 : FVec Ideal S384x64 .bf16) slices_S384x64_S64x64_128_0 : FVec Ideal S64x64 .bf16) (ix2 i j))
      = fun i j => (m ((c : Thread nD τ).loc main_arg6)) (ix2 (⟨128 + i.val, by omega⟩ : Fin 384) j) :=
    funext fun i => funext fun j => slice2_axis0_apply 128 _ slices_S384x64_S64x64_128_0 i j _ rfl
  have hWd : (fun (i : Fin 128) (j : Fin 64) => (extractStridedSlice S128x64 ![192, 0] (truncf .bf16 (m ((c : Thread nD τ).loc main_arg6)) bitsLt_bf16_f32 : FVec Ideal S384x64 .bf16) slices_S384x64_S128x64_192_0 : FVec Ideal S128x64 .bf16) (ix2 i j))
      = fun i j => (m ((c : Thread nD τ).loc main_arg6)) (ix2 (⟨192 + i.val, by omega⟩ : Fin 384) j) :=
    funext fun i => funext fun j => slice2_axis0_apply 192 _ slices_S384x64_S128x64_192_0 i j _ rfl
  have hWe : (fun (i j : Fin 64) => (extractStridedSlice S64x64 ![320, 0] (truncf .bf16 (m ((c : Thread nD τ).loc main_arg6)) bitsLt_bf16_f32 : FVec Ideal S384x64 .bf16) slices_S384x64_S64x64_320_0 : FVec Ideal S64x64 .bf16) (ix2 i j))
      = fun i j => (m ((c : Thread nD τ).loc main_arg6)) (ix2 (⟨320 + i.val, by omega⟩ : Fin 384) j) :=
    funext fun i => funext fun j => slice2_axis0_apply 320 _ slices_S384x64_S64x64_320_0 i j _ rfl
  have hb1 : (fun j : Fin 64 => shapeCast S1x64 (m ((c : Thread nD τ).loc main_arg7)) shapeCasts_S64_S1x64 (ix2 (0 : Fin 1) j)) = fun j => (m ((c : Thread nD τ).loc main_arg7)) (ix1 j) :=
    funext fun j => shapeCast_a_1a_apply _ shapeCasts_S64_S1x64 0 j
  have hb2 : (fun j : Fin 64 => shapeCast S1x64 (m ((c : Thread nD τ).loc main_arg9)) shapeCasts_S64_S1x64 (ix2 (0 : Fin 1) j)) = fun j => (m ((c : Thread nD τ).loc main_arg9)) (ix1 j) :=
    funext fun j => shapeCast_a_1a_apply _ shapeCasts_S64_S1x64 0 j
  have hb3 : (fun j : Fin 64 => shapeCast S1x64 (m ((c : Thread nD τ).loc main_arg11)) shapeCasts_S64_S1x64 (ix2 (0 : Fin 1) j)) = fun j => (m ((c : Thread nD τ).loc main_arg11)) (ix1 j) :=
    funext fun j => shapeCast_a_1a_apply _ shapeCasts_S64_S1x64 0 j
  have hb4 : (fun j : Fin 128 => shapeCast S1x128 (m ((c : Thread nD τ).loc main_arg13)) shapeCasts_S128_S1x128 (ix2 (0 : Fin 1) j)) = fun j => (m ((c : Thread nD τ).loc main_arg13)) (ix1 j) :=
    funext fun j => shapeCast_a_1a_apply _ shapeCasts_S128_S1x128 0 j
  rw [hWa, hWb, hWc, hWd, hWe, hb1, hb2, hb3, hb4]
  rfl

end Cert.KernelIdeal.EdgeBridge

end
-- ==== Proof.KernelRun.lean ====
/-
  THE LINES AFTER THE REGION, AND THE KERNEL PROGRAM'S RUN.

  After the region the program scatter-adds the region's result along the target nodes into a zero array and adds the
  normalised positions.  Read off the frame run, the program's result is that sum over the region's result array, the
  positions and the target indices as the region found them — which are the reference's stage functions of the arguments,
  so the result is the reference's last stage of the arguments.
-/
import proofs.«151455_j19911468384607_2_alg».proof.Proof.Bridge
import Idealize.ShloMosaic.Lib.Pipeline.FrameSuffix
import Idealize.ShloMosaic.Lib.StableHlo.Run
import Idealize.ShloMosaic.PureOps.Ideal

set_option maxRecDepth 16384

noncomputable section

namespace Cert.KernelIdeal.EdgeRun

open Cert.KernelIdeal Cert.KernelIdeal.Gen Idealize.ShloMosaic Idealize.ShloMosaic.TcCoe Idealize.SL.Sem Idealize.ShloMosaic.StableHlo
  Cert.KernelIdeal.EdgeValue Cert.KernelIdeal.EdgeInputs Cert.KernelIdeal.EdgeBridge

variable (m : (ℓ : Loc nD τ sig) → Buf (Elt Ideal) ℓ) (ρ : Dev nD → PrngReg)

set_option maxHeartbeats 4000000 in
/-- The program's result after the lines that follow the region. -/
theorem tail_eq (c : Dev nD) :
    Pipeline.afterTail₀ cfgs (dats m) 0 (V0 m) [hostOps1] c main_v127
      = addf (V m c main_v48 : S20000x3x128.Idx → EReal)
          (Host.scatterAdd (F := Ideal) scatter_S20000x3x128_S400000x1_S400000x3x128_12_0_0_1
            (broadcastInDim S20000x3x128 ![] bcast_S_S20000x3x128 (constant (F := Ideal) S_ .f32 0x00000000#32))
            (broadcastInDim S400000x1 ![0] bcast_S400000_S400000x1_0 (V m c main_v76 : S400000.Idx → BitVec 32))
            ((dats m 0 c).arrAt 17 cfg0.N)) := by
  unfold Pipeline.afterTail₀
  show StableHlo.after hostOps1 _ (Proc.devRef .tc main_v127) = _
  after_results
  rw [Pipeline.withArrays_of_ne (cfgs 0).spec c _ _ main_v48 (by decide), Pipeline.withArrays_of_ne (cfgs 0).spec c _ _ main_v76 (by decide)]
  have h17 : Pipeline.withArrays (cfgs 0).spec c (V0 m c) (fun w => (dats m 0 c).arrAt w (cfgs 0).N) (Proc.devRef .tc main_v123)
      = (dats m 0 c).arrAt 17 cfg0.N := Pipeline.withArrays_arr spec0 launch0.win.arr_inj c _ _ 17
  rw [h17]

/-- The program's result is the reference's last stage of the arguments. -/
theorem result_eq (c : Dev nD) :
    Pipeline.afterTail₀ cfgs (dats m) 0 (V0 m) [hostOps1] c main_v127
      = Cert.ReferenceIdeal.Read.val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [tail_eq, final, edgeArr_eq, in_pos, in_tgtIdx]
  rfl

/-- The kernel program's run: it terminates with its result at the reference's last stage of the arguments, the arguments
    unchanged. -/
theorem run : θ_run defs (onTc (τ := τ) (main (F := Ideal))) ⟨m, fun _ => 0, ρ⟩ (fun r => ∀ c : Dev nD,
      r.2.mem ((c.tc : Thread nD τ).loc main_v127) = Cert.ReferenceIdeal.Read.val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_v127 (Pipeline.mem_restRefs_of main_v127 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c)⟩)
    (run_main m ρ)

end Cert.KernelIdeal.EdgeRun

end
-- ==== Proof.lean ====
/-
  An equivariant message-passing layer on a graph of 20000 nodes and 400000 edges: the kernel program against its reference.

  Both programs first centre and normalise the positions X per graph and layer-normalise the node features H, and gather
  them along the edges: rel = Xn[src] − Xn[tgt], h(tgt), h(src).  Per edge they then compute
      w = clamp (MLP₂ (MLP₁ [h(tgt) | h(src) | attr | ‖rel‖² | te]))      and      rel · w / (1 + sqrt (‖rel‖² + 1e-8)),
  scatter-add that product into the edge's target node and add the normalised positions.

  The kernel program does the per-edge part in a grid of 200 blocks of 2000 edges: the first layer as five products
  against the five row blocks of W₁ (rows 0, 64, 128, 192, 320), silu as x · logistic x, and the product as
  rel · (w / d).  The reference takes one product of the concatenated 384-entry row, spells the logistic function out, and
  ends with (rel / d) · w.  On the extended reals the two agree entry by entry: finite sums may be regrouped, the f32 word
  of 1.0 is the real 1, and d = 1 + sqrt(·) is never zero, so both quotients are products with d⁻¹ (EdgeSpec).  No
  finiteness of the inputs is needed for the value; the lines before and after the region are the same in both programs
  and are carried along unopened.

  The modules: EdgeSpec (the edge function and the law), KernelBlock (the stored block at an index), KernelValue (blocks to
  the whole array), KernelInA/B/C (the arrays the region reads, as functions of the arguments), RefEdge and RefRow (the
  reference's stages at an index), Bridge (the region's result is the reference's per-edge product), KernelRun (the
  lines after the region and the kernel program's run), RefRun (the reference's run, read in two stretches).
-/
import proofs.«151455_j19911468384607_2_alg».proof.Defs
import proofs.«151455_j19911468384607_2_alg».proof.Proof.Gen.Kernel
import proofs.«151455_j19911468384607_2_alg».proof.Proof.Gen.Kernel.Skeleton
import proofs.«151455_j19911468384607_2_alg».proof.Proof.Gen.Kernel.Launch
import proofs.«151455_j19911468384607_2_alg».proof.Proof.Gen.Kernel.Points
import proofs.«151455_j19911468384607_2_alg».proof.Proof.Gen.Kernel.Frame
import proofs.«151455_j19911468384607_2_alg».proof.Proof.Gen.KernelIdeal
import proofs.«151455_j19911468384607_2_alg».proof.Proof.Gen.KernelIdeal.Skeleton
import proofs.«151455_j19911468384607_2_alg».proof.Proof.Gen.KernelIdeal.Launch
import proofs.«151455_j19911468384607_2_alg».proof.Proof.Gen.KernelIdeal.Points
import proofs.«151455_j19911468384607_2_alg».proof.Proof.Gen.KernelIdeal.Frame
import proofs.«151455_j19911468384607_2_alg».proof.Proof.Gen.ReferenceIdeal
import proofs.«151455_j19911468384607_2_alg».proof.Proof.Gen.Pre_finite_inputs
import proofs.«151455_j19911468384607_2_alg».proof.Proof.RefRun
import proofs.«151455_j19911468384607_2_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

/-- Both programs end at the reference's last stage of the arguments: the kernel program by its run read through the
    region (KernelRun), the reference by its own run. -/
theorem algebraic : Cert.algebraic_KernelIdeal_ReferenceIdeal := by
  intro m ρ m' ρ' _ hagree
  refine ⟨fun c => Cert.ReferenceIdeal.Read.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), Cert.KernelIdeal.EdgeRun.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2.1,
    (hagree c).2.2.2.2.2.2.2.2.2.2.2.2.2.1, (hagree c).2.2.2.2.2.2.2.2.2.2.2.2.2.2.1, (hagree c).2.2.2.2.2.2.2.2.2.2.2.2.2.2.2.1,
    (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
